-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S300000x16 : Shape := ⟨2, ![300000, 16]⟩
abbrev S300000 : Shape := ⟨1, ![300000]⟩
abbrev S100000 : Shape := ⟨1, ![100000]⟩
abbrev S128x300 : Shape := ⟨2, ![128, 300]⟩
abbrev S300 : Shape := ⟨1, ![300]⟩
abbrev S16x300 : Shape := ⟨2, ![16, 300]⟩
abbrev S3x300x300 : Shape := ⟨3, ![3, 300, 300]⟩
abbrev S3x300 : Shape := ⟨2, ![3, 300]⟩
abbrev S300x1024 : Shape := ⟨2, ![300, 1024]⟩
abbrev S1024 : Shape := ⟨1, ![1024]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S300000x16 : S_.BroadcastsInDim S300000x16 (![] : Fin 0 → Fin S300000x16.rank)
  reducesTo_S300000x16_S_d0_1 : S300000x16.ReducesTo [0, 1] S_
  bcast_S_S128x300 : S_.BroadcastsInDim S128x300 (![] : Fin 0 → Fin S128x300.rank)
  reducesTo_S128x300_S_d0_1 : S128x300.ReducesTo [0, 1] S_
  bcast_S_S300 : S_.BroadcastsInDim S300 (![] : Fin 0 → Fin S300.rank)
  reducesTo_S300_S_d0 : S300.ReducesTo [0] S_
  bcast_S_S16x300 : S_.BroadcastsInDim S16x300 (![] : Fin 0 → Fin S16x300.rank)
  reducesTo_S16x300_S_d0_1 : S16x300.ReducesTo [0, 1] S_
  bcast_S_S3x300x300 : S_.BroadcastsInDim S3x300x300 (![] : Fin 0 → Fin S3x300x300.rank)
  reducesTo_S3x300x300_S_d0_1_2 : S3x300x300.ReducesTo [0, 1, 2] S_
  bcast_S_S3x300 : S_.BroadcastsInDim S3x300 (![] : Fin 0 → Fin S3x300.rank)
  reducesTo_S3x300_S_d0_1 : S3x300.ReducesTo [0, 1] S_
  bcast_S_S300x1024 : S_.BroadcastsInDim S300x1024 (![] : Fin 0 → Fin S300x1024.rank)
  reducesTo_S300x1024_S_d0_1 : S300x1024.ReducesTo [0, 1] S_
  bcast_S_S1024 : S_.BroadcastsInDim S1024 (![] : Fin 0 → Fin S1024.rank)
  reducesTo_S1024_S_d0 : S1024.ReducesTo [0] S_
  reducesTo_S_S_d : S_.ReducesTo [] S_

variable [Facts]

def fn_part3 {F : FTy → Type} [FloatOps F] (main_arg14 : FVec F S1024 .f32) (main_arg15 : FVec F S_ .f32) (main_v48 : IVec S_ 1) (main_v49 : FVec F S300x1024 .f32) (main_v50 : FVec F S300x1024 .f32) : IVec S_ 1 :=
  let main_v51 : IVec S300x1024 1 := cmpf .olt main_v49 main_v50
  let main_c_19 : IVec S_ 1 := constantI S_ 1 1#1
  let main_v52 : IVec S_ 1 := (fun x v => Host.reduce IntOp.andi x v reducesTo_S300x1024_S_d0_1 h_S_) main_v51 main_c_19
  let main_v53 : IVec S_ 1 := andi main_v48 main_v52
  let main_v54 : FVec F S1024 .f32 := Host.absf main_arg14
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S_ .f32 := Host.absf main_arg15
  let main_cst_22 : FVec F S_ .f32 := constant S_ .f32 0x7F800000#32
  let main_v60 : IVec S_ 1 := cmpf .olt main_v59 main_cst_22
  let main_c_23 : IVec S_ 1 := constantI S_ 1 1#1
  let main_v61 : IVec S_ 1 := (fun x v => Host.reduce IntOp.andi x v reducesTo_S_S_d h_S_) main_v60 main_c_23
  let main_v62 : IVec S_ 1 := andi main_v58 main_v61
  main_v62

def fn_part2 {F : FTy → Type} [FloatOps F] (main_arg10 : FVec F S3x300 .f32) (main_arg11 : FVec F S3x300x300 .f32) (main_arg12 : FVec F S3x300 .f32) (main_arg13 : FVec F S300x1024 .f32) (main_arg14 : FVec F S1024 .f32) (main_arg15 : FVec F S_ .f32) (main_v33 : IVec S_ 1) : IVec S_ 1 :=
  let main_v34 : FVec F S3x300 .f32 := Host.absf main_arg10
  let main_cst_12 : FVec F S_ .f32 := constant S_ .f32 0x7F800000#32
  let main_v35 : FVec F S3x300 .f32 := broadcastInDim S3x300 ![] bcast_S_S3x300 main_cst_12
  let main_v36 : IVec S3x300 1 := cmpf .olt main_v34 main_v35
  let main_c_13 : IVec S_ 1 := constantI S_ 1 1#1
  let main_v37 : IVec S_ 1 := (fun x v => Host.reduce IntOp.andi x v reducesTo_S3x300_S_d0_1 h_S_) main_v36 main_c_13
  let main_v38 : IVec S_ 1 := andi main_v33 main_v37
  let main_v39 : FVec F S3x300x300 .f32 := Host.absf main_arg11
  let main_cst_14 : FVec F S_ .f32 := constant S_ .f32 0x7F800000#32
  let main_v40 : FVec F S3x300x300 .f32 := broadcastInDim S3x300x300 ![] bcast_S_S3x300x300 main_cst_14
  let main_v41 : IVec S3x300x300 1 := cmpf .olt main_v39 main_v40
  let main_c_15 : IVec S_ 1 := constantI S_ 1 1#1
  let main_v42 : IVec S_ 1 := (fun x v => Host.reduce IntOp.andi x v reducesTo_S3x300x300_S_d0_1_2 h_S_) main_v41 main_c_15
  let main_v43 : IVec S_ 1 := andi main_v38 main_v42
  let main_v44 : FVec F S3x300 .f32 := Host.absf main_arg12
  let main_cst_16 : FVec F S_ .f32 := constant S_ .f32 0x7F800000#32
  let main_v45 : FVec F S3x300 .f32 := broadcastInDim S3x300 ![] bcast_S_S3x300 main_cst_16
  let main_v46 : IVec S3x300 1 := cmpf .olt main_v44 main_v45
  let main_c_17 : IVec S_ 1 := constantI S_ 1 1#1
  let main_v47 : IVec S_ 1 := (fun x v => Host.reduce IntOp.andi x v reducesTo_S3x300_S_d0_1 h_S_) main_v46 main_c_17
  let main_v48 : IVec S_ 1 := andi main_v43 main_v47
  let main_v49 : FVec F S300x1024 .f32 := Host.absf main_arg13
  let main_cst_18 : FVec F S_ .f32 := constant S_ .f32 0x7F800000#32
  let main_v50 : FVec F S300x1024 .f32 := broadcastInDim S300x1024 ![] bcast_S_S300x1024 main_cst_18
  fn_part3 (F := F) main_arg14 main_arg15 main_v48 main_v49 main_v50

def fn_part1 {F : FTy → Type} [FloatOps F] (main_arg7 : FVec F S16x300 .f32) (main_arg8 : FVec F S300 .f32) (main_arg9 : FVec F S3x300x300 .f32) (main_arg10 : FVec F S3x300 .f32) (main_arg11 : FVec F S3x300x300 .f32) (main_arg12 : FVec F S3x300 .f32) (main_arg13 : FVec F S300x1024 .f32) (main_arg14 : FVec F S1024 .f32) (main_arg15 : FVec F S_ .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S16x300 .f32 := Host.absf main_arg7
  let main_cst_6 : FVec F S_ .f32 := constant S_ .f32 0x7F800000#32
  let main_v20 : FVec F S16x300 .f32 := broadcastInDim S16x300 ![] bcast_S_S16x300 main_cst_6
  let main_v21 : IVec S16x300 1 := cmpf .olt main_v19 main_v20
  let main_c_7 : IVec S_ 1 := constantI S_ 1 1#1
  let main_v22 : IVec S_ 1 := (fun x v => Host.reduce IntOp.andi x v reducesTo_S16x300_S_d0_1 h_S_) main_v21 main_c_7
  let main_v23 : IVec S_ 1 := andi main_v18 main_v22
  let main_v24 : FVec F S300 .f32 := Host.absf main_arg8
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  let main_v29 : FVec F S3x300x300 .f32 := Host.absf main_arg9
  let main_cst_10 : FVec F S_ .f32 := constant S_ .f32 0x7F800000#32
  let main_v30 : FVec F S3x300x300 .f32 := broadcastInDim S3x300x300 ![] bcast_S_S3x300x300 main_cst_10
  let main_v31 : IVec S3x300x300 1 := cmpf .olt main_v29 main_v30
  let main_c_11 : IVec S_ 1 := constantI S_ 1 1#1
  let main_v32 : IVec S_ 1 := (fun x v => Host.reduce IntOp.andi x v reducesTo_S3x300x300_S_d0_1_2 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : FVec F S300000x16 .f32) (main_arg2 : IVec S300000 32) (main_arg3 : IVec S300000 32) (main_arg4 : IVec S100000 32) (main_arg5 : FVec F S128x300 .f32) (main_arg6 : FVec F S300 .f32) (main_arg7 : FVec F S16x300 .f32) (main_arg8 : FVec F S300 .f32) (main_arg9 : FVec F S3x300x300 .f32) (main_arg10 : FVec F S3x300 .f32) (main_arg11 : FVec F S3x300x300 .f32) (main_arg12 : FVec F S3x300 .f32) (main_arg13 : FVec F S300x1024 .f32) (main_arg14 : FVec F S1024 .f32) (main_arg15 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S300000x16 .f32 := Host.absf main_arg1
  let main_cst_0 : FVec F S_ .f32 := constant S_ .f32 0x7F800000#32
  let main_v5 : FVec F S300000x16 .f32 := broadcastInDim S300000x16 ![] bcast_S_S300000x16 main_cst_0
  let main_v6 : IVec S300000x16 1 := cmpf .olt main_v4 main_v5
  let main_c_1 : IVec S_ 1 := constantI S_ 1 1#1
  let main_v7 : IVec S_ 1 := (fun x v => Host.reduce IntOp.andi x v reducesTo_S300000x16_S_d0_1 h_S_) main_v6 main_c_1
  let main_v8 : IVec S_ 1 := andi main_v3 main_v7
  let main_v9 : FVec F S128x300 .f32 := Host.absf main_arg5
  let main_cst_2 : FVec F S_ .f32 := constant S_ .f32 0x7F800000#32
  let main_v10 : FVec F S128x300 .f32 := broadcastInDim S128x300 ![] bcast_S_S128x300 main_cst_2
  let main_v11 : IVec S128x300 1 := cmpf .olt main_v9 main_v10
  let main_c_3 : IVec S_ 1 := constantI S_ 1 1#1
  let main_v12 : IVec S_ 1 := (fun x v => Host.reduce IntOp.andi x v reducesTo_S128x300_S_d0_1 h_S_) main_v11 main_c_3
  let main_v13 : IVec S_ 1 := andi main_v8 main_v12
  let main_v14 : FVec F S300 .f32 := Host.absf main_arg6
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S300000x16 : Shape := ⟨2, ![300000, 16]⟩
abbrev S300000 : Shape := ⟨1, ![300000]⟩
abbrev S100000 : Shape := ⟨1, ![100000]⟩
abbrev S128x300 : Shape := ⟨2, ![128, 300]⟩
abbrev S300 : Shape := ⟨1, ![300]⟩
abbrev S16x300 : Shape := ⟨2, ![16, 300]⟩
abbrev S3x300x300 : Shape := ⟨3, ![3, 300, 300]⟩
abbrev S3x300 : Shape := ⟨2, ![3, 300]⟩
abbrev S300x1024 : Shape := ⟨2, ![300, 1024]⟩
abbrev S1024 : Shape := ⟨1, ![1024]⟩
abbrev S_ : Shape := ⟨0, ![]⟩
abbrev S1x300 : Shape := ⟨2, ![1, 300]⟩
abbrev S100000x300 : Shape := ⟨2, ![100000, 300]⟩
abbrev S2000x128 : Shape := ⟨2, ![2000, 128]⟩
abbrev S2000x300 : Shape := ⟨2, ![2000, 300]⟩
abbrev S300000x300 : Shape := ⟨2, ![300000, 300]⟩
abbrev S3000x16 : Shape := ⟨2, ![3000, 16]⟩
abbrev S3000x300 : Shape := ⟨2, ![3000, 300]⟩
abbrev S300000x1 : Shape := ⟨2, ![300000, 1]⟩
abbrev S1x300x300 : Shape := ⟨3, ![1, 300, 300]⟩
abbrev S300x300 : Shape := ⟨2, ![300, 300]⟩
abbrev S1000x300 : Shape := ⟨2, ![1000, 300]⟩
abbrev S100000x1 : Shape := ⟨2, ![100000, 1]⟩
abbrev S2000x1 : Shape := ⟨2, ![2000, 1]⟩
abbrev S1x1024 : Shape := ⟨2, ![1, 1024]⟩
abbrev S2000x1024 : Shape := ⟨2, ![2000, 1024]⟩
abbrev S400x300 : Shape := ⟨2, ![400, 300]⟩
abbrev S400x1024 : Shape := ⟨2, ![400, 1024]⟩

abbrev nBuf : Space → Nat
  | .hbm => 148
  | .vmem => 48
  | .smem => 0
  | _ => 0

abbrev hbmTy0_0 (i : Nat) : BufTy := match i % 128 with
  | 0 => ⟨S100000x128, .f32⟩
  | 1 => ⟨S300000x16, .f32⟩
  | 2 => ⟨S300000, .i32⟩
  | 3 => ⟨S300000, .i32⟩
  | 4 => ⟨S100000, .i32⟩
  | 5 => ⟨S128x300, .f32⟩
  | 6 => ⟨S300, .f32⟩
  | 7 => ⟨S16x300, .f32⟩
  | 8 => ⟨S300, .f32⟩
  | 9 => ⟨S3x300x300, .f32⟩
  | 10 => ⟨S3x300, .f32⟩
  | 11 => ⟨S3x300x300, .f32⟩
  | 12 => ⟨S3x300, .f32⟩
  | 13 => ⟨S300x1024, .f32⟩
  | 14 => ⟨S1024, .f32⟩
  | 15 => ⟨S_, .f32⟩
  | 16 => ⟨S1x300, .f32⟩
  | 17 => ⟨S100000x300, .f32⟩
  | 18 => ⟨S1x300, .f32⟩
  | 19 => ⟨S300000x300, .f32⟩
  | 20 => ⟨S_, .i32⟩
  | 21 => ⟨S300000, .i32⟩
  | 22 => ⟨S300000, .i1⟩
  | 23 => ⟨S_, .i32⟩
  | 24 => ⟨S300000, .i32⟩
  | 25 => ⟨S300000, .i32⟩
  | 26 => ⟨S300000, .i32⟩
  | 27 => ⟨S300000x1, .i32⟩
  | 28 => ⟨S300000x300, .f32⟩
  | 29 => ⟨S300000x300, .f32⟩
  | 30 => ⟨S_, .f32⟩
  | 31 => ⟨S300000x300, .f32⟩
  | 32 => ⟨S300000x300, .f32⟩
  | 33 => ⟨S_, .f32⟩
  | 34 => ⟨S100000x300, .f32⟩
  | 35 => ⟨S_, .i32⟩
  | 36 => ⟨S300000, .i32⟩
  | 37 => ⟨S300000, .i1⟩
  | 38 => ⟨S_, .i32⟩
  | 39 => ⟨S300000, .i32⟩
  | 40 => ⟨S300000, .i32⟩
  | 41 => ⟨S300000, .i32⟩
  | 42 => ⟨S300000x1, .i32⟩
  | 43 => ⟨S100000x300, .f32⟩
  | 44 => ⟨S1x300x300, .f32⟩
  | 45 => ⟨S300x300, .f32⟩
  | 46 => ⟨S1x300, .f32⟩
  | 47 => ⟨S300, .f32⟩
  | 48 => ⟨S1x300x300, .f32⟩
  | 49 => ⟨S300x300, .f32⟩
  | 50 => ⟨S1x300, .f32⟩
  | 51 => ⟨S300, .f32⟩
  | 52 => ⟨S1x300, .f32⟩
  | 53 => ⟨S1x300, .f32⟩
  | 54 => ⟨S100000x300, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000x300, .f32⟩
  | 64 => ⟨S300000x300, .f32⟩
  | 65 => ⟨S_, .f32⟩
  | 66 => ⟨S300000x300, .f32⟩
  | 67 => ⟨S300000x300, .f32⟩
  | 68 => ⟨S_, .f32⟩
  | 69 => ⟨S100000x300, .f32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S100000x300, .f32⟩
  | 79 => ⟨S1x300x300, .f32⟩
  | 80 => ⟨S300x300, .f32⟩
  | 81 => ⟨S1x300, .f32⟩
  | 82 => ⟨S300, .f32⟩
  | 83 => ⟨S1x300x300, .f32⟩
  | 84 => ⟨S300x300, .f32⟩
  | 85 => ⟨S1x300, .f32⟩
  | 86 => ⟨S300, .f32⟩
  | 87 => ⟨S1x300, .f32⟩
  | 88 => ⟨S1x300, .f32⟩
  | 89 => ⟨S100000x300, .f32⟩
  | 90 => ⟨S_, .i32⟩
  | 91 => ⟨S300000, .i32⟩
  | 92 => ⟨S300000, .i1⟩
  | 93 => ⟨S_, .i32⟩
  | 94 => ⟨S300000, .i32⟩
  | 95 => ⟨S300000, .i32⟩
  | 96 => ⟨S300000, .i32⟩
  | 97 => ⟨S300000x1, .i32⟩
  | 98 => ⟨S300000x300, .f32⟩
  | 99 => ⟨S300000x300, .f32⟩
  | 100 => ⟨S_, .f32⟩
  | 101 => ⟨S300000x300, .f32⟩
  | 102 => ⟨S300000x300, .f32⟩
  | 103 => ⟨S_, .f32⟩
  | 104 => ⟨S100000x300, .f32⟩
  | 105 => ⟨S_, .i32⟩
  | 106 => ⟨S300000, .i32⟩
  | 107 => ⟨S300000, .i1⟩
  | 108 => ⟨S_, .i32⟩
  | 109 => ⟨S300000, .i32⟩
  | 110 => ⟨S300000, .i32⟩
  | 111 => ⟨S300000, .i32⟩
  | 112 => ⟨S300000x1, .i32⟩
  | 113 => ⟨S100000x300, .f32⟩
  | 114 => ⟨S1x300x300, .f32⟩
  | 115 => ⟨S300x300, .f32⟩
  | 116 => ⟨S1x300, .f32⟩
  | 117 => ⟨S300, .f32⟩
  | 118 => ⟨S1x300x300, .f32⟩
  | 119 => ⟨S300x300, .f32⟩
  | 120 => ⟨S1x300, .f32⟩
  | 121 => ⟨S300, .f32⟩
  | 122 => ⟨S1x300, .f32⟩
  | 123 => ⟨S1x300, .f32⟩
  | 124 => ⟨S100000x300, .f32⟩
  | 125 => ⟨S_, .f32⟩
  | 126 => ⟨S2000x300, .f32⟩
  | 127 => ⟨S100000x1, .i32⟩
  | _ => ⟨S100000x128, .f32⟩

abbrev hbmTy0_1 (i : Nat) : BufTy := match i % 128 with
  | 0 => ⟨S2000x300, .f32⟩
  | 1 => ⟨S_, .f32⟩
  | 2 => ⟨S100000x1, .f32⟩
  | 3 => ⟨S_, .f32⟩
  | 4 => ⟨S2000x1, .f32⟩
  | 5 => ⟨S100000x1, .i32⟩
  | 6 => ⟨S2000x1, .f32⟩
  | 7 => ⟨S_, .f32⟩
  | 8 => ⟨S2000x1, .f32⟩
  | 9 => ⟨S2000x1, .f32⟩
  | 10 => ⟨S2000x300, .f32⟩
  | 11 => ⟨S2000x300, .f32⟩
  | 12 => ⟨S1x1024, .f32⟩
  | 13 => ⟨S2000x1024, .f32⟩
  | 14 => ⟨S_, .f32⟩
  | 15 => ⟨S2000x1024, .f32⟩
  | 16 => ⟨S2000x1024, .i1⟩
  | 17 => ⟨S2000x1024, .f32⟩
  | 18 => ⟨S2000x1024, .f32⟩
  | 19 => ⟨S2000x1024, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x300, .f32⟩
  | .local _ .vmem, ⟨3, _⟩ => ⟨S1x300, .f32⟩
  | .local _ .vmem, ⟨4, _⟩ => ⟨S2000x300, .f32⟩
  | .local _ .vmem, ⟨5, _⟩ => ⟨S2000x300, .f32⟩
  | .local _ .vmem, ⟨6, _⟩ => ⟨S3000x16, .f32⟩
  | .local _ .vmem, ⟨7, _⟩ => ⟨S3000x16, .f32⟩
  | .local _ .vmem, ⟨8, _⟩ => ⟨S16x300, .f32⟩
  | .local _ .vmem, ⟨9, _⟩ => ⟨S1x300, .f32⟩
  | .local _ .vmem, ⟨10, _⟩ => ⟨S3000x300, .f32⟩
  | .local _ .vmem, ⟨11, _⟩ => ⟨S3000x300, .f32⟩
  | .local _ .vmem, ⟨12, _⟩ => ⟨S1000x300, .f32⟩
  | .local _ .vmem, ⟨13, _⟩ => ⟨S1000x300, .f32⟩
  | .local _ .vmem, ⟨14, _⟩ => ⟨S1000x300, .f32⟩
  | .local _ .vmem, ⟨15, _⟩ => ⟨S1000x300, .f32⟩
  | .local _ .vmem, ⟨16, _⟩ => ⟨S300x300, .f32⟩
  | .local _ .vmem, ⟨17, _⟩ => ⟨S1x300, .f32⟩
  | .local _ .vmem, ⟨18, _⟩ => ⟨S300x300, .f32⟩
  | .local _ .vmem, ⟨19, _⟩ => ⟨S1x300, .f32⟩
  | .local _ .vmem, ⟨20, _⟩ => ⟨S1000x300, .f32⟩
  | .local _ .vmem, ⟨21, _⟩ => ⟨S1000x300, .f32⟩
  | .local _ .vmem, ⟨22, _⟩ => ⟨S1000x300, .f32⟩
  | .local _ .vmem, ⟨23, _⟩ => ⟨S1000x300, .f32⟩
  | .local _ .vmem, ⟨24, _⟩ => ⟨S1000x300, .f32⟩
  | .local _ .vmem, ⟨25, _⟩ => ⟨S1000x300, .f32⟩
  | .local _ .vmem, ⟨26, _⟩ => ⟨S300x300, .f32⟩
  | .local _ .vmem, ⟨27, _⟩ => ⟨S1x300, .f32⟩
  | .local _ .vmem, ⟨28, _⟩ => ⟨S300x300, .f32⟩
  | .local _ .vmem, ⟨29, _⟩ => ⟨S1x300, .f32⟩
  | .local _ .vmem, ⟨30, _⟩ => ⟨S1000x300, .f32⟩
  | .local _ .vmem, ⟨31, _⟩ => ⟨S1000x300, .f32⟩
  | .local _ .vmem, ⟨32, _⟩ => ⟨S1000x300, .f32⟩
  | .local _ .vmem, ⟨33, _⟩ => ⟨S1000x300, .f32⟩
  | .local _ .vmem, ⟨34, _⟩ => ⟨S1000x300, .f32⟩
  | .local _ .vmem, ⟨35, _⟩ => ⟨S1000x300, .f32⟩
  | .local _ .vmem, ⟨36, _⟩ => ⟨S300x300, .f32⟩
  | .local _ .vmem, ⟨37, _⟩ => ⟨S1x300, .f32⟩
  | .local _ .vmem, ⟨38, _⟩ => ⟨S300x300, .f32⟩
  | .local _ .vmem, ⟨39, _⟩ => ⟨S1x300, .f32⟩
  | .local _ .vmem, ⟨40, _⟩ => ⟨S1000x300, .f32⟩
  | .local _ .vmem, ⟨41, _⟩ => ⟨S1000x300, .f32⟩
  | .local _ .vmem, ⟨42, _⟩ => ⟨S400x300, .f32⟩
  | .local _ .vmem, ⟨43, _⟩ => ⟨S400x300, .f32⟩
  | .local _ .vmem, ⟨44, _⟩ => ⟨S300x1024, .f32⟩
  | .local _ .vmem, ⟨45, _⟩ => ⟨S1x1024, .f32⟩
  | .local _ .vmem, ⟨46, _⟩ => ⟨S400x1024, .f32⟩
  | .local _ .vmem, ⟨47, _⟩ => ⟨S400x1024, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call0_cst : Ref sig .tc := ⟨.hbm, 30, rfl⟩
abbrev main_call0_v0 : Ref sig .tc := ⟨.hbm, 31, rfl⟩
abbrev main_v12 : Ref sig .tc := ⟨.hbm, 32, rfl⟩
abbrev main_cst : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_cst : Ref sig .tc := ⟨.hbm, 65, rfl⟩
abbrev main_call1_v0 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_c_6 : Ref sig .tc := ⟨.hbm, 70, rfl⟩
abbrev main_v42 : Ref sig .tc := ⟨.hbm, 71, rfl⟩
abbrev main_v43 : Ref sig .tc := ⟨.hbm, 72, rfl⟩
abbrev main_c_7 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_8 : Ref sig .tc := ⟨.hbm, 90, rfl⟩
abbrev main_v60 : Ref sig .tc := ⟨.hbm, 91, rfl⟩
abbrev main_v61 : Ref sig .tc := ⟨.hbm, 92, rfl⟩
abbrev main_c_9 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call2_cst : Ref sig .tc := ⟨.hbm, 100, rfl⟩
abbrev main_call2_v0 : Ref sig .tc := ⟨.hbm, 101, rfl⟩
abbrev main_v68 : Ref sig .tc := ⟨.hbm, 102, rfl⟩
abbrev main_cst_10 : Ref sig .tc := ⟨.hbm, 103, rfl⟩
abbrev main_v69 : Ref sig .tc := ⟨.hbm, 104, rfl⟩
abbrev main_c_11 : Ref sig .tc := ⟨.hbm, 105, rfl⟩
abbrev main_v70 : Ref sig .tc := ⟨.hbm, 106, rfl⟩
abbrev main_v71 : Ref sig .tc := ⟨.hbm, 107, rfl⟩
abbrev main_c_12 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_13 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_14 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_16 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x300 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x300 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S3000x300 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x300 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S300x300 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x300 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x300 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x300 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S300x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S300x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x300 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x300 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x300 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x300 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S300x300 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x300 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S300x300 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x300 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1000x300 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x300 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S300x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S400x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S300_S1x300 : S300.ShapeCasts S1x300
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x300_S128x300_0_0 : ∀ a, (![0, 0] : Fin 2 → Nat) a + S128x300.size a ≤ S128x300.size a
  h_S128x300 : 0 < S128x300.numel
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  inb_S3000x16_S3000x16_0_0 : ∀ a, (![0, 0] : Fin 2 → Nat) a + S3000x16.size a ≤ S3000x16.size a
  h_S3000x16 : 0 < S3000x16.numel
  inb_S16x300_S16x300_0_0 : ∀ a, (![0, 0] : Fin 2 → Nat) a + S16x300.size a ≤ S16x300.size a
  h_S16x300 : 0 < S16x300.numel
  broadcasts_S1x300_S3000x300 : S1x300.Broadcasts S3000x300
  inb_S3000x300_S3000x300_0_0 : ∀ a, (![0, 0] : Fin 2 → Nat) a + S3000x300.size a ≤ S3000x300.size a
  h_S3000x300 : 0 < S3000x300.numel
  bcast_S_S300000 : S_.BroadcastsInDim S300000 (![] : Fin 0 → Fin S300000.rank)
  bcast_S300000_S300000x1_0 : S300000.BroadcastsInDim S300000x1 (![0] : Fin 1 → Fin S300000x1.rank)
  bcast_S_S300000x300 : S_.BroadcastsInDim S300000x300 (![] : Fin 0 → Fin S300000x300.rank)
  bcast_S_S100000x300 : S_.BroadcastsInDim S100000x300 (![] : Fin 0 → Fin S100000x300.rank)
  slices_S3x300x300_S1x300x300_0_0_0 : S3x300x300.Slices ![0, 0, 0] S1x300x300
  shapeCasts_S1x300x300_S300x300 : S1x300x300.ShapeCasts S300x300
  slices_S3x300_S1x300_0_0 : S3x300.Slices ![0, 0] S1x300
  shapeCasts_S1x300_S300 : S1x300.ShapeCasts S300
  inb_S1000x300_S1000x300_0_0 : ∀ a, (![0, 0] : Fin 2 → Nat) a + S1000x300.size a ≤ S1000x300.size a
  h_S1000x300 : 0 < S1000x300.numel
  shapeCasts_S1000x300_S1000x300 : S1000x300.ShapeCasts S1000x300
  inb_S300x300_S300x300_0_0 : ∀ a, (![0, 0] : Fin 2 → Nat) a + S300x300.size a ≤ S300x300.size a
  h_S300x300 : 0 < S300x300.numel
  shapeCasts_S300x300_S300x300 : S300x300.ShapeCasts S300x300
  broadcasts_S1x300_S1000x300 : S1x300.Broadcasts S1000x300
  slices_S3x300x300_S1x300x300_1_0_0 : S3x300x300.Slices ![1, 0, 0] S1x300x300
  slices_S3x300_S1x300_1_0 : S3x300.Slices ![1, 0] S1x300
  slices_S3x300x300_S1x300x300_2_0_0 : S3x300x300.Slices ![2, 0, 0] S1x300x300
  slices_S3x300_S1x300_2_0 : S3x300.Slices ![2, 0] S1x300
  bcast_S_S2000x300 : S_.BroadcastsInDim S2000x300 (![] : Fin 0 → Fin S2000x300.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2000x1 : S_.BroadcastsInDim S2000x1 (![] : Fin 0 → Fin S2000x1.rank)
  bcast_S2000x1_S2000x300_0_1 : S2000x1.BroadcastsInDim S2000x300 (![0, 1] : Fin 2 → Fin S2000x300.rank)
  shapeCasts_S1024_S1x1024 : S1024.ShapeCasts S1x1024
  inb_S400x300_S400x300_0_0 : ∀ a, (![0, 0] : Fin 2 → Nat) a + S400x300.size a ≤ S400x300.size a
  h_S400x300 : 0 < S400x300.numel
  shapeCasts_S400x300_S400x300 : S400x300.ShapeCasts S400x300
  inb_S300x1024_S300x1024_0_0 : ∀ a, (![0, 0] : Fin 2 → Nat) a + S300x1024.size a ≤ S300x1024.size a
  h_S300x1024 : 0 < S300x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S400x1024 : S1x1024.Broadcasts S400x1024
  inb_S400x1024_S400x1024_0_0 : ∀ a, (![0, 0] : Fin 2 → Nat) a + S400x1024.size a ≤ S400x1024.size a
  h_S400x1024 : 0 < S400x1024.numel
  bcast_S_S2000x1024 : S_.BroadcastsInDim S2000x1024 (![] : Fin 0 → Fin S2000x1024.rank)
  dot_S2000x128_S128x300_S2000x300_1_0_0_1_n_n_wf : DotDims.WF S2000x128 S128x300 S2000x300 [1] [0] [0] [1] [] []
  dot_S3000x16_S16x300_S3000x300_1_0_0_1_n_n_wf : DotDims.WF S3000x16 S16x300 S3000x300 [1] [0] [0] [1] [] []
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S1000x300_S300x300_S1000x300_1_0_0_1_n_n_wf : DotDims.WF S1000x300 S300x300 S1000x300 [1] [0] [0] [1] [] []
  scatter_S2000x300_S100000x1_S100000x300_1_0_0_1_wf : ScatterDims.WF S2000x300 S100000x1 S100000x300 [1] [0] [0] 1
  scatter_S2000x1_S100000x1_S100000x1_1_0_0_1_wf : ScatterDims.WF S2000x1 S100000x1 S100000x1 [1] [0] [0] 1
  dot_S400x300_S300x1024_S400x1024_1_0_0_1_n_n_wf : DotDims.WF S400x300 S300x1024 S400x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x300.size a ≤ S128x300.size a
  hwx0_1 : ∀ i : grid0.Coords, EltTy.bits .f32 = 32 ∨ (Rect.block (s := S128x300) S128x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x300.size a ≤ S100000x300.size a
  hwx0_3 : ∀ i : grid0.Coords, EltTy.bits .f32 = 32 ∨ (Rect.block (s := S100000x300) S2000x300.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x16.size a ≤ S300000x16.size a
  hwx1_0 : ∀ i : grid1.Coords, EltTy.bits .f32 = 32 ∨ (Rect.block (s := S300000x16) S3000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x300.size a ≤ S16x300.size a
  hwx1_1 : ∀ i : grid1.Coords, EltTy.bits .f32 = 32 ∨ (Rect.block (s := S16x300) S16x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x300.size a ≤ S300000x300.size a
  hwx1_3 : ∀ i : grid1.Coords, EltTy.bits .f32 = 32 ∨ (Rect.block (s := S300000x300) S3000x300.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x300.size a ≤ S100000x300.size a
  hwx2_0 : ∀ i : grid2.Coords, EltTy.bits .f32 = 32 ∨ (Rect.block (s := S100000x300) S1000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x300.size a ≤ S100000x300.size a
  hwx2_1 : ∀ i : grid2.Coords, EltTy.bits .f32 = 32 ∨ (Rect.block (s := S100000x300) S1000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x300.size a ≤ S1x300.size a
  hwx2_3 : ∀ i : grid2.Coords, EltTy.bits .f32 = 32 ∨ (Rect.block (s := S1x300) S1x300.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S300x300.size a ≤ S300x300.size a
  hwx2_4 : ∀ i : grid2.Coords, EltTy.bits .f32 = 32 ∨ (Rect.block (s := S300x300) S300x300.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x300.size a ≤ S1x300.size a
  hwx2_5 : ∀ i : grid2.Coords, EltTy.bits .f32 = 32 ∨ (Rect.block (s := S1x300) S1x300.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x300.size a ≤ S100000x300.size a
  hwx2_6 : ∀ i : grid2.Coords, EltTy.bits .f32 = 32 ∨ (Rect.block (s := S100000x300) S1000x300.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x300.size a ≤ S100000x300.size a
  hwx3_0 : ∀ i : grid3.Coords, EltTy.bits .f32 = 32 ∨ (Rect.block (s := S100000x300) S1000x300.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x300.size a ≤ S100000x300.size a
  hwx3_1 : ∀ i : grid3.Coords, EltTy.bits .f32 = 32 ∨ (Rect.block (s := S100000x300) S1000x300.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S300x300.size a ≤ S300x300.size a
  hwx3_2 : ∀ i : grid3.Coords, EltTy.bits .f32 = 32 ∨ (Rect.block (s := S300x300) S300x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x300.size a ≤ S1x300.size a
  hwx3_3 : ∀ i : grid3.Coords, EltTy.bits .f32 = 32 ∨ (Rect.block (s := S1x300) S1x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S300x300.size a ≤ S300x300.size a
  hwx3_4 : ∀ i : grid3.Coords, EltTy.bits .f32 = 32 ∨ (Rect.block (s := S300x300) S300x300.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x300.size a ≤ S1x300.size a
  hwx3_5 : ∀ i : grid3.Coords, EltTy.bits .f32 = 32 ∨ (Rect.block (s := S1x300) S1x300.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x300.size a ≤ S100000x300.size a
  hwx3_6 : ∀ i : grid3.Coords, EltTy.bits .f32 = 32 ∨ (Rect.block (s := S100000x300) S1000x300.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x300.size a ≤ S100000x300.size a
  hwx4_0 : ∀ i : grid4.Coords, EltTy.bits .f32 = 32 ∨ (Rect.block (s := S100000x300) S1000x300.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x300.size a ≤ S100000x300.size a
  hwx4_1 : ∀ i : grid4.Coords, EltTy.bits .f32 = 32 ∨ (Rect.block (s := S100000x300) S1000x300.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S300x300.size a ≤ S300x300.size a
  hwx4_2 : ∀ i : grid4.Coords, EltTy.bits .f32 = 32 ∨ (Rect.block (s := S300x300) S300x300.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x300.size a ≤ S1x300.size a
  hwx4_3 : ∀ i : grid4.Coords, EltTy.bits .f32 = 32 ∨ (Rect.block (s := S1x300) S1x300.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S300x300.size a ≤ S300x300.size a
  hwx4_4 : ∀ i : grid4.Coords, EltTy.bits .f32 = 32 ∨ (Rect.block (s := S300x300) S300x300.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x300.size a ≤ S1x300.size a
  hwx4_5 : ∀ i : grid4.Coords, EltTy.bits .f32 = 32 ∨ (Rect.block (s := S1x300) S1x300.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x300.size a ≤ S100000x300.size a
  hwx4_6 : ∀ i : grid4.Coords, EltTy.bits .f32 = 32 ∨ (Rect.block (s := S100000x300) S1000x300.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x300.size a ≤ S2000x300.size a
  hwx5_0 : ∀ i : grid5.Coords, EltTy.bits .f32 = 32 ∨ (Rect.block (s := S2000x300) S400x300.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S300x1024.size a ≤ S300x1024.size a
  hwx5_1 : ∀ i : grid5.Coords, EltTy.bits .f32 = 32 ∨ (Rect.block (s := S300x1024) S300x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S400x1024.size a ≤ S2000x1024.size a
  hwx5_3 : ∀ i : grid5.Coords, EltTy.bits .f32 = 32 ∨ (Rect.block (s := S2000x1024) S400x1024.size (cc5_transform_3 i) (hinb5_3 i)).WholeWords (EltTy.packing .f32)

variable [Facts₀]

def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def dot_S3000x16_S16x300_S3000x300_1_0_0_1_n_n : DotDims S3000x16 S16x300 S3000x300 where
  lhsContracting := [1]
  rhsContracting := [0]
  lhsNonContracting := [0]
  rhsNonContracting := [1]
  lhsBatch := []
  rhsBatch := []
  wf := dot_S3000x16_S16x300_S3000x300_1_0_0_1_n_n_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def scatter_S2000x300_S100000x1_S100000x300_1_0_0_1 : ScatterDims S2000x300 S100000x1 S100000x300 where
  updateWindowDims := [1]
  insertedWindowDims := [0]
  scatterDimsToOperandDims := [0]
  indexVectorDim := 1
  wf := scatter_S2000x300_S100000x1_S100000x300_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def dot_S400x300_S300x1024_S400x1024_1_0_0_1_n_n : DotDims S400x300 S300x1024 S400x1024 where
  lhsContracting := [1]
  rhsContracting := [0]
  lhsNonContracting := [0]
  rhsNonContracting := [1]
  lhsBatch := []
  rhsBatch := []
  wf := dot_S400x300_S300x1024_S400x1024_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S3000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S3000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S1000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x300.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S300x300.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x300.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v31) S1000x300.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v31) S1000x300.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S300x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S300x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x300.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1000x300.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S1000x300.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1000x300.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v78) S300x300.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v85) S1x300.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82) S300x300.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S1x300.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v87) S1000x300.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v98) S400x300.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S300x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S400x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S300000x16 : Shape := ⟨2, ![300000, 16]⟩
abbrev S300000 : Shape := ⟨1, ![300000]⟩
abbrev S100000 : Shape := ⟨1, ![100000]⟩
abbrev S128x300 : Shape := ⟨2, ![128, 300]⟩
abbrev S300 : Shape := ⟨1, ![300]⟩
abbrev S16x300 : Shape := ⟨2, ![16, 300]⟩
abbrev S3x300x300 : Shape := ⟨3, ![3, 300, 300]⟩
abbrev S3x300 : Shape := ⟨2, ![3, 300]⟩
abbrev S300x1024 : Shape := ⟨2, ![300, 1024]⟩
abbrev S1024 : Shape := ⟨1, ![1024]⟩
abbrev S_ : Shape := ⟨0, ![]⟩
abbrev S100000x300 : Shape := ⟨2, ![100000, 300]⟩
abbrev S1x300 : Shape := ⟨2, ![1, 300]⟩
abbrev S300000x300 : Shape := ⟨2, ![300000, 300]⟩
abbrev S300000x1 : Shape := ⟨2, ![300000, 1]⟩
abbrev S1x300x300 : Shape := ⟨3, ![1, 300, 300]⟩
abbrev S300x300 : Shape := ⟨2, ![300, 300]⟩
abbrev S2000x300 : Shape := ⟨2, ![2000, 300]⟩
abbrev S100000x1 : Shape := ⟨2, ![100000, 1]⟩
abbrev S2000x1 : Shape := ⟨2, ![2000, 1]⟩
abbrev S2000x1024 : Shape := ⟨2, ![2000, 1024]⟩
abbrev S1x1024 : Shape := ⟨2, ![1, 1024]⟩

abbrev nBuf : Space → Nat
  | .hbm => 190
  | .vmem => 0
  | .smem => 0
  | _ => 0

abbrev hbmTy0_0 (i : Nat) : BufTy := match i % 128 with
  | 0 => ⟨S100000x128, .f32⟩
  | 1 => ⟨S300000x16, .f32⟩
  | 2 => ⟨S300000, .i32⟩
  | 3 => ⟨S300000, .i32⟩
  | 4 => ⟨S100000, .i32⟩
  | 5 => ⟨S128x300, .f32⟩
  | 6 => ⟨S300, .f32⟩
  | 7 => ⟨S16x300, .f32⟩
  | 8 => ⟨S300, .f32⟩
  | 9 => ⟨S3x300x300, .f32⟩
  | 10 => ⟨S3x300, .f32⟩
  | 11 => ⟨S3x300x300, .f32⟩
  | 12 => ⟨S3x300, .f32⟩
  | 13 => ⟨S300x1024, .f32⟩
  | 14 => ⟨S1024, .f32⟩
  | 15 => ⟨S_, .f32⟩
  | 16 => ⟨S100000x300, .f32⟩
  | 17 => ⟨S1x300, .f32⟩
  | 18 => ⟨S100000x300, .f32⟩
  | 19 => ⟨S100000x300, .f32⟩
  | 20 => ⟨S_, .f32⟩
  | 21 => ⟨S100000x300, .f32⟩
  | 22 => ⟨S100000x300, .f32⟩
  | 23 => ⟨S300000x300, .f32⟩
  | 24 => ⟨S1x300, .f32⟩
  | 25 => ⟨S300000x300, .f32⟩
  | 26 => ⟨S300000x300, .f32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x300, .f32⟩
  | 36 => ⟨S300000x300, .f32⟩
  | 37 => ⟨S_, .f32⟩
  | 38 => ⟨S300000x300, .f32⟩
  | 39 => ⟨S300000x300, .f32⟩
  | 40 => ⟨S_, .f32⟩
  | 41 => ⟨S100000x300, .f32⟩
  | 42 => ⟨S_, .i32⟩
  | 43 => ⟨S300000, .i32⟩
  | 44 => ⟨S300000, .i1⟩
  | 45 => ⟨S_, .i32⟩
  | 46 => ⟨S300000, .i32⟩
  | 47 => ⟨S300000, .i32⟩
  | 48 => ⟨S300000, .i32⟩
  | 49 => ⟨S300000x1, .i32⟩
  | 50 => ⟨S100000x300, .f32⟩
  | 51 => ⟨S100000x300, .f32⟩
  | 52 => ⟨S1x300x300, .f32⟩
  | 53 => ⟨S300x300, .f32⟩
  | 54 => ⟨S100000x300, .f32⟩
  | 55 => ⟨S1x300, .f32⟩
  | 56 => ⟨S300, .f32⟩
  | 57 => ⟨S1x300, .f32⟩
  | 58 => ⟨S100000x300, .f32⟩
  | 59 => ⟨S100000x300, .f32⟩
  | 60 => ⟨S_, .f32⟩
  | 61 => ⟨S100000x300, .f32⟩
  | 62 => ⟨S100000x300, .f32⟩
  | 63 => ⟨S1x300x300, .f32⟩
  | 64 => ⟨S300x300, .f32⟩
  | 65 => ⟨S100000x300, .f32⟩
  | 66 => ⟨S1x300, .f32⟩
  | 67 => ⟨S300, .f32⟩
  | 68 => ⟨S1x300, .f32⟩
  | 69 => ⟨S100000x300, .f32⟩
  | 70 => ⟨S100000x300, .f32⟩
  | 71 => ⟨S_, .f32⟩
  | 72 => ⟨S100000x300, .f32⟩
  | 73 => ⟨S100000x300, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x300, .f32⟩
  | 83 => ⟨S300000x300, .f32⟩
  | 84 => ⟨S_, .f32⟩
  | 85 => ⟨S300000x300, .f32⟩
  | 86 => ⟨S300000x300, .f32⟩
  | 87 => ⟨S_, .f32⟩
  | 88 => ⟨S100000x300, .f32⟩
  | 89 => ⟨S_, .i32⟩
  | 90 => ⟨S300000, .i32⟩
  | 91 => ⟨S300000, .i1⟩
  | 92 => ⟨S_, .i32⟩
  | 93 => ⟨S300000, .i32⟩
  | 94 => ⟨S300000, .i32⟩
  | 95 => ⟨S300000, .i32⟩
  | 96 => ⟨S300000x1, .i32⟩
  | 97 => ⟨S100000x300, .f32⟩
  | 98 => ⟨S100000x300, .f32⟩
  | 99 => ⟨S1x300x300, .f32⟩
  | 100 => ⟨S300x300, .f32⟩
  | 101 => ⟨S100000x300, .f32⟩
  | 102 => ⟨S1x300, .f32⟩
  | 103 => ⟨S300, .f32⟩
  | 104 => ⟨S1x300, .f32⟩
  | 105 => ⟨S100000x300, .f32⟩
  | 106 => ⟨S100000x300, .f32⟩
  | 107 => ⟨S_, .f32⟩
  | 108 => ⟨S100000x300, .f32⟩
  | 109 => ⟨S100000x300, .f32⟩
  | 110 => ⟨S1x300x300, .f32⟩
  | 111 => ⟨S300x300, .f32⟩
  | 112 => ⟨S100000x300, .f32⟩
  | 113 => ⟨S1x300, .f32⟩
  | 114 => ⟨S300, .f32⟩
  | 115 => ⟨S1x300, .f32⟩
  | 116 => ⟨S100000x300, .f32⟩
  | 117 => ⟨S100000x300, .f32⟩
  | 118 => ⟨S_, .f32⟩
  | 119 => ⟨S100000x300, .f32⟩
  | 120 => ⟨S100000x300, .f32⟩
  | 121 => ⟨S_, .i32⟩
  | 122 => ⟨S300000, .i32⟩
  | 123 => ⟨S300000, .i1⟩
  | 124 => ⟨S_, .i32⟩
  | 125 => ⟨S300000, .i32⟩
  | 126 => ⟨S300000, .i32⟩
  | 127 => ⟨S300000, .i32⟩
  | _ => ⟨S100000x128, .f32⟩

abbrev hbmTy0_1 (i : Nat) : BufTy := match i % 128 with
  | 0 => ⟨S300000x1, .i32⟩
  | 1 => ⟨S300000x300, .f32⟩
  | 2 => ⟨S300000x300, .f32⟩
  | 3 => ⟨S_, .f32⟩
  | 4 => ⟨S300000x300, .f32⟩
  | 5 => ⟨S300000x300, .f32⟩
  | 6 => ⟨S_, .f32⟩
  | 7 => ⟨S100000x300, .f32⟩
  | 8 => ⟨S_, .i32⟩
  | 9 => ⟨S300000, .i32⟩
  | 10 => ⟨S300000, .i1⟩
  | 11 => ⟨S_, .i32⟩
  | 12 => ⟨S300000, .i32⟩
  | 13 => ⟨S300000, .i32⟩
  | 14 => ⟨S300000, .i32⟩
  | 15 => ⟨S300000x1, .i32⟩
  | 16 => ⟨S100000x300, .f32⟩
  | 17 => ⟨S100000x300, .f32⟩
  | 18 => ⟨S1x300x300, .f32⟩
  | 19 => ⟨S300x300, .f32⟩
  | 20 => ⟨S100000x300, .f32⟩
  | 21 => ⟨S1x300, .f32⟩
  | 22 => ⟨S300, .f32⟩
  | 23 => ⟨S1x300, .f32⟩
  | 24 => ⟨S100000x300, .f32⟩
  | 25 => ⟨S100000x300, .f32⟩
  | 26 => ⟨S_, .f32⟩
  | 27 => ⟨S100000x300, .f32⟩
  | 28 => ⟨S100000x300, .f32⟩
  | 29 => ⟨S1x300x300, .f32⟩
  | 30 => ⟨S300x300, .f32⟩
  | 31 => ⟨S100000x300, .f32⟩
  | 32 => ⟨S1x300, .f32⟩
  | 33 => ⟨S300, .f32⟩
  | 34 => ⟨S1x300, .f32⟩
  | 35 => ⟨S100000x300, .f32⟩
  | 36 => ⟨S100000x300, .f32⟩
  | 37 => ⟨S_, .f32⟩
  | 38 => ⟨S2000x300, .f32⟩
  | 39 => ⟨S100000x1, .i32⟩
  | 40 => ⟨S2000x300, .f32⟩
  | 41 => ⟨S_, .f32⟩
  | 42 => ⟨S100000x1, .f32⟩
  | 43 => ⟨S_, .f32⟩
  | 44 => ⟨S2000x1, .f32⟩
  | 45 => ⟨S100000x1, .i32⟩
  | 46 => ⟨S2000x1, .f32⟩
  | 47 => ⟨S_, .f32⟩
  | 48 => ⟨S2000x1, .f32⟩
  | 49 => ⟨S2000x1, .f32⟩
  | 50 => ⟨S2000x300, .f32⟩
  | 51 => ⟨S2000x300, .f32⟩
  | 52 => ⟨S2000x1024, .f32⟩
  | 53 => ⟨S1x1024, .f32⟩
  | 54 => ⟨S2000x1024, .f32⟩
  | 55 => ⟨S2000x1024, .f32⟩
  | 56 => ⟨S_, .f32⟩
  | 57 => ⟨S2000x1024, .f32⟩
  | 58 => ⟨S2000x1024, .i1⟩
  | 59 => ⟨S2000x1024, .f32⟩
  | 60 => ⟨S2000x1024, .f32⟩
  | 61 => ⟨S2000x1024, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_cst : Ref sig .tc := ⟨.hbm, 37, rfl⟩
abbrev main_call1_v0 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_c_1 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call2_cst : Ref sig .tc := ⟨.hbm, 60, rfl⟩
abbrev main_call2_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call3_cst : Ref sig .tc := ⟨.hbm, 71, rfl⟩
abbrev main_call3_v0 : Ref sig .tc := ⟨.hbm, 72, rfl⟩
abbrev main_v44 : Ref sig .tc := ⟨.hbm, 73, rfl⟩
abbrev main_c_3 : Ref sig .tc := ⟨.hbm, 74, rfl⟩
abbrev main_v45 : Ref sig .tc := ⟨.hbm, 75, rfl⟩
abbrev main_v46 : Ref sig .tc := ⟨.hbm, 76, rfl⟩
abbrev main_c_4 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call4_cst : Ref sig .tc := ⟨.hbm, 84, rfl⟩
abbrev main_call4_v0 : Ref sig .tc := ⟨.hbm, 85, rfl⟩
abbrev main_v53 : Ref sig .tc := ⟨.hbm, 86, rfl⟩
abbrev main_cst_5 : Ref sig .tc := ⟨.hbm, 87, rfl⟩
abbrev main_v54 : Ref sig .tc := ⟨.hbm, 88, rfl⟩
abbrev main_c_6 : Ref sig .tc := ⟨.hbm, 89, rfl⟩
abbrev main_v55 : Ref sig .tc := ⟨.hbm, 90, rfl⟩
abbrev main_v56 : Ref sig .tc := ⟨.hbm, 91, rfl⟩
abbrev main_c_7 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call5_cst : Ref sig .tc := ⟨.hbm, 107, rfl⟩
abbrev main_call5_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call6_cst : Ref sig .tc := ⟨.hbm, 118, rfl⟩
abbrev main_call6_v0 : Ref sig .tc := ⟨.hbm, 119, rfl⟩
abbrev main_v80 : Ref sig .tc := ⟨.hbm, 120, rfl⟩
abbrev main_c_8 : Ref sig .tc := ⟨.hbm, 121, rfl⟩
abbrev main_v81 : Ref sig .tc := ⟨.hbm, 122, rfl⟩
abbrev main_v82 : Ref sig .tc := ⟨.hbm, 123, rfl⟩
abbrev main_c_9 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_call7_cst : Ref sig .tc := ⟨.hbm, 131, rfl⟩
abbrev main_call7_v0 : Ref sig .tc := ⟨.hbm, 132, rfl⟩
abbrev main_v89 : Ref sig .tc := ⟨.hbm, 133, rfl⟩
abbrev main_cst_10 : Ref sig .tc := ⟨.hbm, 134, rfl⟩
abbrev main_v90 : Ref sig .tc := ⟨.hbm, 135, rfl⟩
abbrev main_c_11 : Ref sig .tc := ⟨.hbm, 136, rfl⟩
abbrev main_v91 : Ref sig .tc := ⟨.hbm, 137, rfl⟩
abbrev main_v92 : Ref sig .tc := ⟨.hbm, 138, rfl⟩
abbrev main_c_12 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call8_cst : Ref sig .tc := ⟨.hbm, 154, rfl⟩
abbrev main_call8_v0 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_13 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_14 : Ref sig .tc := ⟨.hbm, 169, rfl⟩
abbrev main_v119 : Ref sig .tc := ⟨.hbm, 170, rfl⟩
abbrev main_cst_15 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_16 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_17 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S1x300_S300000x300_0_1 : S1x300.BroadcastsInDim S300000x300 (![0, 1] : Fin 2 → Fin S300000x300.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S300000x300 : S_.BroadcastsInDim S300000x300 (![] : Fin 0 → Fin S300000x300.rank)
  slices_S3x300x300_S1x300x300_0_0_0 : S3x300x300.Slices ![0, 0, 0] S1x300x300
  shapeCasts_S1x300x300_S300x300 : S1x300x300.ShapeCasts S300x300
  slices_S3x300_S1x300_0_0 : S3x300.Slices ![0, 0] S1x300
  shapeCasts_S1x300_S300 : S1x300.ShapeCasts S300
  slices_S3x300x300_S1x300x300_1_0_0 : S3x300x300.Slices ![1, 0, 0] S1x300x300
  slices_S3x300_S1x300_1_0 : S3x300.Slices ![1, 0] S1x300
  slices_S3x300x300_S1x300x300_2_0_0 : S3x300x300.Slices ![2, 0, 0] S1x300x300
  slices_S3x300_S1x300_2_0 : S3x300.Slices ![2, 0] S1x300
  bcast_S_S2000x300 : S_.BroadcastsInDim S2000x300 (![] : Fin 0 → Fin S2000x300.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S2000x1 : S_.BroadcastsInDim S2000x1 (![] : Fin 0 → Fin S2000x1.rank)
  bcast_S2000x1_S2000x300_0_1 : S2000x1.BroadcastsInDim S2000x300 (![0, 1] : Fin 2 → Fin S2000x300.rank)
  bcast_S1024_S1x1024_1 : S1024.BroadcastsInDim S1x1024 (![1] : Fin 1 → Fin S1x1024.rank)
  bcast_S1x1024_S2000x1024_0_1 : S1x1024.BroadcastsInDim S2000x1024 (![0, 1] : Fin 2 → Fin S2000x1024.rank)
  bcast_S_S2000x1024 : S_.BroadcastsInDim S2000x1024 (![] : Fin 0 → Fin S2000x1024.rank)
  dot_S100000x128_S128x300_S100000x300_1_0_0_1_n_n_wf : DotDims.WF S100000x128 S128x300 S100000x300 [1] [0] [0] [1] [] []
  dot_S300000x16_S16x300_S300000x300_1_0_0_1_n_n_wf : DotDims.WF S300000x16 S16x300 S300000x300 [1] [0] [0] [1] [] []
  gather_S100000x300_S300000x1_S300000x300_1_0_n_n_0_1_1300_wf : GatherDims.WF S100000x300 S300000x1 S300000x300 [1] [0] [] [0] [] 1 ![1, 300]
  scatter_S100000x300_S300000x1_S300000x300_1_0_0_1_wf : ScatterDims.WF S100000x300 S300000x1 S300000x300 [1] [0] [0] 1
  dot_S100000x300_S300x300_S100000x300_1_0_0_1_n_n_wf : DotDims.WF S100000x300 S300x300 S100000x300 [1] [0] [0] [1] [] []
  scatter_S2000x300_S100000x1_S100000x300_1_0_0_1_wf : ScatterDims.WF S2000x300 S100000x1 S100000x300 [1] [0] [0] 1
  scatter_S2000x1_S100000x1_S100000x1_1_0_0_1_wf : ScatterDims.WF S2000x1 S100000x1 S100000x1 [1] [0] [0] 1
  dot_S2000x300_S300x1024_S2000x1024_1_0_0_1_n_n_wf : DotDims.WF S2000x300 S300x1024 S2000x1024 [1] [0] [0] [1] [] []

variable [Facts₀]

def dot_S100000x128_S128x300_S100000x300_1_0_0_1_n_n : DotDims S100000x128 S128x300 S100000x300 where
  lhsContracting := [1]
  rhsContracting := [0]
  lhsNonContracting := [0]
  rhsNonContracting := [1]
  lhsBatch := []
  rhsBatch := []
  wf := dot_S100000x128_S128x300_S100000x300_1_0_0_1_n_n_wf
def dot_S300000x16_S16x300_S300000x300_1_0_0_1_n_n : DotDims S300000x16 S16x300 S300000x300 where
  lhsContracting := [1]
  rhsContracting := [0]
  lhsNonContracting := [0]
  rhsNonContracting := [1]
  lhsBatch := []
  rhsBatch := []
  wf := dot_S300000x16_S16x300_S300000x300_1_0_0_1_n_n_wf
def gather_S100000x300_S300000x1_S300000x300_1_0_n_n_0_1_1300 : GatherDims S100000x300 S300000x1 S300000x300 where
  offsetDims := [1]
  collapsedSliceDims := [0]
  operandBatchingDims := []
  startIndicesBatchingDims := []
  startIndexMap := [0]
  indexVectorDim := 1
  sliceSizes := ![1, 300]
  wf := gather_S100000x300_S300000x1_S300000x300_1_0_n_n_0_1_1300_wf
def scatter_S100000x300_S300000x1_S300000x300_1_0_0_1 : ScatterDims S100000x300 S300000x1 S300000x300 where
  updateWindowDims := [1]
  insertedWindowDims := [0]
  scatterDimsToOperandDims := [0]
  indexVectorDim := 1
  wf := scatter_S100000x300_S300000x1_S300000x300_1_0_0_1_wf
def dot_S100000x300_S300x300_S100000x300_1_0_0_1_n_n : DotDims S100000x300 S300x300 S100000x300 where
  lhsContracting := [1]
  rhsContracting := [0]
  lhsNonContracting := [0]
  rhsNonContracting := [1]
  lhsBatch := []
  rhsBatch := []
  wf := dot_S100000x300_S300x300_S100000x300_1_0_0_1_n_n_wf
def scatter_S2000x300_S100000x1_S100000x300_1_0_0_1 : ScatterDims S2000x300 S100000x1 S100000x300 where
  updateWindowDims := [1]
  insertedWindowDims := [0]
  scatterDimsToOperandDims := [0]
  indexVectorDim := 1
  wf := scatter_S2000x300_S100000x1_S100000x300_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def dot_S2000x300_S300x1024_S2000x1024_1_0_0_1_n_n : DotDims S2000x300 S300x1024 S2000x1024 where
  lhsContracting := [1]
  rhsContracting := [0]
  lhsNonContracting := [0]
  rhsNonContracting := [1]
  lhsBatch := []
  rhsBatch := []
  wf := dot_S2000x300_S300x1024_S2000x1024_1_0_0_1_n_n_wf

class Facts : Prop extends Facts₀ where

variable [Facts]
-- ==== Proof.RunAll.lean ====
/-
  The idealized kernel program's run with EVERY buffer read back.

  Every weakly fair execution of @main terminates, without a fault, in a state where each unscoped buffer of each
  TensorCore holds the contents the program's segments compute for it from the launch memory: host stretches fold their
  operations over the contents, a region replaces its arrays by what its write-backs leave. The argument arrays are
  among these buffers, and so is the result.
-/
import proofs.«124138_j6536940225142_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of @main terminates, nothing faulting, and in every
    final state each unscoped buffer of each TensorCore holds the segments' fold of the launch memory at that buffer. -/
theorem run : θ_run defs (onTc (τ := τ) (main (F := F))) ⟨m, fun _ => 0, ρ⟩ (fun r => ∀ c : Dev nD,
      ∀ b ∈ Pipeline.ucRefs τ sig, r.2.mem (((c : Thread nD τ)).1, b) = W20 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c => h c)

end Cert.KernelIdeal.RunAll

end
-- ==== Proof.LibDense.lean ====
/-
  Dense layers as index-by-index functions on the extended reals, for any extents.

  `affine X W B` is the matrix product of `X : [n, k]` with `W : [k, h]` plus the one-row matrix `B : [1, h]`
  added to every row: entry `(r, q)` is `(∑ κ, X (r, κ) * W (κ, q)) + B (0, q)`.  `clampZ Y` is the entrywise
  maximum with the real the zero word of f32 encodes (the word is kept as a word: both sides of a comparison carry
  the same one, so it is never evaluated).  `rowOf b` lays a vector `b : [h]` out as the one-row matrix `[1, h]`.
  Nothing here needs finiteness: only sums, products and maxima of extended reals are formed, never rearranged.
-/
import Idealize.ShloMosaic.PureOps.Ideal
import Idealize.ShloMosaic.Lib.ValueIdx

noncomputable section

namespace Cert.Dense

open Idealize.ShloMosaic Idealize.ShloMosaic.ValueIdx

/-- A matrix of extended reals with `a` rows and `b` columns, indexed as the programs index a rank-2 array. -/
abbrev Mat (a b : Nat) : Type := (⟨2, ![a, b]⟩ : Shape).Idx → EReal

/-- A vector of extended reals of length `a`, indexed as the programs index a rank-1 array. -/
abbrev Vect (a : Nat) : Type := (⟨1, ![a]⟩ : Shape).Idx → EReal

/-- The row coordinate of a rank-2 index, as a number below the row extent. -/
abbrev row {a b : Nat} (i : (⟨2, ![a, b]⟩ : Shape).Idx) : Fin a := ⟨(i 0).val, idx2_lt0 i⟩

/-- The column coordinate of a rank-2 index, as a number below the column extent. -/
abbrev col {a b : Nat} (i : (⟨2, ![a, b]⟩ : Shape).Idx) : Fin b := ⟨(i 1).val, idx2_lt1 i⟩

/-- `X · W + B`, the row `B` added to every row of the product. -/
def affine {n k h : Nat} (X : Mat n k) (W : Mat k h) (B : Mat 1 h) : Mat n h :=
  fun i => (∑ κ : Fin k, X (ix2 (row i) κ) * W (ix2 κ (col i))) + B (ix2 (0 : Fin 1) (col i))

/-- The entrywise maximum with the value of f32's zero word. -/
def clampZ {n h : Nat} (Y : Mat n h) : Mat n h :=
  fun i => max (Y i) (Ideal.ofBits .f32 0x00000000#32)

/-- A vector as a one-row matrix. -/
def rowOf {h : Nat} (b : Vect h) : Mat 1 h := fun i => b (ix1 (col i))

/-- The entrywise sum of two matrices. -/
def plus {n h : Nat} (A B : Mat n h) : Mat n h := fun i => A i + B i

theorem affine_apply {n k h : Nat} (X : Mat n k) (W : Mat k h) (B : Mat 1 h) (i : (⟨2, ![n, h]⟩ : Shape).Idx) :
    affine X W B i = (∑ κ : Fin k, X (ix2 (row i) κ) * W (ix2 κ (col i))) + B (ix2 (0 : Fin 1) (col i)) := rfl

theorem clampZ_apply {n h : Nat} (Y : Mat n h) (i : (⟨2, ![n, h]⟩ : Shape).Idx) :
    clampZ Y i = max (Y i) (Ideal.ofBits .f32 0x00000000#32) := rfl

theorem rowOf_apply {h : Nat} (b : Vect h) (i : (⟨2, ![1, h]⟩ : Shape).Idx) : rowOf b i = b (ix1 (col i)) := rfl

theorem plus_apply {n h : Nat} (A B : Mat n h) (i : (⟨2, ![n, h]⟩ : Shape).Idx) : plus A B i = A i + B i := rfl

end Cert.Dense

end
-- ==== Proof.LibHostSettle.lean ====
/-
  A general fact about straight lines of host operations in which every buffer is written once, after everything it
  is computed from. Number the device's buffers by their index. Suppose the k-th operation of a line writes exactly
  the buffers of index n + k, and its result there depends only on the contents of buffers of smaller index. Then the
  contents after the whole line are a fixed point of every operation of the line: running any one of them again changes
  nothing. Read at an operation's result buffer this is the equation "the result buffer holds the operation's function
  of its operands' final contents", with the same final contents on both sides — the line read as a system of equations.
-/
import Idealize.ShloMosaic.Lib.StableHlo.Run

namespace Idealize.ShloMosaic.StableHlo

variable {τ : Topo} {sig : RefSig} {Val : EltTy → Type}

/-- The operation writes only buffers of index `n`, and what it leaves there is decided by the buffers of smaller index. -/
structure Step (n : ℕ) (op : HloOp τ sig Val) : Prop where
  wr : ∀ b ∈ op.writes, b.idx.val = n
  rd : ∀ F G : Valuation τ sig Val, (∀ b : DevRef τ sig, b.idx.val < n → F b = G b) →
    ∀ b ∈ op.writes, op.result F b = op.result G b

/-- The line's operations write the buffers of index `n`, `n + 1`, … in turn, each from buffers of smaller index. -/
def InOrder : ℕ → List (HloOp τ sig Val) → Prop
  | _, [] => True
  | n, op :: l => Step n op ∧ InOrder (n + 1) l

theorem InOrder.nil (n : ℕ) : InOrder n ([] : List (HloOp τ sig Val)) := trivial

theorem InOrder.cons {n : ℕ} {op : HloOp τ sig Val} {l : List (HloOp τ sig Val)} (h : Step n op) (hl : InOrder (n + 1) l) :
    InOrder n (op :: l) := ⟨h, hl⟩

/-- Two such lines, the second starting where the first stops, make one. -/
theorem InOrder.append : ∀ {n m : ℕ} {l₁ l₂ : List (HloOp τ sig Val)}, InOrder n l₁ → n + l₁.length = m → InOrder m l₂ →
    InOrder n (l₁ ++ l₂)
  | n, m, [], l₂, _, hm, h₂ => by
    have : n = m := by simpa using hm
    subst this; exact h₂
  | n, m, op :: l, l₂, h₁, hm, h₂ =>
    ⟨h₁.1, InOrder.append h₁.2 (by simp only [List.length_cons] at hm; omega) h₂⟩

/-- Every buffer such a line writes has index at least the line's first. -/
theorem InOrder.le_of_mem_writes : ∀ {n : ℕ} {l : List (HloOp τ sig Val)}, InOrder n l →
    ∀ op ∈ l, ∀ b ∈ op.writes, n ≤ b.idx.val
  | _, [], _, _, h, _, _ => nomatch h
  | n, op :: l, h, o, ho, b, hb => by
    rcases List.mem_cons.mp ho with rfl | ho'
    · exact (h.1.wr b hb).ge
    · exact (Nat.le_succ n).trans (InOrder.le_of_mem_writes h.2 o ho' b hb)

/-- A buffer of index below the line's first keeps its contents through the line. -/
theorem InOrder.after_of_lt {n : ℕ} {l : List (HloOp τ sig Val)} (h : InOrder n l) (V : Valuation τ sig Val)
    {b : DevRef τ sig} (hb : b.idx.val < n) : after l V b = V b :=
  after_of_forall_not_mem l V fun op hop hw => absurd (h.le_of_mem_writes op hop b hw) (Nat.not_le.mpr hb)

/-- The contents after the line are a fixed point of each of its operations. -/
theorem InOrder.settled : ∀ {n : ℕ} {l : List (HloOp τ sig Val)}, InOrder n l → ∀ (V : Valuation τ sig Val),
    ∀ op ∈ l, op.result (after l V) = after l V
  | _, [], _, _, _, h => nomatch h
  | n, op :: l, h, V, o, ho => by
    rcases List.mem_cons.mp ho with rfl | ho'
    · funext b
      by_cases hb : b ∈ o.writes
      · have hn : b.idx.val = n := h.1.wr b hb
        have hWb : after (o :: l) V b = o.result V b := by
          rw [after_cons]; exact h.2.after_of_lt _ (by omega)
        rw [hWb]
        refine h.1.rd _ _ (fun c hc => ?_) b hb
        rw [after_cons, h.2.after_of_lt _ (by omega)]
        exact o.result_of_not_mem V fun hcw => by have := h.1.wr c hcw; omega
      · exact o.result_of_not_mem _ hb
    · exact InOrder.settled h.2 (op.result V) o ho'

/-! ### The builders are steps -/

section Builders

variable {x a b c y : Ref sig .tc} {n : ℕ}

private theorem idx_of_mem_single {d : DevRef τ sig} (hd : d ∈ ({Proc.devRef .tc y} : Finset (DevRef τ sig))) (hy : y.idx.val = n) :
    d.idx.val = n := by
  rw [Finset.mem_singleton.mp hd]; exact hy

theorem nullary_step (v : y.ty.Contents Val) (hy') (hy : y.idx.val = n) : Step n (nullary (τ := τ) y v hy') where
  wr d hd := idx_of_mem_single hd hy
  rd F G _ d hd := by
    obtain rfl := Finset.mem_singleton.mp hd
    exact (nullary_result y v hy' F).trans (nullary_result y v hy' G).symm

theorem unary_step (f : x.ty.Contents Val → y.ty.Contents Val) (hx' hy') (hx : x.idx.val < n) (hy : y.idx.val = n) :
    Step n (unary (τ := τ) x y f hx' hy') where
  wr d hd := idx_of_mem_single hd hy
  rd F G h d hd := by
    obtain rfl := Finset.mem_singleton.mp hd
    rw [unary_result x y f hx' hy' F, unary_result x y f hx' hy' G, h (Proc.devRef .tc x) hx]

theorem binary_step (f : a.ty.Contents Val → b.ty.Contents Val → y.ty.Contents Val) (ha' hb' hy')
    (ha : a.idx.val < n) (hb : b.idx.val < n) (hy : y.idx.val = n) : Step n (binary (τ := τ) a b y f ha' hb' hy') where
  wr d hd := idx_of_mem_single hd hy
  rd F G h d hd := by
    obtain rfl := Finset.mem_singleton.mp hd
    rw [binary_result a b y f ha' hb' hy' F, binary_result a b y f ha' hb' hy' G, h (Proc.devRef .tc a) ha,
      h (Proc.devRef .tc b) hb]

theorem ternary_step (f : c.ty.Contents Val → a.ty.Contents Val → b.ty.Contents Val → y.ty.Contents Val) (hc' ha' hb' hy')
    (hc : c.idx.val < n) (ha : a.idx.val < n) (hb : b.idx.val < n) (hy : y.idx.val = n) :
    Step n (ternary (τ := τ) c a b y f hc' ha' hb' hy') where
  wr d hd := idx_of_mem_single hd hy
  rd F G h d hd := by
    obtain rfl := Finset.mem_singleton.mp hd
    rw [ternary_result c a b y f hc' ha' hb' hy' F, ternary_result c a b y f hc' ha' hb' hy' G, h (Proc.devRef .tc c) hc,
      h (Proc.devRef .tc a) ha, h (Proc.devRef .tc b) hb]

theorem reshape_step (he hn hx' hy') (hx : x.idx.val < n) (hy : y.idx.val = n) :
    Step n (reshape (τ := τ) (Val := Val) x y he hn hx' hy') where
  wr d hd := idx_of_mem_single hd hy
  rd F G h d hd := by
    obtain rfl := Finset.mem_singleton.mp hd
    rw [reshape_result x y he hn hx' hy' F, reshape_result x y he hn hx' hy' G, h (Proc.devRef .tc x) hx]

theorem nary_step {k : ℕ} (xs : Fin k → Ref sig .tc) (f : ((i : Fin k) → (xs i).ty.Contents Val) → y.ty.Contents Val) (hxs' hy')
    (hxs : ∀ i, (xs i).idx.val < n) (hy : y.idx.val = n) : Step n (nary (τ := τ) xs y f hxs' hy') where
  wr d hd := idx_of_mem_single hd hy
  rd F G h d hd := by
    obtain rfl := Finset.mem_singleton.mp hd
    rw [nary_result xs y f hxs' hy' F, nary_result xs y f hxs' hy' G]
    exact congrArg f (funext fun i => h (Proc.devRef .tc (xs i)) (hxs i))

/-! ### The equation each builder's fixed point is -/

variable {W : Valuation τ sig Val}

theorem nullary_fix {v : y.ty.Contents Val} {hy'} (h : (nullary (τ := τ) y v hy').result W = W) :
    W (Proc.devRef .tc y) = v := (congrFun h _).symm.trans (nullary_result y v hy' W)

theorem unary_fix {f : x.ty.Contents Val → y.ty.Contents Val} {hx' hy'} (h : (unary (τ := τ) x y f hx' hy').result W = W) :
    W (Proc.devRef .tc y) = f (W (Proc.devRef .tc x)) := (congrFun h _).symm.trans (unary_result x y f hx' hy' W)

theorem binary_fix {f : a.ty.Contents Val → b.ty.Contents Val → y.ty.Contents Val} {ha' hb' hy'}
    (h : (binary (τ := τ) a b y f ha' hb' hy').result W = W) :
    W (Proc.devRef .tc y) = f (W (Proc.devRef .tc a)) (W (Proc.devRef .tc b)) :=
  (congrFun h _).symm.trans (binary_result a b y f ha' hb' hy' W)

theorem ternary_fix {f : c.ty.Contents Val → a.ty.Contents Val → b.ty.Contents Val → y.ty.Contents Val} {hc' ha' hb' hy'}
    (h : (ternary (τ := τ) c a b y f hc' ha' hb' hy').result W = W) :
    W (Proc.devRef .tc y) = f (W (Proc.devRef .tc c)) (W (Proc.devRef .tc a)) (W (Proc.devRef .tc b)) :=
  (congrFun h _).symm.trans (ternary_result c a b y f hc' ha' hb' hy' W)

theorem reshape_fix {he hn hx' hy'} (h : (reshape (τ := τ) (Val := Val) x y he hn hx' hy').result W = W) :
    W (Proc.devRef .tc y) = fun i => he ▸ shapeCast y.ty.shape (W (Proc.devRef .tc x)) hn i :=
  (congrFun h _).symm.trans (reshape_result x y he hn hx' hy' W)

theorem nary_fix {k : ℕ} {xs : Fin k → Ref sig .tc} {f : ((i : Fin k) → (xs i).ty.Contents Val) → y.ty.Contents Val} {hxs' hy'}
    (h : (nary (τ := τ) xs y f hxs' hy').result W = W) :
    W (Proc.devRef .tc y) = f (fun i => W (Proc.devRef .tc (xs i))) :=
  (congrFun h _).symm.trans (nary_result xs y f hxs' hy' W)

end Builders

end Idealize.ShloMosaic.StableHlo
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RegionOps.lean ====
/-
  The idealized kernel program read as ONE line of single-assignment operations.

  Between the launch and the return the program is a sequence of host operations and six kernel regions. Every host
  operation writes one fresh buffer from earlier ones. A region, too, leaves exactly one new array — its output window's —
  and that array is a fixed function of the region's input arrays: the row-affine map `X · W + B` (clamped at zero or
  not) for the three projection regions, and the two-layer map `((H + A) · W₁ + B₁)⁺ · W₂ + B₂` (clamped at zero once
  more in the first two, not in the third) for the three update regions. So each region acts on the buffer contents exactly like one more operation, and the contents when @main
  returns are the fold of one line of 132 operations over the launch memory. The buffers are numbered in program order
  and every operation reads only earlier buffers, so the final contents satisfy every operation's equation at once.
-/
import proofs.«124138_j6536940225142_1_alg».proof.Proof.Gen.KernelIdeal.Frame
import proofs.«124138_j6536940225142_1_alg».proof.Proof.LibDense
import proofs.«124138_j6536940225142_1_alg».proof.Proof.LibHostSettle
import proofs.«124138_j6536940225142_1_alg».proof.Proof.LibHostFold

noncomputable section

namespace Cert.KernelIdeal.Line

open Cert.KernelIdeal Cert.KernelIdeal.Gen Cert.Dense
open Idealize.ShloMosaic Idealize.ShloMosaic.TcCoe Idealize.ShloMosaic.StableHlo Idealize.SL.Sem

/-! ## The regions as operations -/

/-- Region 0 read as one operation: its output array from its three input arrays. -/
def op0 : HloOp τ sig (Elt Ideal) :=
  ternary main_arg0 main_arg5 main_v0 main_v1
    (fun (X : (⟨S100000x128, .f32⟩ : BufTy).Contents (Elt Ideal)) (W : (⟨S128x300, .f32⟩ : BufTy).Contents (Elt Ideal)) (B : (⟨S1x300, .f32⟩ : BufTy).Contents (Elt Ideal)) =>
      (clampZ (affine (n := 100000) (k := 128) (h := 300) X W B) : (⟨S100000x300, .f32⟩ : BufTy).Contents (Elt Ideal)))

/-- Region 1 read as one operation: its output array from its three input arrays. -/
def op1 : HloOp τ sig (Elt Ideal) :=
  ternary main_arg1 main_arg7 main_v2 main_v3
    (fun (X : (⟨S300000x16, .f32⟩ : BufTy).Contents (Elt Ideal)) (W : (⟨S16x300, .f32⟩ : BufTy).Contents (Elt Ideal)) (B : (⟨S1x300, .f32⟩ : BufTy).Contents (Elt Ideal)) =>
      (affine (n := 300000) (k := 16) (h := 300) X W B : (⟨S300000x300, .f32⟩ : BufTy).Contents (Elt Ideal)))

/-- Region 2 read as one operation: its output array from its six input arrays. -/
def op2 : HloOp τ sig (Elt Ideal) :=
  nary ![main_v1, main_v20, main_v22, main_v29, main_v26, main_v30] main_v31
    (fun v =>
      (clampZ (affine (n := 100000) (k := 300) (h := 300)
        (clampZ (affine (n := 100000) (k := 300) (h := 300) (plus (v 0 : Mat 100000 300) (v 1 : Mat 100000 300)) (v 2 : Mat 300 300) (v 3 : Mat 1 300)))
        (v 4 : Mat 300 300) (v 5 : Mat 1 300)) : (⟨S100000x300, .f32⟩ : BufTy).Contents (Elt Ideal)))

/-- Region 3 read as one operation: its output array from its six input arrays. -/
def op3 : HloOp τ sig (Elt Ideal) :=
  nary ![main_v31, main_v48, main_v50, main_v57, main_v54, main_v58] main_v59
    (fun v =>
      (clampZ (affine (n := 100000) (k := 300) (h := 300)
        (clampZ (affine (n := 100000) (k := 300) (h := 300) (plus (v 0 : Mat 100000 300) (v 1 : Mat 100000 300)) (v 2 : Mat 300 300) (v 3 : Mat 1 300)))
        (v 4 : Mat 300 300) (v 5 : Mat 1 300)) : (⟨S100000x300, .f32⟩ : BufTy).Contents (Elt Ideal)))

/-- Region 4 read as one operation: its output array from its six input arrays. -/
def op4 : HloOp τ sig (Elt Ideal) :=
  nary ![main_v59, main_v76, main_v78, main_v85, main_v82, main_v86] main_v87
    (fun v =>
      (affine (n := 100000) (k := 300) (h := 300)
        (clampZ (affine (n := 100000) (k := 300) (h := 300) (plus (v 0 : Mat 100000 300) (v 1 : Mat 100000 300)) (v 2 : Mat 300 300) (v 3 : Mat 1 300)))
        (v 4 : Mat 300 300) (v 5 : Mat 1 300) : (⟨S100000x300, .f32⟩ : BufTy).Contents (Elt Ideal)))

/-- Region 5 read as one operation: its output array from its three input arrays. -/
def op5 : HloOp τ sig (Elt Ideal) :=
  ternary main_v98 main_arg13 main_v99 main_v100
    (fun (X : (⟨S2000x300, .f32⟩ : BufTy).Contents (Elt Ideal)) (W : (⟨S300x1024, .f32⟩ : BufTy).Contents (Elt Ideal)) (B : (⟨S1x1024, .f32⟩ : BufTy).Contents (Elt Ideal)) =>
      (affine (n := 2000) (k := 300) (h := 1024) X W B : (⟨S2000x1024, .f32⟩ : BufTy).Contents (Elt Ideal)))

/-! ## What each of these operations writes, and where it leaves the contents alone -/

theorem op0_writes : op0.writes = {(Proc.devRef .tc main_v1 : DevRef τ sig)} := rfl
theorem op0_out (F : Valuation τ sig (Elt Ideal)) : op0.result F (Proc.devRef .tc main_v1) = clampZ (affine (n := 100000) (k := 128) (h := 300) (F (Proc.devRef .tc main_arg0)) (F (Proc.devRef .tc main_arg5)) (F (Proc.devRef .tc main_v0))) :=
  ternary_result _ _ _ _ _ _ _ _ _ _
theorem op0_keep (F : Valuation τ sig (Elt Ideal)) {r : Ref sig .tc} (h : r ≠ main_v1) :
    op0.result F (Proc.devRef .tc r) = F (Proc.devRef .tc r) :=
  HloOp.result_of_not_mem _ _ (by rw [op0_writes, Finset.mem_singleton]; exact devRef_ne_of_ne h)
theorem op1_writes : op1.writes = {(Proc.devRef .tc main_v3 : DevRef τ sig)} := rfl
theorem op1_out (F : Valuation τ sig (Elt Ideal)) : op1.result F (Proc.devRef .tc main_v3) = affine (n := 300000) (k := 16) (h := 300) (F (Proc.devRef .tc main_arg1)) (F (Proc.devRef .tc main_arg7)) (F (Proc.devRef .tc main_v2)) :=
  ternary_result _ _ _ _ _ _ _ _ _ _
theorem op1_keep (F : Valuation τ sig (Elt Ideal)) {r : Ref sig .tc} (h : r ≠ main_v3) :
    op1.result F (Proc.devRef .tc r) = F (Proc.devRef .tc r) :=
  HloOp.result_of_not_mem _ _ (by rw [op1_writes, Finset.mem_singleton]; exact devRef_ne_of_ne h)
theorem op5_writes : op5.writes = {(Proc.devRef .tc main_v100 : DevRef τ sig)} := rfl
theorem op5_out (F : Valuation τ sig (Elt Ideal)) : op5.result F (Proc.devRef .tc main_v100) = affine (n := 2000) (k := 300) (h := 1024) (F (Proc.devRef .tc main_v98)) (F (Proc.devRef .tc main_arg13)) (F (Proc.devRef .tc main_v99)) :=
  ternary_result _ _ _ _ _ _ _ _ _ _
theorem op5_keep (F : Valuation τ sig (Elt Ideal)) {r : Ref sig .tc} (h : r ≠ main_v100) :
    op5.result F (Proc.devRef .tc r) = F (Proc.devRef .tc r) :=
  HloOp.result_of_not_mem _ _ (by rw [op5_writes, Finset.mem_singleton]; exact devRef_ne_of_ne h)
theorem op2_writes : op2.writes = {(Proc.devRef .tc main_v31 : DevRef τ sig)} := rfl
theorem op2_out (F : Valuation τ sig (Elt Ideal)) : op2.result F (Proc.devRef .tc main_v31) = clampZ (affine (n := 100000) (k := 300) (h := 300) (clampZ (affine (n := 100000) (k := 300) (h := 300) (plus (F (Proc.devRef .tc main_v1)) (F (Proc.devRef .tc main_v20))) (F (Proc.devRef .tc main_v22)) (F (Proc.devRef .tc main_v29)))) (F (Proc.devRef .tc main_v26)) (F (Proc.devRef .tc main_v30))) :=
  nary_result _ _ _ _ _ _
theorem op2_keep (F : Valuation τ sig (Elt Ideal)) {r : Ref sig .tc} (h : r ≠ main_v31) :
    op2.result F (Proc.devRef .tc r) = F (Proc.devRef .tc r) :=
  HloOp.result_of_not_mem _ _ (by rw [op2_writes, Finset.mem_singleton]; exact devRef_ne_of_ne h)
theorem op3_writes : op3.writes = {(Proc.devRef .tc main_v59 : DevRef τ sig)} := rfl
theorem op3_out (F : Valuation τ sig (Elt Ideal)) : op3.result F (Proc.devRef .tc main_v59) = clampZ (affine (n := 100000) (k := 300) (h := 300) (clampZ (affine (n := 100000) (k := 300) (h := 300) (plus (F (Proc.devRef .tc main_v31)) (F (Proc.devRef .tc main_v48))) (F (Proc.devRef .tc main_v50)) (F (Proc.devRef .tc main_v57)))) (F (Proc.devRef .tc main_v54)) (F (Proc.devRef .tc main_v58))) :=
  nary_result _ _ _ _ _ _
theorem op3_keep (F : Valuation τ sig (Elt Ideal)) {r : Ref sig .tc} (h : r ≠ main_v59) :
    op3.result F (Proc.devRef .tc r) = F (Proc.devRef .tc r) :=
  HloOp.result_of_not_mem _ _ (by rw [op3_writes, Finset.mem_singleton]; exact devRef_ne_of_ne h)
theorem op4_writes : op4.writes = {(Proc.devRef .tc main_v87 : DevRef τ sig)} := rfl
theorem op4_out (F : Valuation τ sig (Elt Ideal)) : op4.result F (Proc.devRef .tc main_v87) = affine (n := 100000) (k := 300) (h := 300) (clampZ (affine (n := 100000) (k := 300) (h := 300) (plus (F (Proc.devRef .tc main_v59)) (F (Proc.devRef .tc main_v76))) (F (Proc.devRef .tc main_v78)) (F (Proc.devRef .tc main_v85)))) (F (Proc.devRef .tc main_v82)) (F (Proc.devRef .tc main_v86)) :=
  nary_result _ _ _ _ _ _
theorem op4_keep (F : Valuation τ sig (Elt Ideal)) {r : Ref sig .tc} (h : r ≠ main_v87) :
    op4.result F (Proc.devRef .tc r) = F (Proc.devRef .tc r) :=
  HloOp.result_of_not_mem _ _ (by rw [op4_writes, Finset.mem_singleton]; exact devRef_ne_of_ne h)

/-! ## Each region's exit contents -/

variable (m : (ℓ : Loc nD τ sig) → Buf (Elt Ideal) ℓ) (ρ : Dev nD → PrngReg)

/-- The contents at region 0's exit are the contents at its entry with that one operation applied: its output array
    is the region's whole-array value (`hfin`), its input arrays and every other buffer are as entered. -/
theorem W2_eq (c : Dev nD)
    (hfin : (dat0 (F := Ideal) (V1 m ρ) c).arrAt 3 cfg0.N = clampZ (affine (n := 100000) (k := 128) (h := 300) (V1 m ρ c main_arg0) (V1 m ρ c main_arg5) (V1 m ρ c main_v0))) :
    W2 m ρ c = op0.result (W1 m ρ c) := by
  funext b
  by_cases hb : ∃ w, Proc.devRef .tc (Pipeline.arrRef spec0 w) = b
  · obtain ⟨w, rfl⟩ := hb
    rw [W2_arr]
    match w with
    | ⟨0, _⟩ => exact ((dat0 (V1 m ρ) c).arrAt_in 0 rfl _).trans ((A_eq0 (V1 m ρ) c 0).trans (op0_keep _ (by decide)).symm)
    | ⟨1, _⟩ => exact ((dat0 (V1 m ρ) c).arrAt_in 1 rfl _).trans ((A_eq0 (V1 m ρ) c 1).trans (op0_keep _ (by decide)).symm)
    | ⟨2, _⟩ => exact ((dat0 (V1 m ρ) c).arrAt_in 2 rfl _).trans ((A_eq0 (V1 m ρ) c 2).trans (op0_keep _ (by decide)).symm)
    | ⟨3, _⟩ => exact hfin.trans (op0_out _).symm
  · have e : W2 m ρ c b = W1 m ρ c b := by unfold W2 Pipeline.withArrays; rw [dif_neg hb]
    rw [e]
    exact (HloOp.result_of_not_mem _ _ (fun hw => hb ⟨3, (Finset.mem_singleton.mp hw).symm⟩)).symm

/-- The contents at region 1's exit are the contents at its entry with that one operation applied: its output array
    is the region's whole-array value (`hfin`), its input arrays and every other buffer are as entered. -/
theorem W4_eq (c : Dev nD)
    (hfin : (dat1 (F := Ideal) (V3 m ρ) c).arrAt 3 cfg1.N = affine (n := 300000) (k := 16) (h := 300) (V3 m ρ c main_arg1) (V3 m ρ c main_arg7) (V3 m ρ c main_v2)) :
    W4 m ρ c = op1.result (W3 m ρ c) := by
  funext b
  by_cases hb : ∃ w, Proc.devRef .tc (Pipeline.arrRef spec1 w) = b
  · obtain ⟨w, rfl⟩ := hb
    rw [W4_arr]
    match w with
    | ⟨0, _⟩ => exact ((dat1 (V3 m ρ) c).arrAt_in 0 rfl _).trans ((A_eq1 (V3 m ρ) c 0).trans (op1_keep _ (by decide)).symm)
    | ⟨1, _⟩ => exact ((dat1 (V3 m ρ) c).arrAt_in 1 rfl _).trans ((A_eq1 (V3 m ρ) c 1).trans (op1_keep _ (by decide)).symm)
    | ⟨2, _⟩ => exact ((dat1 (V3 m ρ) c).arrAt_in 2 rfl _).trans ((A_eq1 (V3 m ρ) c 2).trans (op1_keep _ (by decide)).symm)
    | ⟨3, _⟩ => exact hfin.trans (op1_out _).symm
  · have e : W4 m ρ c b = W3 m ρ c b := by unfold W4 Pipeline.withArrays; rw [dif_neg hb]
    rw [e]
    exact (HloOp.result_of_not_mem _ _ (fun hw => hb ⟨3, (Finset.mem_singleton.mp hw).symm⟩)).symm

/-- An input window's array is as the region found it, and the region's operation leaves it alone too. -/
theorem W8_in (c : Dev nD) (w : Fin cfg2.W) (hw : (cfg2.win w).isOut = false) (hne : Pipeline.arrRef spec2 w ≠ main_v31) :
    W8 m ρ c (Proc.devRef .tc (Pipeline.arrRef spec2 w)) = op2.result (W7 m ρ c) (Proc.devRef .tc (Pipeline.arrRef spec2 w)) :=
  (W8_arr m ρ c w).trans (((dat2 (V7 m ρ) c).arrAt_in w hw _).trans ((A_eq2 (V7 m ρ) c w).trans (op2_keep _ hne).symm))

/-- A buffer that is none of the region's arrays is as the region found it, and the region's operation leaves it alone too. -/
theorem W8_rest (c : Dev nD) (b : DevRef τ sig) (hb : ¬ ∃ w, Proc.devRef .tc (Pipeline.arrRef spec2 w) = b) :
    W8 m ρ c b = op2.result (W7 m ρ c) b := by
  have e : W8 m ρ c b = W7 m ρ c b := by unfold W8 Pipeline.withArrays; rw [dif_neg hb]
  rw [e]
  refine (HloOp.result_of_not_mem _ _ ?_).symm
  rw [op2_writes, Finset.mem_singleton]
  intro h
  exact hb ⟨6, h.symm⟩

/-- Every window but the last is an input window, over another array than the output's. -/
theorem spec2_in : ∀ w : Fin 7, w ≠ 6 → (cfg2.win w).isOut = false ∧ Pipeline.arrRef spec2 w ≠ main_v31 := by decide

/-- The contents at region 2's exit are the contents at its entry with that one operation applied: its output array
    is the region's whole-array value (`hfin`), its input arrays and every other buffer are as entered. -/
theorem W8_eq (c : Dev nD)
    (hfin : (dat2 (F := Ideal) (V7 m ρ) c).arrAt 6 cfg2.N = clampZ (affine (n := 100000) (k := 300) (h := 300) (clampZ (affine (n := 100000) (k := 300) (h := 300) (plus (V7 m ρ c main_v1) (V7 m ρ c main_v20)) (V7 m ρ c main_v22) (V7 m ρ c main_v29))) (V7 m ρ c main_v26) (V7 m ρ c main_v30))) :
    W8 m ρ c = op2.result (W7 m ρ c) := by
  funext b
  by_cases hb : ∃ w, Proc.devRef .tc (Pipeline.arrRef spec2 w) = b
  · obtain ⟨w, rfl⟩ := hb
    by_cases h6 : w = 6
    · subst h6
      exact (W8_arr m ρ c 6).trans (hfin.trans (op2_out _).symm)
    · exact W8_in m ρ c w (spec2_in w h6).1 (spec2_in w h6).2
  · exact W8_rest m ρ c b hb

/-- An input window's array is as the region found it, and the region's operation leaves it alone too. -/
theorem W12_in (c : Dev nD) (w : Fin cfg3.W) (hw : (cfg3.win w).isOut = false) (hne : Pipeline.arrRef spec3 w ≠ main_v59) :
    W12 m ρ c (Proc.devRef .tc (Pipeline.arrRef spec3 w)) = op3.result (W11 m ρ c) (Proc.devRef .tc (Pipeline.arrRef spec3 w)) :=
  (W12_arr m ρ c w).trans (((dat3 (V11 m ρ) c).arrAt_in w hw _).trans ((A_eq3 (V11 m ρ) c w).trans (op3_keep _ hne).symm))

/-- A buffer that is none of the region's arrays is as the region found it, and the region's operation leaves it alone too. -/
theorem W12_rest (c : Dev nD) (b : DevRef τ sig) (hb : ¬ ∃ w, Proc.devRef .tc (Pipeline.arrRef spec3 w) = b) :
    W12 m ρ c b = op3.result (W11 m ρ c) b := by
  have e : W12 m ρ c b = W11 m ρ c b := by unfold W12 Pipeline.withArrays; rw [dif_neg hb]
  rw [e]
  refine (HloOp.result_of_not_mem _ _ ?_).symm
  rw [op3_writes, Finset.mem_singleton]
  intro h
  exact hb ⟨6, h.symm⟩

/-- Every window but the last is an input window, over another array than the output's. -/
theorem spec3_in : ∀ w : Fin 7, w ≠ 6 → (cfg3.win w).isOut = false ∧ Pipeline.arrRef spec3 w ≠ main_v59 := by decide

/-- The contents at region 3's exit are the contents at its entry with that one operation applied: its output array
    is the region's whole-array value (`hfin`), its input arrays and every other buffer are as entered. -/
theorem W12_eq (c : Dev nD)
    (hfin : (dat3 (F := Ideal) (V11 m ρ) c).arrAt 6 cfg3.N = clampZ (affine (n := 100000) (k := 300) (h := 300) (clampZ (affine (n := 100000) (k := 300) (h := 300) (plus (V11 m ρ c main_v31) (V11 m ρ c main_v48)) (V11 m ρ c main_v50) (V11 m ρ c main_v57))) (V11 m ρ c main_v54) (V11 m ρ c main_v58))) :
    W12 m ρ c = op3.result (W11 m ρ c) := by
  funext b
  by_cases hb : ∃ w, Proc.devRef .tc (Pipeline.arrRef spec3 w) = b
  · obtain ⟨w, rfl⟩ := hb
    by_cases h6 : w = 6
    · subst h6
      exact (W12_arr m ρ c 6).trans (hfin.trans (op3_out _).symm)
    · exact W12_in m ρ c w (spec3_in w h6).1 (spec3_in w h6).2
  · exact W12_rest m ρ c b hb

/-- An input window's array is as the region found it, and the region's operation leaves it alone too. -/
theorem W16_in (c : Dev nD) (w : Fin cfg4.W) (hw : (cfg4.win w).isOut = false) (hne : Pipeline.arrRef spec4 w ≠ main_v87) :
    W16 m ρ c (Proc.devRef .tc (Pipeline.arrRef spec4 w)) = op4.result (W15 m ρ c) (Proc.devRef .tc (Pipeline.arrRef spec4 w)) :=
  (W16_arr m ρ c w).trans (((dat4 (V15 m ρ) c).arrAt_in w hw _).trans ((A_eq4 (V15 m ρ) c w).trans (op4_keep _ hne).symm))

/-- A buffer that is none of the region's arrays is as the region found it, and the region's operation leaves it alone too. -/
theorem W16_rest (c : Dev nD) (b : DevRef τ sig) (hb : ¬ ∃ w, Proc.devRef .tc (Pipeline.arrRef spec4 w) = b) :
    W16 m ρ c b = op4.result (W15 m ρ c) b := by
  have e : W16 m ρ c b = W15 m ρ c b := by unfold W16 Pipeline.withArrays; rw [dif_neg hb]
  rw [e]
  refine (HloOp.result_of_not_mem _ _ ?_).symm
  rw [op4_writes, Finset.mem_singleton]
  intro h
  exact hb ⟨6, h.symm⟩

/-- Every window but the last is an input window, over another array than the output's. -/
theorem spec4_in : ∀ w : Fin 7, w ≠ 6 → (cfg4.win w).isOut = false ∧ Pipeline.arrRef spec4 w ≠ main_v87 := by decide

/-- The contents at region 4's exit are the contents at its entry with that one operation applied: its output array
    is the region's whole-array value (`hfin`), its input arrays and every other buffer are as entered. -/
theorem W16_eq (c : Dev nD)
    (hfin : (dat4 (F := Ideal) (V15 m ρ) c).arrAt 6 cfg4.N = affine (n := 100000) (k := 300) (h := 300) (clampZ (affine (n := 100000) (k := 300) (h := 300) (plus (V15 m ρ c main_v59) (V15 m ρ c main_v76)) (V15 m ρ c main_v78) (V15 m ρ c main_v85))) (V15 m ρ c main_v82) (V15 m ρ c main_v86)) :
    W16 m ρ c = op4.result (W15 m ρ c) := by
  funext b
  by_cases hb : ∃ w, Proc.devRef .tc (Pipeline.arrRef spec4 w) = b
  · obtain ⟨w, rfl⟩ := hb
    by_cases h6 : w = 6
    · subst h6
      exact (W16_arr m ρ c 6).trans (hfin.trans (op4_out _).symm)
    · exact W16_in m ρ c w (spec4_in w h6).1 (spec4_in w h6).2
  · exact W16_rest m ρ c b hb

/-- The contents at region 5's exit are the contents at its entry with that one operation applied: its output array
    is the region's whole-array value (`hfin`), its input arrays and every other buffer are as entered. -/
theorem W18_eq (c : Dev nD)
    (hfin : (dat5 (F := Ideal) (V17 m ρ) c).arrAt 3 cfg5.N = affine (n := 2000) (k := 300) (h := 1024) (V17 m ρ c main_v98) (V17 m ρ c main_arg13) (V17 m ρ c main_v99)) :
    W18 m ρ c = op5.result (W17 m ρ c) := by
  funext b
  by_cases hb : ∃ w, Proc.devRef .tc (Pipeline.arrRef spec5 w) = b
  · obtain ⟨w, rfl⟩ := hb
    rw [W18_arr]
    match w with
    | ⟨0, _⟩ => exact ((dat5 (V17 m ρ) c).arrAt_in 0 rfl _).trans ((A_eq5 (V17 m ρ) c 0).trans (op5_keep _ (by decide)).symm)
    | ⟨1, _⟩ => exact ((dat5 (V17 m ρ) c).arrAt_in 1 rfl _).trans ((A_eq5 (V17 m ρ) c 1).trans (op5_keep _ (by decide)).symm)
    | ⟨2, _⟩ => exact ((dat5 (V17 m ρ) c).arrAt_in 2 rfl _).trans ((A_eq5 (V17 m ρ) c 2).trans (op5_keep _ (by decide)).symm)
    | ⟨3, _⟩ => exact hfin.trans (op5_out _).symm
  · have e : W18 m ρ c b = W17 m ρ c b := by unfold W18 Pipeline.withArrays; rw [dif_neg hb]
    rw [e]
    exact (HloOp.result_of_not_mem _ _ (fun hw => hb ⟨3, (Finset.mem_singleton.mp hw).symm⟩)).symm

end Cert.KernelIdeal.Line

end
-- ==== Proof.Line.lean ====
/-
  The contents when @main returns, as a system of equations.

  The program's segments in order — host stretches and the six regions, each region read as one operation — form one
  line of operations. Started from the launch memory its fold is the final contents (each region's exit contents are
  its entry contents with the region's operation applied). The k-th operation of the line, counting from 0, writes buffer
  16 + k and reads
  only buffers of smaller number: the sixteen arguments, or results of earlier operations. Hence the final contents
  are fixed by every operation of the line: each result buffer holds its operation's function of the FINAL contents of
  the operands.
-/
import proofs.«124138_j6536940225142_1_alg».proof.Proof.RegionOps

noncomputable section

namespace Cert.KernelIdeal.Line

open Cert.KernelIdeal Cert.KernelIdeal.Gen Cert.Dense
open Idealize.ShloMosaic Idealize.ShloMosaic.TcCoe Idealize.ShloMosaic.StableHlo Idealize.SL.Sem

variable (m : (ℓ : Loc nD τ sig) → Buf (Elt Ideal) ℓ) (ρ : Dev nD → PrngReg)

/-- The six regions' whole-array values, each at the region's entry contents. -/
structure Finals : Prop where
  f0 : ∀ c : Dev nD, (dat0 (F := Ideal) (V1 m ρ) c).arrAt 3 cfg0.N = clampZ (affine (n := 100000) (k := 128) (h := 300) (V1 m ρ c main_arg0) (V1 m ρ c main_arg5) (V1 m ρ c main_v0))
  f1 : ∀ c : Dev nD, (dat1 (F := Ideal) (V3 m ρ) c).arrAt 3 cfg1.N = affine (n := 300000) (k := 16) (h := 300) (V3 m ρ c main_arg1) (V3 m ρ c main_arg7) (V3 m ρ c main_v2)
  f2 : ∀ c : Dev nD, (dat2 (F := Ideal) (V7 m ρ) c).arrAt 6 cfg2.N = clampZ (affine (n := 100000) (k := 300) (h := 300) (clampZ (affine (n := 100000) (k := 300) (h := 300) (plus (V7 m ρ c main_v1) (V7 m ρ c main_v20)) (V7 m ρ c main_v22) (V7 m ρ c main_v29))) (V7 m ρ c main_v26) (V7 m ρ c main_v30))
  f3 : ∀ c : Dev nD, (dat3 (F := Ideal) (V11 m ρ) c).arrAt 6 cfg3.N = clampZ (affine (n := 100000) (k := 300) (h := 300) (clampZ (affine (n := 100000) (k := 300) (h := 300) (plus (V11 m ρ c main_v31) (V11 m ρ c main_v48)) (V11 m ρ c main_v50) (V11 m ρ c main_v57))) (V11 m ρ c main_v54) (V11 m ρ c main_v58))
  f4 : ∀ c : Dev nD, (dat4 (F := Ideal) (V15 m ρ) c).arrAt 6 cfg4.N = affine (n := 100000) (k := 300) (h := 300) (clampZ (affine (n := 100000) (k := 300) (h := 300) (plus (V15 m ρ c main_v59) (V15 m ρ c main_v76)) (V15 m ρ c main_v78) (V15 m ρ c main_v85))) (V15 m ρ c main_v82) (V15 m ρ c main_v86)
  f5 : ∀ c : Dev nD, (dat5 (F := Ideal) (V17 m ρ) c).arrAt 3 cfg5.N = affine (n := 2000) (k := 300) (h := 1024) (V17 m ρ c main_v98) (V17 m ρ c main_arg13) (V17 m ρ c main_v99)

/-! ## The line, as its tails from each segment boundary -/

/-- What remains to run from boundary 19. -/
abbrev t19 : List (HloOp τ sig (Elt Ideal)) := (hostOps6_1 (F := Ideal))
/-- What remains to run from boundary 18. -/
abbrev t18 : List (HloOp τ sig (Elt Ideal)) := (hostOps6 (F := Ideal)) ++ t19
/-- What remains to run from boundary 17. -/
abbrev t17 : List (HloOp τ sig (Elt Ideal)) := op5 :: t18
/-- What remains to run from boundary 16. -/
abbrev t16 : List (HloOp τ sig (Elt Ideal)) := (hostOps5 (F := Ideal)) ++ t17
/-- What remains to run from boundary 15. -/
abbrev t15 : List (HloOp τ sig (Elt Ideal)) := op4 :: t16
/-- What remains to run from boundary 14. -/
abbrev t14 : List (HloOp τ sig (Elt Ideal)) := (hostOps4_2 (F := Ideal)) ++ t15
/-- What remains to run from boundary 13. -/
abbrev t13 : List (HloOp τ sig (Elt Ideal)) := (hostOps4_1 (F := Ideal)) ++ t14
/-- What remains to run from boundary 12. -/
abbrev t12 : List (HloOp τ sig (Elt Ideal)) := (hostOps4 (F := Ideal)) ++ t13
/-- What remains to run from boundary 11. -/
abbrev t11 : List (HloOp τ sig (Elt Ideal)) := op3 :: t12
/-- What remains to run from boundary 10. -/
abbrev t10 : List (HloOp τ sig (Elt Ideal)) := (hostOps3_2 (F := Ideal)) ++ t11
/-- What remains to run from boundary 9. -/
abbrev t9 : List (HloOp τ sig (Elt Ideal)) := (hostOps3_1 (F := Ideal)) ++ t10
/-- What remains to run from boundary 8. -/
abbrev t8 : List (HloOp τ sig (Elt Ideal)) := (hostOps3 (F := Ideal)) ++ t9
/-- What remains to run from boundary 7. -/
abbrev t7 : List (HloOp τ sig (Elt Ideal)) := op2 :: t8
/-- What remains to run from boundary 6. -/
abbrev t6 : List (HloOp τ sig (Elt Ideal)) := (hostOps2_2 (F := Ideal)) ++ t7
/-- What remains to run from boundary 5. -/
abbrev t5 : List (HloOp τ sig (Elt Ideal)) := (hostOps2_1 (F := Ideal)) ++ t6
/-- What remains to run from boundary 4. -/
abbrev t4 : List (HloOp τ sig (Elt Ideal)) := (hostOps2 (F := Ideal)) ++ t5
/-- What remains to run from boundary 3. -/
abbrev t3 : List (HloOp τ sig (Elt Ideal)) := op1 :: t4
/-- What remains to run from boundary 2. -/
abbrev t2 : List (HloOp τ sig (Elt Ideal)) := (hostOps1 (F := Ideal)) ++ t3
/-- What remains to run from boundary 1. -/
abbrev t1 : List (HloOp τ sig (Elt Ideal)) := op0 :: t2
/-- What remains to run from boundary 0. -/
abbrev t0 : List (HloOp τ sig (Elt Ideal)) := (hostOps0 (F := Ideal)) ++ t1

/-- @main's host operations and regions, in order. -/
abbrev line : List (HloOp τ sig (Elt Ideal)) := t0

/-! ## Its fold from each boundary is the final contents -/

theorem run_t19 (H : Finals m ρ) (c : Dev nD) : after t19 (W19 m ρ c) = W20 m ρ c := rfl
theorem run_t18 (H : Finals m ρ) (c : Dev nD) : after t18 (W18 m ρ c) = W20 m ρ c :=
  (after_append _ _ _).trans (run_t19 m ρ H c)
theorem run_t17 (H : Finals m ρ) (c : Dev nD) : after t17 (W17 m ρ c) = W20 m ρ c :=
  (congrArg (after t18) (W18_eq m ρ c (H.f5 c)).symm).trans (run_t18 m ρ H c)
theorem run_t16 (H : Finals m ρ) (c : Dev nD) : after t16 (W16 m ρ c) = W20 m ρ c :=
  (after_append _ _ _).trans (run_t17 m ρ H c)
theorem run_t15 (H : Finals m ρ) (c : Dev nD) : after t15 (W15 m ρ c) = W20 m ρ c :=
  (congrArg (after t16) (W16_eq m ρ c (H.f4 c)).symm).trans (run_t16 m ρ H c)
theorem run_t14 (H : Finals m ρ) (c : Dev nD) : after t14 (W14 m ρ c) = W20 m ρ c :=
  (after_append _ _ _).trans (run_t15 m ρ H c)
theorem run_t13 (H : Finals m ρ) (c : Dev nD) : after t13 (W13 m ρ c) = W20 m ρ c :=
  (after_append _ _ _).trans (run_t14 m ρ H c)
theorem run_t12 (H : Finals m ρ) (c : Dev nD) : after t12 (W12 m ρ c) = W20 m ρ c :=
  (after_append _ _ _).trans (run_t13 m ρ H c)
theorem run_t11 (H : Finals m ρ) (c : Dev nD) : after t11 (W11 m ρ c) = W20 m ρ c :=
  (congrArg (after t12) (W12_eq m ρ c (H.f3 c)).symm).trans (run_t12 m ρ H c)
theorem run_t10 (H : Finals m ρ) (c : Dev nD) : after t10 (W10 m ρ c) = W20 m ρ c :=
  (after_append _ _ _).trans (run_t11 m ρ H c)
theorem run_t9 (H : Finals m ρ) (c : Dev nD) : after t9 (W9 m ρ c) = W20 m ρ c :=
  (after_append _ _ _).trans (run_t10 m ρ H c)
theorem run_t8 (H : Finals m ρ) (c : Dev nD) : after t8 (W8 m ρ c) = W20 m ρ c :=
  (after_append _ _ _).trans (run_t9 m ρ H c)
theorem run_t7 (H : Finals m ρ) (c : Dev nD) : after t7 (W7 m ρ c) = W20 m ρ c :=
  (congrArg (after t8) (W8_eq m ρ c (H.f2 c)).symm).trans (run_t8 m ρ H c)
theorem run_t6 (H : Finals m ρ) (c : Dev nD) : after t6 (W6 m ρ c) = W20 m ρ c :=
  (after_append _ _ _).trans (run_t7 m ρ H c)
theorem run_t5 (H : Finals m ρ) (c : Dev nD) : after t5 (W5 m ρ c) = W20 m ρ c :=
  (after_append _ _ _).trans (run_t6 m ρ H c)
theorem run_t4 (H : Finals m ρ) (c : Dev nD) : after t4 (W4 m ρ c) = W20 m ρ c :=
  (after_append _ _ _).trans (run_t5 m ρ H c)
theorem run_t3 (H : Finals m ρ) (c : Dev nD) : after t3 (W3 m ρ c) = W20 m ρ c :=
  (congrArg (after t4) (W4_eq m ρ c (H.f1 c)).symm).trans (run_t4 m ρ H c)
theorem run_t2 (H : Finals m ρ) (c : Dev nD) : after t2 (W2 m ρ c) = W20 m ρ c :=
  (after_append _ _ _).trans (run_t3 m ρ H c)
theorem run_t1 (H : Finals m ρ) (c : Dev nD) : after t1 (W1 m ρ c) = W20 m ρ c :=
  (congrArg (after t2) (W2_eq m ρ c (H.f0 c)).symm).trans (run_t2 m ρ H c)
theorem run_t0 (H : Finals m ρ) (c : Dev nD) : after t0 (W0 m ρ c) = W20 m ρ c :=
  (after_append _ _ _).trans (run_t1 m ρ H c)

/-- The final contents are the line's fold over the launch memory. -/
theorem W20_line (H : Finals m ρ) (c : Dev nD) : W20 m ρ c = after line (W0 m ρ c) := (run_t0 m ρ H c).symm

/-! ## Every operation writes the next buffer from earlier ones -/

/-- One operation of a host stretch: it writes the buffer of the stated number from buffers of smaller number. -/
macro "host_step" : tactic => `(tactic| first
  | exact nullary_step _ _ (by decide)
  | exact unary_step _ _ _ (by decide) (by decide)
  | exact binary_step _ _ _ _ (by decide) (by decide) (by decide)
  | exact ternary_step _ _ _ _ _ (by decide) (by decide) (by decide) (by decide)
  | exact reshape_step _ _ _ _ (by decide) (by decide))
/-- A host stretch, operation by operation. -/
macro "in_order" : tactic => `(tactic| repeat' (first | exact InOrder.nil _ | refine InOrder.cons ?_ ?_ | host_step))

theorem io_hostOps0 : InOrder 16 (hostOps0 (F := Ideal)) := by in_order
theorem io_hostOps1 : InOrder 18 (hostOps1 (F := Ideal)) := by in_order
theorem io_hostOps2 : InOrder 20 (hostOps2 (F := Ideal)) := by in_order
theorem io_hostOps2_1 : InOrder 30 (hostOps2_1 (F := Ideal)) := by in_order
theorem io_hostOps2_2 : InOrder 33 (hostOps2_2 (F := Ideal)) := by in_order
theorem io_hostOps3 : InOrder 55 (hostOps3 (F := Ideal)) := by in_order
theorem io_hostOps3_1 : InOrder 65 (hostOps3_1 (F := Ideal)) := by in_order
theorem io_hostOps3_2 : InOrder 68 (hostOps3_2 (F := Ideal)) := by in_order
theorem io_hostOps4 : InOrder 90 (hostOps4 (F := Ideal)) := by in_order
theorem io_hostOps4_1 : InOrder 100 (hostOps4_1 (F := Ideal)) := by in_order
theorem io_hostOps4_2 : InOrder 103 (hostOps4_2 (F := Ideal)) := by in_order
theorem io_hostOps5 : InOrder 125 (hostOps5 (F := Ideal)) := by in_order
theorem io_hostOps6 : InOrder 142 (hostOps6 (F := Ideal)) := by in_order
theorem io_hostOps6_1 : InOrder 147 (hostOps6_1 (F := Ideal)) := by in_order

theorem step_op0 : Step 17 op0 := ternary_step _ _ _ _ _ (by decide) (by decide) (by decide) (by decide)
theorem step_op1 : Step 19 op1 := ternary_step _ _ _ _ _ (by decide) (by decide) (by decide) (by decide)
theorem step_op2 : Step 54 op2 := nary_step _ _ _ _ (by decide) (by decide)
theorem step_op3 : Step 89 op3 := nary_step _ _ _ _ (by decide) (by decide)
theorem step_op4 : Step 124 op4 := nary_step _ _ _ _ (by decide) (by decide)
theorem step_op5 : Step 141 op5 := ternary_step _ _ _ _ _ (by decide) (by decide) (by decide) (by decide)

theorem io_t19 : InOrder 147 t19 := io_hostOps6_1
theorem io_t18 : InOrder 142 t18 := InOrder.append io_hostOps6 rfl io_t19
theorem io_t17 : InOrder 141 t17 := InOrder.cons step_op5 io_t18
theorem io_t16 : InOrder 125 t16 := InOrder.append io_hostOps5 rfl io_t17
theorem io_t15 : InOrder 124 t15 := InOrder.cons step_op4 io_t16
theorem io_t14 : InOrder 103 t14 := InOrder.append io_hostOps4_2 rfl io_t15
theorem io_t13 : InOrder 100 t13 := InOrder.append io_hostOps4_1 rfl io_t14
theorem io_t12 : InOrder 90 t12 := InOrder.append io_hostOps4 rfl io_t13
theorem io_t11 : InOrder 89 t11 := InOrder.cons step_op3 io_t12
theorem io_t10 : InOrder 68 t10 := InOrder.append io_hostOps3_2 rfl io_t11
theorem io_t9 : InOrder 65 t9 := InOrder.append io_hostOps3_1 rfl io_t10
theorem io_t8 : InOrder 55 t8 := InOrder.append io_hostOps3 rfl io_t9
theorem io_t7 : InOrder 54 t7 := InOrder.cons step_op2 io_t8
theorem io_t6 : InOrder 33 t6 := InOrder.append io_hostOps2_2 rfl io_t7
theorem io_t5 : InOrder 30 t5 := InOrder.append io_hostOps2_1 rfl io_t6
theorem io_t4 : InOrder 20 t4 := InOrder.append io_hostOps2 rfl io_t5
theorem io_t3 : InOrder 19 t3 := InOrder.cons step_op1 io_t4
theorem io_t2 : InOrder 18 t2 := InOrder.append io_hostOps1 rfl io_t3
theorem io_t1 : InOrder 17 t1 := InOrder.cons step_op0 io_t2
theorem io_t0 : InOrder 16 t0 := InOrder.append io_hostOps0 rfl io_t1

theorem inOrder : InOrder 16 line := io_t0

/-! ## The final contents are fixed by every operation -/

theorem settled (H : Finals m ρ) (c : Dev nD) : ∀ op ∈ line, op.result (W20 m ρ c) = W20 m ρ c := by
  rw [W20_line m ρ H c]
  exact InOrder.settled inOrder _

theorem mem_hostOps0 {op : HloOp τ sig (Elt Ideal)} (h : op ∈ (hostOps0 (F := Ideal))) : op ∈ line := List.mem_append_left _ h
theorem mem_op0 : op0 ∈ line := List.mem_append_right _ (List.mem_cons_self)
theorem mem_hostOps1 {op : HloOp τ sig (Elt Ideal)} (h : op ∈ (hostOps1 (F := Ideal))) : op ∈ line := List.mem_append_right _ (List.mem_cons_of_mem _ (List.mem_append_left _ h))
theorem mem_op1 : op1 ∈ line := List.mem_append_right _ (List.mem_cons_of_mem _ (List.mem_append_right _ (List.mem_cons_self)))
theorem mem_hostOps2 {op : HloOp τ sig (Elt Ideal)} (h : op ∈ (hostOps2 (F := Ideal))) : op ∈ line := List.mem_append_right _ (List.mem_cons_of_mem _ (List.mem_append_right _ (List.mem_cons_of_mem _ (List.mem_append_left _ h))))
theorem mem_hostOps2_1 {op : HloOp τ sig (Elt Ideal)} (h : op ∈ (hostOps2_1 (F := Ideal))) : op ∈ line := List.mem_append_right _ (List.mem_cons_of_mem _ (List.mem_append_right _ (List.mem_cons_of_mem _ (List.mem_append_right _ (List.mem_append_left _ h)))))
theorem mem_hostOps2_2 {op : HloOp τ sig (Elt Ideal)} (h : op ∈ (hostOps2_2 (F := Ideal))) : op ∈ line := List.mem_append_right _ (List.mem_cons_of_mem _ (List.mem_append_right _ (List.mem_cons_of_mem _ (List.mem_append_right _ (List.mem_append_right _ (List.mem_append_left _ h))))))
theorem mem_op2 : op2 ∈ line := List.mem_append_right _ (List.mem_cons_of_mem _ (List.mem_append_right _ (List.mem_cons_of_mem _ (List.mem_append_right _ (List.mem_append_right _ (List.mem_append_right _ (List.mem_cons_self)))))))
theorem mem_hostOps3 {op : HloOp τ sig (Elt Ideal)} (h : op ∈ (hostOps3 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_left _ h))))))))
theorem mem_hostOps3_1 {op : HloOp τ sig (Elt Ideal)} (h : op ∈ (hostOps3_1 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_left _ h)))))))))
theorem mem_hostOps3_2 {op : HloOp τ sig (Elt Ideal)} (h : op ∈ (hostOps3_2 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_left _ h))))))))))
theorem mem_op3 : op3 ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_self)))))))))))
theorem mem_hostOps4 {op : HloOp τ sig (Elt Ideal)} (h : op ∈ (hostOps4 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_left _ h))))))))))))
theorem mem_hostOps4_1 {op : HloOp τ sig (Elt Ideal)} (h : op ∈ (hostOps4_1 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_left _ h)))))))))))))
theorem mem_hostOps4_2 {op : HloOp τ sig (Elt Ideal)} (h : op ∈ (hostOps4_2 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_left _ h))))))))))))))
theorem mem_op4 : op4 ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_right _ (List.mem_cons_self)))))))))))))))
theorem mem_hostOps5 {op : HloOp τ sig (Elt Ideal)} (h : op ∈ (hostOps5 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_left _ h))))))))))))))))
theorem mem_op5 : op5 ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_cons_self)))))))))))))))))
theorem mem_hostOps6 {op : HloOp τ sig (Elt Ideal)} (h : op ∈ (hostOps6 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_cons_of_mem _ (List.mem_append_left _ h))))))))))))))))))
theorem mem_hostOps6_1 {op : HloOp τ sig (Elt Ideal)} (h : op ∈ (hostOps6_1 (F := Ideal))) : op ∈ line := List.mem_append_right _ (List.mem_cons_of_mem _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_append_right _ (List.mem_append_right _ (List.mem_cons_of_mem _ (List.mem_append_right _ (List.mem_cons_of_mem _ (List.mem_append_right _ (h)))))))))))))))))))

theorem fix_hostOps0 (H : Finals m ρ) (c : Dev nD) : (hostOps0 (F := Ideal)).Forall fun op => op.result (W20 m ρ c) = W20 m ρ c :=
  List.forall_iff_forall_mem.mpr fun op h => settled m ρ H c op (mem_hostOps0 h)
theorem fix_op0 (H : Finals m ρ) (c : Dev nD) : op0.result (W20 m ρ c) = W20 m ρ c := settled m ρ H c op0 mem_op0
theorem fix_hostOps1 (H : Finals m ρ) (c : Dev nD) : (hostOps1 (F := Ideal)).Forall fun op => op.result (W20 m ρ c) = W20 m ρ c :=
  List.forall_iff_forall_mem.mpr fun op h => settled m ρ H c op (mem_hostOps1 h)
theorem fix_op1 (H : Finals m ρ) (c : Dev nD) : op1.result (W20 m ρ c) = W20 m ρ c := settled m ρ H c op1 mem_op1
theorem fix_hostOps2 (H : Finals m ρ) (c : Dev nD) : (hostOps2 (F := Ideal)).Forall fun op => op.result (W20 m ρ c) = W20 m ρ c :=
  List.forall_iff_forall_mem.mpr fun op h => settled m ρ H c op (mem_hostOps2 h)
theorem fix_hostOps2_1 (H : Finals m ρ) (c : Dev nD) : (hostOps2_1 (F := Ideal)).Forall fun op => op.result (W20 m ρ c) = W20 m ρ c :=
  List.forall_iff_forall_mem.mpr fun op h => settled m ρ H c op (mem_hostOps2_1 h)
theorem fix_hostOps2_2 (H : Finals m ρ) (c : Dev nD) : (hostOps2_2 (F := Ideal)).Forall fun op => op.result (W20 m ρ c) = W20 m ρ c :=
  List.forall_iff_forall_mem.mpr fun op h => settled m ρ H c op (mem_hostOps2_2 h)
theorem fix_op2 (H : Finals m ρ) (c : Dev nD) : op2.result (W20 m ρ c) = W20 m ρ c := settled m ρ H c op2 mem_op2
theorem fix_hostOps3 (H : Finals m ρ) (c : Dev nD) : (hostOps3 (F := Ideal)).Forall fun op => op.result (W20 m ρ c) = W20 m ρ c :=
  List.forall_iff_forall_mem.mpr fun op h => settled m ρ H c op (mem_hostOps3 h)
theorem fix_hostOps3_1 (H : Finals m ρ) (c : Dev nD) : (hostOps3_1 (F := Ideal)).Forall fun op => op.result (W20 m ρ c) = W20 m ρ c :=
  List.forall_iff_forall_mem.mpr fun op h => settled m ρ H c op (mem_hostOps3_1 h)
theorem fix_hostOps3_2 (H : Finals m ρ) (c : Dev nD) : (hostOps3_2 (F := Ideal)).Forall fun op => op.result (W20 m ρ c) = W20 m ρ c :=
  List.forall_iff_forall_mem.mpr fun op h => settled m ρ H c op (mem_hostOps3_2 h)
theorem fix_op3 (H : Finals m ρ) (c : Dev nD) : op3.result (W20 m ρ c) = W20 m ρ c := settled m ρ H c op3 mem_op3
theorem fix_hostOps4 (H : Finals m ρ) (c : Dev nD) : (hostOps4 (F := Ideal)).Forall fun op => op.result (W20 m ρ c) = W20 m ρ c :=
  List.forall_iff_forall_mem.mpr fun op h => settled m ρ H c op (mem_hostOps4 h)
theorem fix_hostOps4_1 (H : Finals m ρ) (c : Dev nD) : (hostOps4_1 (F := Ideal)).Forall fun op => op.result (W20 m ρ c) = W20 m ρ c :=
  List.forall_iff_forall_mem.mpr fun op h => settled m ρ H c op (mem_hostOps4_1 h)
theorem fix_hostOps4_2 (H : Finals m ρ) (c : Dev nD) : (hostOps4_2 (F := Ideal)).Forall fun op => op.result (W20 m ρ c) = W20 m ρ c :=
  List.forall_iff_forall_mem.mpr fun op h => settled m ρ H c op (mem_hostOps4_2 h)
theorem fix_op4 (H : Finals m ρ) (c : Dev nD) : op4.result (W20 m ρ c) = W20 m ρ c := settled m ρ H c op4 mem_op4
theorem fix_hostOps5 (H : Finals m ρ) (c : Dev nD) : (hostOps5 (F := Ideal)).Forall fun op => op.result (W20 m ρ c) = W20 m ρ c :=
  List.forall_iff_forall_mem.mpr fun op h => settled m ρ H c op (mem_hostOps5 h)
theorem fix_op5 (H : Finals m ρ) (c : Dev nD) : op5.result (W20 m ρ c) = W20 m ρ c := settled m ρ H c op5 mem_op5
theorem fix_hostOps6 (H : Finals m ρ) (c : Dev nD) : (hostOps6 (F := Ideal)).Forall fun op => op.result (W20 m ρ c) = W20 m ρ c :=
  List.forall_iff_forall_mem.mpr fun op h => settled m ρ H c op (mem_hostOps6 h)
theorem fix_hostOps6_1 (H : Finals m ρ) (c : Dev nD) : (hostOps6_1 (F := Ideal)).Forall fun op => op.result (W20 m ρ c) = W20 m ρ c :=
  List.forall_iff_forall_mem.mpr fun op h => settled m ρ H c op (mem_hostOps6_1 h)

end Cert.KernelIdeal.Line

end
-- ==== Proof.LibAffine.lean ====
/-
  A matrix product with a bias row, and the clamp at zero, as the host's operations state them — for any extents.

  The dense stages of a network differ only in their extents, so the two index computations are done once, for every
  extent: a one-axis contraction of `X : [n, k]` with `W : [k, h]` read at `(r, q)` is `∑ κ, X (r, κ) * W (κ, q)`
  (the contraction index is identified with its one coordinate and the sum re-indexed along that bijection; the sum is
  not rearranged), and a vector `b : [h]` broadcast first to one row `[1, h]` and then down `n` rows reads `b q` at
  `(r, q)`.  Together: the product plus the twice-broadcast bias is `affine X W (rowOf b)`, and the entrywise maximum
  with the broadcast zero word is `clampZ`.
-/
import Idealize.ShloMosaic.PureOps.Ideal
import Idealize.ShloMosaic.PureOps.Ideal.Laws
import Idealize.ShloMosaic.Lib.ValueIdx
import Idealize.ShloMosaic.Lib.Pipeline.Value
import proofs.«124138_j6536940225142_1_alg».proof.Proof.LibDense

noncomputable section

namespace Cert.Dense

open Idealize.ShloMosaic Idealize.ShloMosaic.ValueIdx

/-- A contraction of the left operand's axis 1 with the right operand's axis 0, read at an index: the sum over the
    common coordinate.  The four hypotheses on `D` say which coordinate of each operand index comes from the result
    index and which from the contraction index. -/
theorem dot_apply {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (l0 : ∀ (i : (⟨2, ![n, h]⟩ : Shape).Idx) (q : D.contr.Idx), (D.lhsIdx i q 0).val = (i 0).val)
    (l1 : ∀ (i : (⟨2, ![n, h]⟩ : Shape).Idx) (q : D.contr.Idx), (D.lhsIdx i q 1).val = (q ⟨0, by omega⟩).val)
    (r0 : ∀ (i : (⟨2, ![n, h]⟩ : Shape).Idx) (q : D.contr.Idx), (D.rhsIdx i q 0).val = (q ⟨0, by omega⟩).val)
    (r1 : ∀ (i : (⟨2, ![n, h]⟩ : Shape).Idx) (q : D.contr.Idx), (D.rhsIdx i q 1).val = (i 1).val)
    (X : FVec Ideal (⟨2, ![n, k]⟩ : Shape) .f32) (W : FVec Ideal (⟨2, ![k, h]⟩ : Shape) .f32)
    (i : (⟨2, ![n, h]⟩ : Shape).Idx) :
    Host.dotGeneral D none X W i = ∑ κ : Fin k, X (ix2 (row i) κ) * W (ix2 κ (col i)) := by
  simp only [Host.dotGeneral]
  rw [Ideal.dotGeneral_apply, ← Equiv.sum_comp (contrEquiv1 D k hr hs).symm]
  refine Finset.sum_congr rfl fun κ _ => ?_
  have hk := contrEquiv1_symm_val D k hr hs κ
  have el : D.lhsIdx i ((contrEquiv1 D k hr hs).symm κ) = ix2 (row i) κ := funext fun a => Fin.ext (by
    match a with
    | ⟨0, _⟩ => exact l0 _ _
    | ⟨1, _⟩ => exact (l1 _ _).trans hk)
  have er : D.rhsIdx i ((contrEquiv1 D k hr hs).symm κ) = ix2 κ (col i) := funext fun a => Fin.ext (by
    match a with
    | ⟨0, _⟩ => exact (r0 _ _).trans hk
    | ⟨1, _⟩ => exact r1 _ _)
  rw [el, er]

/-- A vector broadcast to one row and then down `n` rows, read at `(r, q)`, is its entry `q`. -/
theorem bias_apply {n h : Nat}
    (hb1 : (⟨1, ![h]⟩ : Shape).BroadcastsInDim (⟨2, ![1, h]⟩ : Shape) ![1])
    (hb2 : (⟨2, ![1, h]⟩ : Shape).BroadcastsInDim (⟨2, ![n, h]⟩ : Shape) ![0, 1])
    (b : FVec Ideal (⟨1, ![h]⟩ : Shape) .f32) (i : (⟨2, ![n, h]⟩ : Shape).Idx) :
    broadcastInDim (⟨2, ![n, h]⟩ : Shape) ![0, 1] hb2 (broadcastInDim (⟨2, ![1, h]⟩ : Shape) ![1] hb1 b) i
      = rowOf b (ix2 (0 : Fin 1) (col i)) := by
  have hq : (i 1).val < h := idx2_lt1 i
  refine (broadcastInDim_apply ![0, 1] hb2 _ i (ix2 (0 : Fin 1) (col i)) (fun a => ?_)).trans ?_
  · match a with
    | ⟨0, _⟩ => show (0 : Nat) = if (1 : Nat) = 1 then 0 else (i 0).val; rw [if_pos rfl]
    | ⟨1, _⟩ =>
      show (i 1).val = if h = 1 then 0 else (i 1).val
      split
      · omega
      · rfl
  · refine broadcastInDim_apply ![1] hb1 b (ix2 (0 : Fin 1) (col i)) (ix1 (col (ix2 (0 : Fin 1) (col i)))) (fun a => ?_)
    match a with
    | ⟨0, _⟩ =>
      show (i 1).val = if h = 1 then 0 else (i 1).val
      split
      · omega
      · rfl

/-- The product plus the twice-broadcast bias is `affine` with the bias as a one-row matrix. -/
theorem affine_of_dot {n k h : Nat} (D : DotDims (⟨2, ![n, k]⟩ : Shape) (⟨2, ![k, h]⟩ : Shape) (⟨2, ![n, h]⟩ : Shape))
    (hr : D.contr.rank = 1) (hs : D.contr.size ⟨0, by omega⟩ = k)
    (l0 : ∀ (i : (⟨2, ![n, h]⟩ : Shape).Idx) (q : D.contr.Idx), (D.lhsIdx i q 0).val = (i 0).val)
    (l1 : ∀ (i : (⟨2, ![n, h]⟩ : Shape).Idx) (q : D.contr.Idx), (D.lhsIdx i q 1).val = (q ⟨0, by omega⟩).val)
    (r0 : ∀ (i : (⟨2, ![n, h]⟩ : Shape).Idx) (q : D.contr.Idx), (D.rhsIdx i q 0).val = (q ⟨0, by omega⟩).val)
    (r1 : ∀ (i : (⟨2, ![n, h]⟩ : Shape).Idx) (q : D.contr.Idx), (D.rhsIdx i q 1).val = (i 1).val)
    (hb1 : (⟨1, ![h]⟩ : Shape).BroadcastsInDim (⟨2, ![1, h]⟩ : Shape) ![1])
    (hb2 : (⟨2, ![1, h]⟩ : Shape).BroadcastsInDim (⟨2, ![n, h]⟩ : Shape) ![0, 1])
    (X : FVec Ideal (⟨2, ![n, k]⟩ : Shape) .f32) (W : FVec Ideal (⟨2, ![k, h]⟩ : Shape) .f32)
    (b : FVec Ideal (⟨1, ![h]⟩ : Shape) .f32) :
    addf (Host.dotGeneral D none X W)
        (broadcastInDim (⟨2, ![n, h]⟩ : Shape) ![0, 1] hb2 (broadcastInDim (⟨2, ![1, h]⟩ : Shape) ![1] hb1 b))
      = affine X W (rowOf b) := by
  funext i
  rw [addf_apply, dot_apply D hr hs l0 l1 r0 r1 X W i, bias_apply hb1 hb2 b i, affine_apply]

/-- The entrywise maximum with the zero word's splat, broadcast from a scalar to any matrix shape, is `clampZ`. -/
theorem clampZ_of_max {n h : Nat} (hb : (⟨0, ![]⟩ : Shape).BroadcastsInDim (⟨2, ![n, h]⟩ : Shape) ![])
    (Y : FVec Ideal (⟨2, ![n, h]⟩ : Shape) .f32) :
    maximumf Y (broadcastInDim (⟨2, ![n, h]⟩ : Shape) ![] hb (constant (F := Ideal) (⟨0, ![]⟩ : Shape) .f32 0x00000000#32))
      = clampZ Y := by
  funext i
  rw [maximumf_apply, clampZ_apply,
    broadcastInDim_apply ![] hb (constant (F := Ideal) (⟨0, ![]⟩ : Shape) .f32 0x00000000#32) i ix0 (fun a => a.elim0),
    constant_apply]

end Cert.Dense

end
-- ==== Proof.RefDense.lean ====
/-
  The reference's dense stages as `affine` / `clampZ` of their operands.

  Each dense stage of the reference is a `dot_general` contracting axis 1 of the left operand with axis 0 of the right,
  plus a bias vector broadcast to one row and then down the rows, optionally followed by a maximum with the broadcast
  zero word.  The first five lemmas say so over operand variables, at the four extents that occur; the six stage
  equations unfold the reference's operations down to the stage's operands and rewrite with them.  The gathered and
  scattered operands stay opaque: nothing below looks inside them.
-/
import proofs.«124138_j6536940225142_1_alg».proof.Proof.Gen.ReferenceIdeal.Read
import proofs.«124138_j6536940225142_1_alg».proof.Proof.LibDense
import proofs.«124138_j6536940225142_1_alg».proof.Proof.LibAffine

noncomputable section

namespace Cert.ReferenceIdeal.RefDense

open Cert.ReferenceIdeal Cert.ReferenceIdeal.Gen Cert.Dense Idealize.ShloMosaic Idealize.ShloMosaic.ValueIdx

/-! ## The stages over operand variables -/

/-- The node embedding: `[100000, 128] · [128, 300]` plus a bias of length 300. -/
theorem affine_node (X : FVec Ideal S100000x128 .f32) (W : FVec Ideal S128x300 .f32) (b : FVec Ideal S300 .f32) :
    addf (Host.dotGeneral dot_S100000x128_S128x300_S100000x300_1_0_0_1_n_n none X W)
        (broadcastInDim S100000x300 ![0, 1] bcast_S1x300_S100000x300_0_1 (broadcastInDim S1x300 ![1] bcast_S300_S1x300_1 b))
      = affine X W (rowOf b) :=
  affine_of_dot dot_S100000x128_S128x300_S100000x300_1_0_0_1_n_n rfl rfl
    Read.lhs_main_v0_0 Read.lhs_main_v0_1 Read.rhs_main_v0_0 Read.rhs_main_v0_1
    bcast_S300_S1x300_1 bcast_S1x300_S100000x300_0_1 X W b

/-- The edge embedding: `[300000, 16] · [16, 300]` plus a bias of length 300. -/
theorem affine_edge (X : FVec Ideal S300000x16 .f32) (W : FVec Ideal S16x300 .f32) (b : FVec Ideal S300 .f32) :
    addf (Host.dotGeneral dot_S300000x16_S16x300_S300000x300_1_0_0_1_n_n none X W)
        (broadcastInDim S300000x300 ![0, 1] bcast_S1x300_S300000x300_0_1 (broadcastInDim S1x300 ![1] bcast_S300_S1x300_1 b))
      = affine X W (rowOf b) :=
  affine_of_dot dot_S300000x16_S16x300_S300000x300_1_0_0_1_n_n rfl rfl
    Read.lhs_main_v5_0 Read.lhs_main_v5_1 Read.rhs_main_v5_0 Read.rhs_main_v5_1
    bcast_S300_S1x300_1 bcast_S1x300_S300000x300_0_1 X W b

/-- A hidden layer: `[100000, 300] · [300, 300]` plus a bias of length 300. -/
theorem affine_hid (X : FVec Ideal S100000x300 .f32) (W : FVec Ideal S300x300 .f32) (b : FVec Ideal S300 .f32) :
    addf (Host.dotGeneral dot_S100000x300_S300x300_S100000x300_1_0_0_1_n_n none X W)
        (broadcastInDim S100000x300 ![0, 1] bcast_S1x300_S100000x300_0_1 (broadcastInDim S1x300 ![1] bcast_S300_S1x300_1 b))
      = affine X W (rowOf b) :=
  affine_of_dot dot_S100000x300_S300x300_S100000x300_1_0_0_1_n_n rfl rfl
    Read.lhs_main_v29_0 Read.lhs_main_v29_1 Read.rhs_main_v29_0 Read.rhs_main_v29_1
    bcast_S300_S1x300_1 bcast_S1x300_S100000x300_0_1 X W b

/-- The output layer: `[2000, 300] · [300, 1024]` plus a bias of length 1024. -/
theorem affine_out (X : FVec Ideal S2000x300 .f32) (W : FVec Ideal S300x1024 .f32) (b : FVec Ideal S1024 .f32) :
    addf (Host.dotGeneral dot_S2000x300_S300x1024_S2000x1024_1_0_0_1_n_n none X W)
        (broadcastInDim S2000x1024 ![0, 1] bcast_S1x1024_S2000x1024_0_1 (broadcastInDim S1x1024 ![1] bcast_S1024_S1x1024_1 b))
      = affine X W (rowOf b) :=
  affine_of_dot dot_S2000x300_S300x1024_S2000x1024_1_0_0_1_n_n rfl rfl
    Read.lhs_main_v127_0 Read.lhs_main_v127_1 Read.rhs_main_v127_0 Read.rhs_main_v127_1
    bcast_S1024_S1x1024_1 bcast_S1x1024_S2000x1024_0_1 X W b

/-- The maximum with the broadcast zero word on `[100000, 300]` is `clampZ`. -/
theorem clamp_hid (Y : FVec Ideal S100000x300 .f32) :
    maximumf Y (broadcastInDim S100000x300 ![] bcast_S_S100000x300 (constant (F := Ideal) S_ .f32 0x00000000#32))
      = clampZ Y :=
  clampZ_of_max bcast_S_S100000x300 Y

/-! ## The stage equations -/

/-- The node embedding followed by the clamp. -/
theorem v4_eq (x0 : (⟨S100000x128, .f32⟩ : BufTy).Contents (Elt Ideal)) (x5 : (⟨S128x300, .f32⟩ : BufTy).Contents (Elt Ideal)) (x6 : (⟨S300, .f32⟩ : BufTy).Contents (Elt Ideal)) :
    Read.val_main_v4 (F := Ideal) x0 x5 x6 = clampZ (affine x0 x5 (rowOf x6)) := by
  simp only [Read.val_main_v4, Read.val_main_v3, Read.val_main_v2, Read.val_main_v1, Read.val_main_v0,
    Read.val_main_call0_v0, Read.val_main_call0_cst]
  rw [affine_node, clamp_hid]

/-- The edge embedding. -/
theorem v8_eq (x1 : (⟨S300000x16, .f32⟩ : BufTy).Contents (Elt Ideal)) (x7 : (⟨S16x300, .f32⟩ : BufTy).Contents (Elt Ideal)) (x8 : (⟨S300, .f32⟩ : BufTy).Contents (Elt Ideal)) :
    Read.val_main_v8 (F := Ideal) x1 x7 x8 = affine x1 x7 (rowOf x8) := by
  simp only [Read.val_main_v8, Read.val_main_v7, Read.val_main_v6, Read.val_main_v5]
  rw [affine_edge]

/-- Layer 0's update: two hidden layers, each clamped, on the sum of the node state and the aggregate. -/
theorem v44_eq (x0 : (⟨S100000x128, .f32⟩ : BufTy).Contents (Elt Ideal)) (x1 : (⟨S300000x16, .f32⟩ : BufTy).Contents (Elt Ideal)) (x2 x3 : (⟨S300000, .i32⟩ : BufTy).Contents (Elt Ideal)) (x5 : (⟨S128x300, .f32⟩ : BufTy).Contents (Elt Ideal)) (x6 : (⟨S300, .f32⟩ : BufTy).Contents (Elt Ideal)) (x7 : (⟨S16x300, .f32⟩ : BufTy).Contents (Elt Ideal)) (x8 : (⟨S300, .f32⟩ : BufTy).Contents (Elt Ideal)) (x9 : (⟨S3x300x300, .f32⟩ : BufTy).Contents (Elt Ideal)) (x10 : (⟨S3x300, .f32⟩ : BufTy).Contents (Elt Ideal)) (x11 : (⟨S3x300x300, .f32⟩ : BufTy).Contents (Elt Ideal)) (x12 : (⟨S3x300, .f32⟩ : BufTy).Contents (Elt Ideal)) :
    Read.val_main_v44 (F := Ideal) x0 x1 x2 x3 x5 x6 x7 x8 x9 x10 x11 x12
      = clampZ (affine (clampZ (affine (plus (Read.val_main_v4 x0 x5 x6) (Read.val_main_v25 x0 x1 x2 x3 x5 x6 x7 x8))
          (Read.val_main_v28 x9) (rowOf (Read.val_main_v31 x10)))) (Read.val_main_v37 x11) (rowOf (Read.val_main_v40 x12))) := by
  simp only [Read.val_main_v44, Read.val_main_v43, Read.val_main_v42, Read.val_main_v41, Read.val_main_v38,
    Read.val_main_v35, Read.val_main_v34, Read.val_main_v33, Read.val_main_v32, Read.val_main_v29, Read.val_main_v26,
    Read.val_main_call3_v0, Read.val_main_call3_cst, Read.val_main_call2_v0, Read.val_main_call2_cst]
  rw [affine_hid, clamp_hid, affine_hid, clamp_hid]
  rfl

/-- Layer 1's update. -/
theorem v80_eq (x0 : (⟨S100000x128, .f32⟩ : BufTy).Contents (Elt Ideal)) (x1 : (⟨S300000x16, .f32⟩ : BufTy).Contents (Elt Ideal)) (x2 x3 : (⟨S300000, .i32⟩ : BufTy).Contents (Elt Ideal)) (x5 : (⟨S128x300, .f32⟩ : BufTy).Contents (Elt Ideal)) (x6 : (⟨S300, .f32⟩ : BufTy).Contents (Elt Ideal)) (x7 : (⟨S16x300, .f32⟩ : BufTy).Contents (Elt Ideal)) (x8 : (⟨S300, .f32⟩ : BufTy).Contents (Elt Ideal)) (x9 : (⟨S3x300x300, .f32⟩ : BufTy).Contents (Elt Ideal)) (x10 : (⟨S3x300, .f32⟩ : BufTy).Contents (Elt Ideal)) (x11 : (⟨S3x300x300, .f32⟩ : BufTy).Contents (Elt Ideal)) (x12 : (⟨S3x300, .f32⟩ : BufTy).Contents (Elt Ideal)) :
    Read.val_main_v80 (F := Ideal) x0 x1 x2 x3 x5 x6 x7 x8 x9 x10 x11 x12
      = clampZ (affine (clampZ (affine (plus (Read.val_main_v44 x0 x1 x2 x3 x5 x6 x7 x8 x9 x10 x11 x12) (Read.val_main_v61 x0 x1 x2 x3 x5 x6 x7 x8 x9 x10 x11 x12))
          (Read.val_main_v64 x9) (rowOf (Read.val_main_v67 x10)))) (Read.val_main_v73 x11) (rowOf (Read.val_main_v76 x12))) := by
  simp only [Read.val_main_v80, Read.val_main_v79, Read.val_main_v78, Read.val_main_v77, Read.val_main_v74,
    Read.val_main_v71, Read.val_main_v70, Read.val_main_v69, Read.val_main_v68, Read.val_main_v65, Read.val_main_v62,
    Read.val_main_call6_v0, Read.val_main_call6_cst, Read.val_main_call5_v0, Read.val_main_call5_cst]
  rw [affine_hid, clamp_hid, affine_hid, clamp_hid]
  rfl

/-- Layer 2's update: the second hidden layer is not clamped. -/
theorem v115_eq (x0 : (⟨S100000x128, .f32⟩ : BufTy).Contents (Elt Ideal)) (x1 : (⟨S300000x16, .f32⟩ : BufTy).Contents (Elt Ideal)) (x2 x3 : (⟨S300000, .i32⟩ : BufTy).Contents (Elt Ideal)) (x5 : (⟨S128x300, .f32⟩ : BufTy).Contents (Elt Ideal)) (x6 : (⟨S300, .f32⟩ : BufTy).Contents (Elt Ideal)) (x7 : (⟨S16x300, .f32⟩ : BufTy).Contents (Elt Ideal)) (x8 : (⟨S300, .f32⟩ : BufTy).Contents (Elt Ideal)) (x9 : (⟨S3x300x300, .f32⟩ : BufTy).Contents (Elt Ideal)) (x10 : (⟨S3x300, .f32⟩ : BufTy).Contents (Elt Ideal)) (x11 : (⟨S3x300x300, .f32⟩ : BufTy).Contents (Elt Ideal)) (x12 : (⟨S3x300, .f32⟩ : BufTy).Contents (Elt Ideal)) :
    Read.val_main_v115 (F := Ideal) x0 x1 x2 x3 x5 x6 x7 x8 x9 x10 x11 x12
      = affine (clampZ (affine (plus (Read.val_main_v80 x0 x1 x2 x3 x5 x6 x7 x8 x9 x10 x11 x12) (Read.val_main_v97 x0 x1 x2 x3 x5 x6 x7 x8 x9 x10 x11 x12))
          (Read.val_main_v100 x9) (rowOf (Read.val_main_v103 x10)))) (Read.val_main_v109 x11) (rowOf (Read.val_main_v112 x12)) := by
  simp only [Read.val_main_v115, Read.val_main_v114, Read.val_main_v113, Read.val_main_v110,
    Read.val_main_v107, Read.val_main_v106, Read.val_main_v105, Read.val_main_v104, Read.val_main_v101, Read.val_main_v98,
    Read.val_main_call8_v0, Read.val_main_call8_cst]
  rw [affine_hid, clamp_hid, affine_hid]
  rfl

/-- The output layer on the pooled graph features. -/
theorem v130_eq (x0 : (⟨S100000x128, .f32⟩ : BufTy).Contents (Elt Ideal)) (x1 : (⟨S300000x16, .f32⟩ : BufTy).Contents (Elt Ideal)) (x2 x3 : (⟨S300000, .i32⟩ : BufTy).Contents (Elt Ideal)) (x4 : (⟨S100000, .i32⟩ : BufTy).Contents (Elt Ideal)) (x5 : (⟨S128x300, .f32⟩ : BufTy).Contents (Elt Ideal)) (x6 : (⟨S300, .f32⟩ : BufTy).Contents (Elt Ideal)) (x7 : (⟨S16x300, .f32⟩ : BufTy).Contents (Elt Ideal)) (x8 : (⟨S300, .f32⟩ : BufTy).Contents (Elt Ideal)) (x9 : (⟨S3x300x300, .f32⟩ : BufTy).Contents (Elt Ideal)) (x10 : (⟨S3x300, .f32⟩ : BufTy).Contents (Elt Ideal)) (x11 : (⟨S3x300x300, .f32⟩ : BufTy).Contents (Elt Ideal)) (x12 : (⟨S3x300, .f32⟩ : BufTy).Contents (Elt Ideal)) (x13 : (⟨S300x1024, .f32⟩ : BufTy).Contents (Elt Ideal)) (x14 : (⟨S1024, .f32⟩ : BufTy).Contents (Elt Ideal)) :
    Read.val_main_v130 (F := Ideal) x0 x1 x2 x3 x4 x5 x6 x7 x8 x9 x10 x11 x12 x13 x14
      = affine (Read.val_main_v126 x0 x1 x2 x3 x4 x5 x6 x7 x8 x9 x10 x11 x12) x13 (rowOf x14) := by
  simp only [Read.val_main_v130, Read.val_main_v129, Read.val_main_v128, Read.val_main_v127]
  rw [affine_out]

end Cert.ReferenceIdeal.RefDense

end
-- ==== Proof.LibRowCast.lean ====
/-
  A reshape between a vector of `h` entries and the one-row matrix `[1, h]`, read as `rowOf`.

  A reshape keeps the row-major position of every entry.  Entry `(0, q)` of a one-row matrix `[1, h]` has position
  `0 * h + q = q`, which is the position of entry `q` of a vector of length `h`; the row coordinate of an index
  into `[1, h]` is always `0`.  So laying a vector out as one row is `rowOf` of it, and a one-row matrix flattened
  and laid out again is itself.  Both statements hold for every length `h` and every proof of the reshape's side condition.
-/
import Idealize.ShloMosaic.PureOps.Ideal
import Idealize.ShloMosaic.Lib.ValueIdx
import Idealize.ShloMosaic.Lib.Pipeline.Value
import proofs.«124138_j6536940225142_1_alg».proof.Proof.LibDense

noncomputable section

namespace Cert.Dense

open Idealize.ShloMosaic Idealize.ShloMosaic.ValueIdx

/-- A vector of `h` entries reshaped to the one-row matrix `[1, h]` is `rowOf` of it: the entry at `(0, q)` has
    row-major position `0 * h + q = q`, the position of entry `q` of the vector. -/
theorem shapeCast_eq_rowOf {h : Nat} (b : FVec Ideal (⟨1, ![h]⟩ : Shape) .f32)
    (hc : (⟨1, ![h]⟩ : Shape).ShapeCasts (⟨2, ![1, h]⟩ : Shape)) :
    shapeCast (⟨2, ![1, h]⟩ : Shape) b hc = rowOf b := by
  funext i
  have h0 : (i 0).val = 0 := by have := idx2_lt0 i; omega
  refine shapeCast_apply b hc i (ix1 (col i)) ?_
  rw [Shape.rowMajor_val_two, Shape.rowMajor_val_one, h0]
  show (i 1).val = 0 * h + (i 1).val
  omega

/-- A one-row matrix `[1, h]` flattened to a vector and laid out as one row again is itself: both reshapes keep the
    row-major position, and the only row is row `0`. -/
theorem rowOf_shapeCast {h : Nat} (B : FVec Ideal (⟨2, ![1, h]⟩ : Shape) .f32)
    (hc : (⟨2, ![1, h]⟩ : Shape).ShapeCasts (⟨1, ![h]⟩ : Shape)) :
    rowOf (shapeCast (⟨1, ![h]⟩ : Shape) B hc) = B := by
  funext i
  have h0 : (i 0).val = 0 := by have := idx2_lt0 i; omega
  refine shapeCast_apply B hc (ix1 (col i)) i ?_
  rw [Shape.rowMajor_val_two, Shape.rowMajor_val_one, h0]
  show 0 * h + (i 1).val = (i 1).val
  omega

end Cert.Dense

end
-- ==== Proof.Bridge.lean ====
/-
  The bridge: when the idealized kernel program returns, each stage buffer holds the reference's stage.

  The final contents satisfy every operation's equation (host operations and regions alike). Reading them in program
  order: the node projection region's array is the reference's clamped affine map of the node features; the edge
  projection's is the affine map of the edge features; in each of the three message-passing layers the host's gather,
  sum, clamp and scatter-add are the very operations the reference applies, so the aggregated messages agree once their
  operands do, and the update region's two-layer map of (features + messages) is the reference's two matrix products
  with biases and clamps. (The per-graph mean, the last projection and the closing selection follow in Proof/BridgePool.)
  A bias reaches a region as a one-row matrix by a reshape where the reference broadcasts it along the rows: both read
  the vector's entry at the column. No sum is ever rearranged, so no finiteness is used.
-/
import proofs.«124138_j6536940225142_1_alg».proof.Proof.Line
import proofs.«124138_j6536940225142_1_alg».proof.Proof.RefDense
import proofs.«124138_j6536940225142_1_alg».proof.Proof.LibRowCast

set_option maxRecDepth 16384

noncomputable section

namespace Cert.KernelIdeal.Bridge

open Cert.KernelIdeal Cert.KernelIdeal.Gen Cert.KernelIdeal.Line Cert.Dense
open Idealize.ShloMosaic Idealize.ShloMosaic.TcCoe Idealize.ShloMosaic.StableHlo Idealize.SL.Sem

variable (m : (ℓ : Loc nD τ sig) → Buf (Elt Ideal) ℓ) (ρ : Dev nD → PrngReg) (H : Finals m ρ) (c : Dev nD)
include H

/-! ### The two projections -/

/-- The node bias as a one-row matrix. -/
theorem w_v0 : (W20 m ρ c (Proc.devRef .tc main_v0)) = rowOf (h := 300) (m ((c : Thread nD τ).loc main_arg6)) := by
  have e_v0 := fix_hostOps0 m ρ H c
  simp only [reshape_fix e_v0, W20_main_arg6 m ρ c]
  exact Cert.Dense.shapeCast_eq_rowOf _ _

/-- The projected node features. -/
theorem w_v1 : (W20 m ρ c (Proc.devRef .tc main_v1)) = Cert.ReferenceIdeal.Read.val_main_v4 (m ((c : Thread nD τ).loc main_arg0)) (m ((c : Thread nD τ).loc main_arg5)) (m ((c : Thread nD τ).loc main_arg6)) := by
  have e := ternary_fix (fix_op0 m ρ H c)
  rw [e, Cert.ReferenceIdeal.RefDense.v4_eq, w_v0 m ρ H c, W20_main_arg0 m ρ c, W20_main_arg5 m ρ c]

/-- The edge bias as a one-row matrix. -/
theorem w_v2 : (W20 m ρ c (Proc.devRef .tc main_v2)) = rowOf (h := 300) (m ((c : Thread nD τ).loc main_arg8)) := by
  have e_v2 := fix_hostOps1 m ρ H c
  simp only [reshape_fix e_v2, W20_main_arg8 m ρ c]
  exact Cert.Dense.shapeCast_eq_rowOf _ _

/-- The projected edge features. -/
theorem w_v3 : (W20 m ρ c (Proc.devRef .tc main_v3)) = Cert.ReferenceIdeal.Read.val_main_v8 (m ((c : Thread nD τ).loc main_arg1)) (m ((c : Thread nD τ).loc main_arg7)) (m ((c : Thread nD τ).loc main_arg8)) := by
  have e := ternary_fix (fix_op1 m ρ H c)
  rw [e, Cert.ReferenceIdeal.RefDense.v8_eq, w_v2 m ρ H c, W20_main_arg1 m ρ c, W20_main_arg7 m ρ c]

/-! ### Message-passing layer 1 -/

/-- The aggregated messages: the same gather, sum with the edge features, clamp and scatter-add on both sides, applied to
    values already identified. -/
theorem w_v20 : (W20 m ρ c (Proc.devRef .tc main_v20)) = Cert.ReferenceIdeal.Read.val_main_v25 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  obtain ⟨e_c, e_v4, e_v5, e_c_0, e_v6, e_v7, e_v8, e_v9, e_v10, e_v11⟩ := fix_hostOps2 m ρ H c
  obtain ⟨e_call0_cst, e_call0_v0, e_v12⟩ := fix_hostOps2_1 m ρ H c
  obtain ⟨e_cst, e_v13, e_c_1, e_v14, e_v15, e_c_2, e_v16, e_v17, e_v18, e_v19, e_v20, e_v21, e_v22, e_v23, e_v24, e_v25, e_v26, e_v27, e_v28, e_v29, e_v30⟩ := fix_hostOps2_2 m ρ H c
  simp only [ternary_fix e_v20, unary_fix e_v19, ternary_fix e_v18, binary_fix e_v17, unary_fix e_v16, nullary_fix e_c_2, binary_fix e_v15, unary_fix e_v14, nullary_fix e_c_1, unary_fix e_v13, nullary_fix e_cst, binary_fix e_v12, unary_fix e_call0_v0, nullary_fix e_call0_cst, binary_fix e_v11, binary_fix e_v10, unary_fix e_v9, ternary_fix e_v8, binary_fix e_v7, unary_fix e_v6, nullary_fix e_c_0, binary_fix e_v5, unary_fix e_v4, nullary_fix e_c, w_v1 m ρ H c, w_v3 m ρ H c, W20_main_arg2 m ρ c, W20_main_arg3 m ρ c]
  rfl

/-- The layer's first weight matrix: the same slice and reshape of the stacked weights. -/
theorem w_v22 : (W20 m ρ c (Proc.devRef .tc main_v22)) = Cert.ReferenceIdeal.Read.val_main_v28 (m ((c : Thread nD τ).loc main_arg9)) := by
  obtain ⟨e_cst, e_v13, e_c_1, e_v14, e_v15, e_c_2, e_v16, e_v17, e_v18, e_v19, e_v20, e_v21, e_v22, e_v23, e_v24, e_v25, e_v26, e_v27, e_v28, e_v29, e_v30⟩ := fix_hostOps2_2 m ρ H c
  simp only [reshape_fix e_v22, unary_fix e_v21, W20_main_arg9 m ρ c]
  rfl

/-- The layer's second weight matrix. -/
theorem w_v26 : (W20 m ρ c (Proc.devRef .tc main_v26)) = Cert.ReferenceIdeal.Read.val_main_v37 (m ((c : Thread nD τ).loc main_arg11)) := by
  obtain ⟨e_cst, e_v13, e_c_1, e_v14, e_v15, e_c_2, e_v16, e_v17, e_v18, e_v19, e_v20, e_v21, e_v22, e_v23, e_v24, e_v25, e_v26, e_v27, e_v28, e_v29, e_v30⟩ := fix_hostOps2_2 m ρ H c
  simp only [reshape_fix e_v26, unary_fix e_v25, W20_main_arg11 m ρ c]
  rfl

/-- The layer's first bias as a one-row matrix: the slice flattened to a vector and laid out as a row again. -/
theorem w_v29 : (W20 m ρ c (Proc.devRef .tc main_v29)) = rowOf (h := 300) (Cert.ReferenceIdeal.Read.val_main_v31 (m ((c : Thread nD τ).loc main_arg10))) := by
  obtain ⟨e_cst, e_v13, e_c_1, e_v14, e_v15, e_c_2, e_v16, e_v17, e_v18, e_v19, e_v20, e_v21, e_v22, e_v23, e_v24, e_v25, e_v26, e_v27, e_v28, e_v29, e_v30⟩ := fix_hostOps2_2 m ρ H c
  simp only [reshape_fix e_v29, reshape_fix e_v24, unary_fix e_v23, W20_main_arg10 m ρ c]
  exact Cert.Dense.shapeCast_eq_rowOf _ _

/-- The layer's second bias as a one-row matrix. -/
theorem w_v30 : (W20 m ρ c (Proc.devRef .tc main_v30)) = rowOf (h := 300) (Cert.ReferenceIdeal.Read.val_main_v40 (m ((c : Thread nD τ).loc main_arg12))) := by
  obtain ⟨e_cst, e_v13, e_c_1, e_v14, e_v15, e_c_2, e_v16, e_v17, e_v18, e_v19, e_v20, e_v21, e_v22, e_v23, e_v24, e_v25, e_v26, e_v27, e_v28, e_v29, e_v30⟩ := fix_hostOps2_2 m ρ H c
  simp only [reshape_fix e_v30, reshape_fix e_v28, unary_fix e_v27, W20_main_arg12 m ρ c]
  exact Cert.Dense.shapeCast_eq_rowOf _ _

/-- The layer's output: the update region's two-layer map of values already identified is the reference's stage. -/
theorem w_v31 : (W20 m ρ c (Proc.devRef .tc main_v31)) = Cert.ReferenceIdeal.Read.val_main_v44 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e := nary_fix (fix_op2 m ρ H c)
  rw [e, Cert.ReferenceIdeal.RefDense.v44_eq]
  show clampZ (affine (n := 100000) (k := 300) (h := 300) (clampZ (affine (n := 100000) (k := 300) (h := 300) (plus (W20 m ρ c (Proc.devRef .tc main_v1)) (W20 m ρ c (Proc.devRef .tc main_v20))) (W20 m ρ c (Proc.devRef .tc main_v22)) (W20 m ρ c (Proc.devRef .tc main_v29)))) (W20 m ρ c (Proc.devRef .tc main_v26)) (W20 m ρ c (Proc.devRef .tc main_v30))) = _
  rw [w_v1 m ρ H c, w_v20 m ρ H c, w_v22 m ρ H c, w_v29 m ρ H c, w_v26 m ρ H c, w_v30 m ρ H c]

/-! ### Message-passing layer 2 -/

/-- The aggregated messages: the same gather, sum with the edge features, clamp and scatter-add on both sides, applied to
    values already identified. -/
theorem w_v48 : (W20 m ρ c (Proc.devRef .tc main_v48)) = Cert.ReferenceIdeal.Read.val_main_v61 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨e_c_3, e_v32, e_v33, e_c_4, e_v34, e_v35, e_v36, e_v37, e_v38, e_v39⟩ := fix_hostOps3 m ρ H c
  obtain ⟨e_call1_cst, e_call1_v0, e_v40⟩ := fix_hostOps3_1 m ρ H c
  obtain ⟨e_cst_5, e_v41, e_c_6, e_v42, e_v43, e_c_7, e_v44, e_v45, e_v46, e_v47, e_v48, e_v49, e_v50, e_v51, e_v52, e_v53, e_v54, e_v55, e_v56, e_v57, e_v58⟩ := fix_hostOps3_2 m ρ H c
  simp only [ternary_fix e_v48, unary_fix e_v47, ternary_fix e_v46, binary_fix e_v45, unary_fix e_v44, nullary_fix e_c_7, binary_fix e_v43, unary_fix e_v42, nullary_fix e_c_6, unary_fix e_v41, nullary_fix e_cst_5, binary_fix e_v40, unary_fix e_call1_v0, nullary_fix e_call1_cst, binary_fix e_v39, binary_fix e_v38, unary_fix e_v37, ternary_fix e_v36, binary_fix e_v35, unary_fix e_v34, nullary_fix e_c_4, binary_fix e_v33, unary_fix e_v32, nullary_fix e_c_3, w_v31 m ρ H c, w_v3 m ρ H c, W20_main_arg2 m ρ c, W20_main_arg3 m ρ c]
  rfl

/-- The layer's first weight matrix: the same slice and reshape of the stacked weights. -/
theorem w_v50 : (W20 m ρ c (Proc.devRef .tc main_v50)) = Cert.ReferenceIdeal.Read.val_main_v64 (m ((c : Thread nD τ).loc main_arg9)) := by
  obtain ⟨e_cst_5, e_v41, e_c_6, e_v42, e_v43, e_c_7, e_v44, e_v45, e_v46, e_v47, e_v48, e_v49, e_v50, e_v51, e_v52, e_v53, e_v54, e_v55, e_v56, e_v57, e_v58⟩ := fix_hostOps3_2 m ρ H c
  simp only [reshape_fix e_v50, unary_fix e_v49, W20_main_arg9 m ρ c]
  rfl

/-- The layer's second weight matrix. -/
theorem w_v54 : (W20 m ρ c (Proc.devRef .tc main_v54)) = Cert.ReferenceIdeal.Read.val_main_v73 (m ((c : Thread nD τ).loc main_arg11)) := by
  obtain ⟨e_cst_5, e_v41, e_c_6, e_v42, e_v43, e_c_7, e_v44, e_v45, e_v46, e_v47, e_v48, e_v49, e_v50, e_v51, e_v52, e_v53, e_v54, e_v55, e_v56, e_v57, e_v58⟩ := fix_hostOps3_2 m ρ H c
  simp only [reshape_fix e_v54, unary_fix e_v53, W20_main_arg11 m ρ c]
  rfl

/-- The layer's first bias as a one-row matrix: the slice flattened to a vector and laid out as a row again. -/
theorem w_v57 : (W20 m ρ c (Proc.devRef .tc main_v57)) = rowOf (h := 300) (Cert.ReferenceIdeal.Read.val_main_v67 (m ((c : Thread nD τ).loc main_arg10))) := by
  obtain ⟨e_cst_5, e_v41, e_c_6, e_v42, e_v43, e_c_7, e_v44, e_v45, e_v46, e_v47, e_v48, e_v49, e_v50, e_v51, e_v52, e_v53, e_v54, e_v55, e_v56, e_v57, e_v58⟩ := fix_hostOps3_2 m ρ H c
  simp only [reshape_fix e_v57, reshape_fix e_v52, unary_fix e_v51, W20_main_arg10 m ρ c]
  exact Cert.Dense.shapeCast_eq_rowOf _ _

/-- The layer's second bias as a one-row matrix. -/
theorem w_v58 : (W20 m ρ c (Proc.devRef .tc main_v58)) = rowOf (h := 300) (Cert.ReferenceIdeal.Read.val_main_v76 (m ((c : Thread nD τ).loc main_arg12))) := by
  obtain ⟨e_cst_5, e_v41, e_c_6, e_v42, e_v43, e_c_7, e_v44, e_v45, e_v46, e_v47, e_v48, e_v49, e_v50, e_v51, e_v52, e_v53, e_v54, e_v55, e_v56, e_v57, e_v58⟩ := fix_hostOps3_2 m ρ H c
  simp only [reshape_fix e_v58, reshape_fix e_v56, unary_fix e_v55, W20_main_arg12 m ρ c]
  exact Cert.Dense.shapeCast_eq_rowOf _ _

/-- The layer's output: the update region's two-layer map of values already identified is the reference's stage. -/
theorem w_v59 : (W20 m ρ c (Proc.devRef .tc main_v59)) = Cert.ReferenceIdeal.Read.val_main_v80 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e := nary_fix (fix_op3 m ρ H c)
  rw [e, Cert.ReferenceIdeal.RefDense.v80_eq]
  show clampZ (affine (n := 100000) (k := 300) (h := 300) (clampZ (affine (n := 100000) (k := 300) (h := 300) (plus (W20 m ρ c (Proc.devRef .tc main_v31)) (W20 m ρ c (Proc.devRef .tc main_v48))) (W20 m ρ c (Proc.devRef .tc main_v50)) (W20 m ρ c (Proc.devRef .tc main_v57)))) (W20 m ρ c (Proc.devRef .tc main_v54)) (W20 m ρ c (Proc.devRef .tc main_v58))) = _
  rw [w_v31 m ρ H c, w_v48 m ρ H c, w_v50 m ρ H c, w_v57 m ρ H c, w_v54 m ρ H c, w_v58 m ρ H c]

/-! ### Message-passing layer 3 -/

/-- The aggregated messages: the same gather, sum with the edge features, clamp and scatter-add on both sides, applied to
    values already identified. -/
theorem w_v76 : (W20 m ρ c (Proc.devRef .tc main_v76)) = Cert.ReferenceIdeal.Read.val_main_v97 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨e_c_8, e_v60, e_v61, e_c_9, e_v62, e_v63, e_v64, e_v65, e_v66, e_v67⟩ := fix_hostOps4 m ρ H c
  obtain ⟨e_call2_cst, e_call2_v0, e_v68⟩ := fix_hostOps4_1 m ρ H c
  obtain ⟨e_cst_10, e_v69, e_c_11, e_v70, e_v71, e_c_12, e_v72, e_v73, e_v74, e_v75, e_v76, e_v77, e_v78, e_v79, e_v80, e_v81, e_v82, e_v83, e_v84, e_v85, e_v86⟩ := fix_hostOps4_2 m ρ H c
  simp only [ternary_fix e_v76, unary_fix e_v75, ternary_fix e_v74, binary_fix e_v73, unary_fix e_v72, nullary_fix e_c_12, binary_fix e_v71, unary_fix e_v70, nullary_fix e_c_11, unary_fix e_v69, nullary_fix e_cst_10, binary_fix e_v68, unary_fix e_call2_v0, nullary_fix e_call2_cst, binary_fix e_v67, binary_fix e_v66, unary_fix e_v65, ternary_fix e_v64, binary_fix e_v63, unary_fix e_v62, nullary_fix e_c_9, binary_fix e_v61, unary_fix e_v60, nullary_fix e_c_8, w_v59 m ρ H c, w_v3 m ρ H c, W20_main_arg2 m ρ c, W20_main_arg3 m ρ c]
  rfl

/-- The layer's first weight matrix: the same slice and reshape of the stacked weights. -/
theorem w_v78 : (W20 m ρ c (Proc.devRef .tc main_v78)) = Cert.ReferenceIdeal.Read.val_main_v100 (m ((c : Thread nD τ).loc main_arg9)) := by
  obtain ⟨e_cst_10, e_v69, e_c_11, e_v70, e_v71, e_c_12, e_v72, e_v73, e_v74, e_v75, e_v76, e_v77, e_v78, e_v79, e_v80, e_v81, e_v82, e_v83, e_v84, e_v85, e_v86⟩ := fix_hostOps4_2 m ρ H c
  simp only [reshape_fix e_v78, unary_fix e_v77, W20_main_arg9 m ρ c]
  rfl

/-- The layer's second weight matrix. -/
theorem w_v82 : (W20 m ρ c (Proc.devRef .tc main_v82)) = Cert.ReferenceIdeal.Read.val_main_v109 (m ((c : Thread nD τ).loc main_arg11)) := by
  obtain ⟨e_cst_10, e_v69, e_c_11, e_v70, e_v71, e_c_12, e_v72, e_v73, e_v74, e_v75, e_v76, e_v77, e_v78, e_v79, e_v80, e_v81, e_v82, e_v83, e_v84, e_v85, e_v86⟩ := fix_hostOps4_2 m ρ H c
  simp only [reshape_fix e_v82, unary_fix e_v81, W20_main_arg11 m ρ c]
  rfl

/-- The layer's first bias as a one-row matrix: the slice flattened to a vector and laid out as a row again. -/
theorem w_v85 : (W20 m ρ c (Proc.devRef .tc main_v85)) = rowOf (h := 300) (Cert.ReferenceIdeal.Read.val_main_v103 (m ((c : Thread nD τ).loc main_arg10))) := by
  obtain ⟨e_cst_10, e_v69, e_c_11, e_v70, e_v71, e_c_12, e_v72, e_v73, e_v74, e_v75, e_v76, e_v77, e_v78, e_v79, e_v80, e_v81, e_v82, e_v83, e_v84, e_v85, e_v86⟩ := fix_hostOps4_2 m ρ H c
  simp only [reshape_fix e_v85, reshape_fix e_v80, unary_fix e_v79, W20_main_arg10 m ρ c]
  exact Cert.Dense.shapeCast_eq_rowOf _ _

/-- The layer's second bias as a one-row matrix. -/
theorem w_v86 : (W20 m ρ c (Proc.devRef .tc main_v86)) = rowOf (h := 300) (Cert.ReferenceIdeal.Read.val_main_v112 (m ((c : Thread nD τ).loc main_arg12))) := by
  obtain ⟨e_cst_10, e_v69, e_c_11, e_v70, e_v71, e_c_12, e_v72, e_v73, e_v74, e_v75, e_v76, e_v77, e_v78, e_v79, e_v80, e_v81, e_v82, e_v83, e_v84, e_v85, e_v86⟩ := fix_hostOps4_2 m ρ H c
  simp only [reshape_fix e_v86, reshape_fix e_v84, unary_fix e_v83, W20_main_arg12 m ρ c]
  exact Cert.Dense.shapeCast_eq_rowOf _ _

/-- The layer's output: the update region's two-layer map of values already identified is the reference's stage. -/
theorem w_v87 : (W20 m ρ c (Proc.devRef .tc main_v87)) = Cert.ReferenceIdeal.Read.val_main_v115 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  have e := nary_fix (fix_op4 m ρ H c)
  rw [e, Cert.ReferenceIdeal.RefDense.v115_eq]
  show affine (n := 100000) (k := 300) (h := 300) (clampZ (affine (n := 100000) (k := 300) (h := 300) (plus (W20 m ρ c (Proc.devRef .tc main_v59)) (W20 m ρ c (Proc.devRef .tc main_v76))) (W20 m ρ c (Proc.devRef .tc main_v78)) (W20 m ρ c (Proc.devRef .tc main_v85)))) (W20 m ρ c (Proc.devRef .tc main_v82)) (W20 m ρ c (Proc.devRef .tc main_v86)) = _
  rw [w_v59 m ρ H c, w_v76 m ρ H c, w_v78 m ρ H c, w_v85 m ρ H c, w_v82 m ρ H c, w_v86 m ρ H c]

end Cert.KernelIdeal.Bridge

end
-- ==== Proof.BridgePool.lean ====
/-
  The end of the bridge: from the third message-passing layer's output to the returned array.

  Given that the third update region's array holds the reference's third-layer stage, the per-graph sums, the counts
  clamped below by one and the quotient are the very host operations the reference applies, so the means agree; the last
  bias reaches its region as a one-row matrix by a reshape where the reference broadcasts it; the last projection
  region's array is the affine map of the means, the reference's stage; and the closing comparison with zero, product
  with the slope and selection are again the reference's operations.
-/
import proofs.«124138_j6536940225142_1_alg».proof.Proof.Line
import proofs.«124138_j6536940225142_1_alg».proof.Proof.RefDense
import proofs.«124138_j6536940225142_1_alg».proof.Proof.LibRowCast

set_option maxRecDepth 16384

noncomputable section

namespace Cert.KernelIdeal.BridgePool

open Cert.KernelIdeal Cert.KernelIdeal.Gen Cert.KernelIdeal.Line Cert.Dense
open Idealize.ShloMosaic Idealize.ShloMosaic.TcCoe Idealize.ShloMosaic.StableHlo Idealize.SL.Sem

/-! ### The same equations for any contents fixed by the operations

Stated for an arbitrary assignment `W` of contents to buffers that every operation of the stretch leaves unchanged:
each result buffer then holds its operation's function of the operands' contents in `W`, and chaining these equations
from the stretch's inputs gives the reference's stages, which are the same host operations. -/

section AnyContents

variable (W : Valuation τ sig (Elt Ideal))

/-- The per-graph means: the same scatter-adds, count clamp and quotient on both sides. -/
theorem pool_v98 (hfix : (hostOps5 (F := Ideal)).Forall fun op => op.result W = W)
    (x0 : (⟨Cert.ReferenceIdeal.S100000x128, .f32⟩ : BufTy).Contents (Elt Ideal)) (x1 : (⟨Cert.ReferenceIdeal.S300000x16, .f32⟩ : BufTy).Contents (Elt Ideal)) (x2 x3 : (⟨Cert.ReferenceIdeal.S300000, .i32⟩ : BufTy).Contents (Elt Ideal)) (x5 : (⟨Cert.ReferenceIdeal.S128x300, .f32⟩ : BufTy).Contents (Elt Ideal)) (x6 : (⟨Cert.ReferenceIdeal.S300, .f32⟩ : BufTy).Contents (Elt Ideal)) (x7 : (⟨Cert.ReferenceIdeal.S16x300, .f32⟩ : BufTy).Contents (Elt Ideal)) (x8 : (⟨Cert.ReferenceIdeal.S300, .f32⟩ : BufTy).Contents (Elt Ideal)) (x9 : (⟨Cert.ReferenceIdeal.S3x300x300, .f32⟩ : BufTy).Contents (Elt Ideal)) (x10 : (⟨Cert.ReferenceIdeal.S3x300, .f32⟩ : BufTy).Contents (Elt Ideal)) (x11 : (⟨Cert.ReferenceIdeal.S3x300x300, .f32⟩ : BufTy).Contents (Elt Ideal)) (x12 : (⟨Cert.ReferenceIdeal.S3x300, .f32⟩ : BufTy).Contents (Elt Ideal)) (x4 : (⟨Cert.ReferenceIdeal.S100000, .i32⟩ : BufTy).Contents (Elt Ideal))
    (h87 : W (Proc.devRef .tc main_v87) = Cert.ReferenceIdeal.Read.val_main_v115 x0 x1 x2 x3 x5 x6 x7 x8 x9 x10 x11 x12)
    (a4 : W (Proc.devRef .tc main_arg4) = x4) :
    W (Proc.devRef .tc main_v98) = Cert.ReferenceIdeal.Read.val_main_v126 x0 x1 x2 x3 x4 x5 x6 x7 x8 x9 x10 x11 x12 := by
  obtain ⟨e_cst_13, e_v88, e_v89, e_v90, e_cst_14, e_v91, e_cst_15, e_v92, e_v93, e_v94, e_cst_16, e_v95, e_v96, e_v97, e_v98, e_v99⟩ := hfix
  rw [binary_fix e_v98, unary_fix e_v97, binary_fix e_v96, unary_fix e_v95, nullary_fix e_cst_16, ternary_fix e_v94,
    unary_fix e_v93, unary_fix e_v92, nullary_fix e_cst_15, unary_fix e_v91, nullary_fix e_cst_14, ternary_fix e_v90,
    unary_fix e_v89, unary_fix e_v88, nullary_fix e_cst_13, h87, a4]
  rfl

/-- The last bias as a one-row matrix: the reshape of a vector to one row is `rowOf`. -/
theorem pool_v99 (hfix : (hostOps5 (F := Ideal)).Forall fun op => op.result W = W)
    (x14 : (⟨Cert.ReferenceIdeal.S1024, .f32⟩ : BufTy).Contents (Elt Ideal)) (a14 : W (Proc.devRef .tc main_arg14) = x14) :
    W (Proc.devRef .tc main_v99) = rowOf (h := 1024) x14 := by
  obtain ⟨e_cst_13, e_v88, e_v89, e_v90, e_cst_14, e_v91, e_cst_15, e_v92, e_v93, e_v94, e_cst_16, e_v95, e_v96, e_v97, e_v98, e_v99⟩ := hfix
  rw [reshape_fix e_v99, a14]
  exact Cert.Dense.shapeCast_eq_rowOf (h := 1024) x14 shapeCasts_S1024_S1x1024

/-- The projected means: the last projection region's array is the affine map of the means, the reference's stage. -/
theorem pool_v100 (h5 : op5.result W = W)
    (x0 : (⟨Cert.ReferenceIdeal.S100000x128, .f32⟩ : BufTy).Contents (Elt Ideal)) (x1 : (⟨Cert.ReferenceIdeal.S300000x16, .f32⟩ : BufTy).Contents (Elt Ideal)) (x2 x3 : (⟨Cert.ReferenceIdeal.S300000, .i32⟩ : BufTy).Contents (Elt Ideal)) (x5 : (⟨Cert.ReferenceIdeal.S128x300, .f32⟩ : BufTy).Contents (Elt Ideal)) (x6 : (⟨Cert.ReferenceIdeal.S300, .f32⟩ : BufTy).Contents (Elt Ideal)) (x7 : (⟨Cert.ReferenceIdeal.S16x300, .f32⟩ : BufTy).Contents (Elt Ideal)) (x8 : (⟨Cert.ReferenceIdeal.S300, .f32⟩ : BufTy).Contents (Elt Ideal)) (x9 : (⟨Cert.ReferenceIdeal.S3x300x300, .f32⟩ : BufTy).Contents (Elt Ideal)) (x10 : (⟨Cert.ReferenceIdeal.S3x300, .f32⟩ : BufTy).Contents (Elt Ideal)) (x11 : (⟨Cert.ReferenceIdeal.S3x300x300, .f32⟩ : BufTy).Contents (Elt Ideal)) (x12 : (⟨Cert.ReferenceIdeal.S3x300, .f32⟩ : BufTy).Contents (Elt Ideal)) (x4 : (⟨Cert.ReferenceIdeal.S100000, .i32⟩ : BufTy).Contents (Elt Ideal)) (x13 : (⟨Cert.ReferenceIdeal.S300x1024, .f32⟩ : BufTy).Contents (Elt Ideal)) (x14 : (⟨Cert.ReferenceIdeal.S1024, .f32⟩ : BufTy).Contents (Elt Ideal))
    (h98 : W (Proc.devRef .tc main_v98) = Cert.ReferenceIdeal.Read.val_main_v126 x0 x1 x2 x3 x4 x5 x6 x7 x8 x9 x10 x11 x12)
    (h99 : W (Proc.devRef .tc main_v99) = rowOf (h := 1024) x14)
    (a13 : W (Proc.devRef .tc main_arg13) = x13) :
    W (Proc.devRef .tc main_v100) = Cert.ReferenceIdeal.Read.val_main_v130 x0 x1 x2 x3 x4 x5 x6 x7 x8 x9 x10 x11 x12 x13 x14 := by
  have e := ternary_fix h5
  rw [e, Cert.ReferenceIdeal.RefDense.v130_eq, h98, h99, a13]

/-- The comparison with zero, the product with the slope and the selection are the reference's operations.  The
    selection is stated over typed buffers, its operands and result carried along equations between a buffer's type and
    the value's type; a value carried along such an equation is heterogeneously equal to itself, so the carried
    selection is the selection. -/
theorem pool_v105 (hfix : (hostOps6 (F := Ideal)).Forall fun op => op.result W = W)
    (hfix1 : (hostOps6_1 (F := Ideal)).Forall fun op => op.result W = W)
    (x0 : (⟨Cert.ReferenceIdeal.S100000x128, .f32⟩ : BufTy).Contents (Elt Ideal)) (x1 : (⟨Cert.ReferenceIdeal.S300000x16, .f32⟩ : BufTy).Contents (Elt Ideal)) (x2 x3 : (⟨Cert.ReferenceIdeal.S300000, .i32⟩ : BufTy).Contents (Elt Ideal)) (x5 : (⟨Cert.ReferenceIdeal.S128x300, .f32⟩ : BufTy).Contents (Elt Ideal)) (x6 : (⟨Cert.ReferenceIdeal.S300, .f32⟩ : BufTy).Contents (Elt Ideal)) (x7 : (⟨Cert.ReferenceIdeal.S16x300, .f32⟩ : BufTy).Contents (Elt Ideal)) (x8 : (⟨Cert.ReferenceIdeal.S300, .f32⟩ : BufTy).Contents (Elt Ideal)) (x9 : (⟨Cert.ReferenceIdeal.S3x300x300, .f32⟩ : BufTy).Contents (Elt Ideal)) (x10 : (⟨Cert.ReferenceIdeal.S3x300, .f32⟩ : BufTy).Contents (Elt Ideal)) (x11 : (⟨Cert.ReferenceIdeal.S3x300x300, .f32⟩ : BufTy).Contents (Elt Ideal)) (x12 : (⟨Cert.ReferenceIdeal.S3x300, .f32⟩ : BufTy).Contents (Elt Ideal)) (x4 : (⟨Cert.ReferenceIdeal.S100000, .i32⟩ : BufTy).Contents (Elt Ideal)) (x13 : (⟨Cert.ReferenceIdeal.S300x1024, .f32⟩ : BufTy).Contents (Elt Ideal)) (x14 : (⟨Cert.ReferenceIdeal.S1024, .f32⟩ : BufTy).Contents (Elt Ideal)) (x15 : (⟨Cert.ReferenceIdeal.S_, .f32⟩ : BufTy).Contents (Elt Ideal))
    (h100 : W (Proc.devRef .tc main_v100) = Cert.ReferenceIdeal.Read.val_main_v130 x0 x1 x2 x3 x4 x5 x6 x7 x8 x9 x10 x11 x12 x13 x14)
    (a15 : W (Proc.devRef .tc main_arg15) = x15) :
    W (Proc.devRef .tc main_v105) = Cert.ReferenceIdeal.Read.val_main_v135 x0 x1 x2 x3 x4 x5 x6 x7 x8 x9 x10 x11 x12 x13 x14 x15 := by
  obtain ⟨e_cst_17, e_v101, e_v102, e_v103, e_v104⟩ := hfix
  have e_v105 := hfix1
  have s102 : W (Proc.devRef .tc main_v102) = Cert.ReferenceIdeal.Read.val_main_v132 x0 x1 x2 x3 x4 x5 x6 x7 x8 x9 x10 x11 x12 x13 x14 := by
    rw [binary_fix e_v102, unary_fix e_v101, nullary_fix e_cst_17, h100]
    rfl
  have s104 : W (Proc.devRef .tc main_v104) = Cert.ReferenceIdeal.Read.val_main_v134 x0 x1 x2 x3 x4 x5 x6 x7 x8 x9 x10 x11 x12 x13 x14 x15 := by
    rw [binary_fix e_v104, unary_fix e_v103, h100, a15]
    rfl
  rw [ternary_fix e_v105, s102, s104, h100]
  refine eq_of_heq ((cast_heq _ _).trans (heq_of_eq ?_))
  rw [Cert.ReferenceIdeal.Read.val_main_v135]
  refine congr (congr (congrArg select ?_) ?_) ?_
  · exact eq_of_heq (cast_heq _ _)
  · exact eq_of_heq (cast_heq _ _)
  · exact eq_of_heq (cast_heq _ _)

end AnyContents

/-! ### At the contents when @main returns -/

variable (m : (ℓ : Loc nD τ sig) → Buf (Elt Ideal) ℓ) (ρ : Dev nD → PrngReg) (H : Finals m ρ) (c : Dev nD)
variable (h87 : W20 m ρ c (Proc.devRef .tc main_v87) = Cert.ReferenceIdeal.Read.val_main_v115 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))

include H

include h87 in
/-- The per-graph means: the same scatter-adds, count clamp and quotient on both sides. -/
theorem w_v98 : W20 m ρ c (Proc.devRef .tc main_v98) = Cert.ReferenceIdeal.Read.val_main_v126 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  pool_v98 (W20 m ρ c) (fix_hostOps5 m ρ H c) _ _ _ _ _ _ _ _ _ _ _ _ _ h87 (W20_main_arg4 m ρ c)

/-- The last bias as a one-row matrix. -/
theorem w_v99 : W20 m ρ c (Proc.devRef .tc main_v99) = rowOf (h := 1024) (m ((c : Thread nD τ).loc main_arg14)) :=
  pool_v99 (W20 m ρ c) (fix_hostOps5 m ρ H c) _ (W20_main_arg14 m ρ c)

include h87 in
/-- The projected means. -/
theorem w_v100 : W20 m ρ c (Proc.devRef .tc main_v100) = Cert.ReferenceIdeal.Read.val_main_v130 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  pool_v100 (W20 m ρ c) (fix_op5 m ρ H c) _ _ _ _ _ _ _ _ _ _ _ _ _ _ _ (w_v98 m ρ H c h87) (w_v99 m ρ H c) (W20_main_arg13 m ρ c)

include h87 in
/-- THE RESULT: the selection between the projected means and their products with the slope is the reference's. -/
theorem w_v105 : W20 m ρ c (Proc.devRef .tc main_v105) = Cert.ReferenceIdeal.Read.val_main_v135 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) :=
  pool_v105 (W20 m ρ c) (fix_hostOps6 m ρ H c) (fix_hostOps6_1 m ρ H c) _ _ _ _ _ _ _ _ _ _ _ _ _ _ _ _ (w_v100 m ρ H c h87) (W20_main_arg15 m ρ c)

end Cert.KernelIdeal.BridgePool

end
-- ==== Proof.LibMatmulRows.lean ====
/-
  A matrix product into a zero accumulator and a one-row bias laid over every row, read entry by entry on the
  extended reals, for any extents.

  For a product of `L : [r, k]` with `R : [k, h]` whose dimension numbers contract the second axis of `L` against
  the first of `R` — said here by four facts on the operand indices: at result entry `j` and contraction position
  `κ` the left operand is read at (row of `j`, `κ`) and the right at (`κ`, column of `j`) — the entry `(p, q)` of the
  product accumulated onto the zero word's value is `∑ κ, L (p, κ) * R (κ, q)`: the zero word's value is the
  real zero, and the sum over the one-axis contraction index set is re-indexed by its one coordinate.
  A one-row matrix `b : [1, h]`, cast to its own shape and broadcast over `r` rows, reads `b (0, q)` at `(p, q)`.
  The sums are never rearranged, so nothing here needs finiteness.
-/
import Idealize.ShloMosaic.PureOps.Ideal.Laws
import Idealize.ShloMosaic.Lib.ValueIdx
import Idealize.ShloMosaic.Lib.ValueLayout
import Idealize.ShloMosaic.Lib.Pipeline.Value

noncomputable section

namespace Cert.MatmulRows

open Idealize.ShloMosaic Idealize.ShloMosaic.ValueIdx

/-- Entry `(p, q)` of `L · R` accumulated onto zero is the sum over the contraction coordinate of
    `L (p, κ) * R (κ, q)`. -/
theorem matmul_zero_apply {r k h : Nat} {φ₁ φ₂ : FTy}
    (D : DotDims (⟨2, ![r, k]⟩ : Shape) (⟨2, ![k, h]⟩ : Shape) (⟨2, ![r, h]⟩ : Shape)) (prec : Option ContractPrecision)
    (hrank : D.contr.rank = 1) (hsize : D.contr.size ⟨0, by omega⟩ = k)
    (hl0 : ∀ (j : (⟨2, ![r, h]⟩ : Shape).Idx) (κ : D.contr.Idx), (D.lhsIdx j κ 0).val = (j 0).val)
    (hl1 : ∀ (j : (⟨2, ![r, h]⟩ : Shape).Idx) (κ : D.contr.Idx), (D.lhsIdx j κ 1).val = (κ ⟨0, by omega⟩).val)
    (hr0 : ∀ (j : (⟨2, ![r, h]⟩ : Shape).Idx) (κ : D.contr.Idx), (D.rhsIdx j κ 0).val = (κ ⟨0, by omega⟩).val)
    (hr1 : ∀ (j : (⟨2, ![r, h]⟩ : Shape).Idx) (κ : D.contr.Idx), (D.rhsIdx j κ 1).val = (j 1).val)
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  rw [Ideal.matmul_constant_zero_apply, ← Equiv.sum_comp (contrEquiv1 D k hrank hsize).symm]
  refine Finset.sum_congr rfl fun κ _ => ?_
  have hκ := contrEquiv1_symm_val D k hrank hsize κ
  have el : D.lhsIdx (ix2 p q) ((contrEquiv1 D k hrank hsize).symm κ) = ix2 p κ := funext fun a => Fin.ext (by
    match a with
    | ⟨0, _⟩ => exact hl0 _ _
    | ⟨1, _⟩ => exact (hl1 _ _).trans hκ)
  have er : D.rhsIdx (ix2 p q) ((contrEquiv1 D k hrank hsize).symm κ) = ix2 κ q := funext fun a => Fin.ext (by
    match a with
    | ⟨0, _⟩ => exact (hr0 _ _).trans hκ
    | ⟨1, _⟩ => exact hr1 _ _)
  rw [el, er]

/-- The same for dimension numbers given as lists: the second axis of `L` contracted against the first of `R`, the
    other two axes kept in order, no batch axis. The four facts on the operand indices are read off the lists. -/
theorem matmul_plain_apply {r k h : Nat} {φ₁ φ₂ : FTy}
    (D : DotDims (⟨2, ![r, k]⟩ : Shape) (⟨2, ![k, h]⟩ : Shape) (⟨2, ![r, h]⟩ : Shape)) (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (L : FVec Ideal ⟨2, ![r, k]⟩ φ₁) (R : FVec Ideal ⟨2, ![k, h]⟩ φ₂) (p : Fin r) (q : Fin h) :
    FloatOps.matmul D prec L R (constant (F := Ideal) ⟨2, ![r, h]⟩ .f32 0x00000000#32) (ix2 p q)
      = ∑ κ : Fin k, L (ix2 p κ) * R (ix2 κ q) := by
  obtain ⟨lc, rc, ln, rn, lb, rb, wf⟩ := D
  dsimp only at hlc hrc hln hrn hlb hrb
  subst hlc hrc hln hrn hlb hrb
  refine matmul_zero_apply _ prec rfl rfl (fun j κ => ?_) (fun j κ => DotDims.lhsIdx_val_of_single _ rfl j κ)
    (fun j κ => DotDims.rhsIdx_val_of_single _ rfl j κ) (fun j κ => ?_) L R p q
  · unfold DotDims.lhsIdx
    rw [dif_neg (by exact List.not_mem_nil), dif_pos (by exact List.mem_singleton.mpr rfl)]
    rfl
  · unfold DotDims.rhsIdx
    rw [dif_neg (by exact List.not_mem_nil), dif_pos (by exact List.mem_singleton.mpr rfl)]
    rfl

/-- A one-row matrix cast to its own shape and broadcast over `r` rows reads its entry `(0, q)` at `(p, q)`. -/
theorem bias_row_apply {r h : Nat} {α : Type} (b : (⟨2, ![1, h]⟩ : Shape).Idx → α)
    (hc : (⟨2, ![1, h]⟩ : Shape).ShapeCasts ⟨2, ![1, h]⟩) (hb : (⟨2, ![1, h]⟩ : Shape).Broadcasts ⟨2, ![r, h]⟩)
    (p : Fin r) (q : Fin h) :
    broadcastTo ⟨2, ![r, h]⟩ (shapeCast ⟨2, ![1, h]⟩ b hc) hb (ix2 p q) = b (ix2 (0 : Fin 1) q) := by
  rw [broadcastTo_1b_ab_apply, shapeCast_self]

end Cert.MatmulRows

end
-- ==== Proof.Region0.lean ====
/-
  The first dense layer as the whole array it leaves.

  The layer walks the 100000 rows of its input in 50 tiles of 2000 rows; the weight `[128, 300]` and the one-row bias
  `[1, 300]` are read whole at every tile. On a tile the body stores, at row `p` and column `q`,
  `max ((∑ κ, x (p, κ) * w (κ, q)) + b (0, q)) 0`, where `x` is the tile of the input. Row `p` of tile `t` is row
  `2000 t + p` of the input, and the tile is written back to rows `2000 t … 2000 t + 1999` of the result; the tiles
  cover every row (row `r` lies in tile `r / 2000`). So the result array is, entry by entry, the input times the weight
  plus the bias row, clamped at zero: `clampZ (affine X W B)` of the three arrays as the layer finds them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: row `p` of the input tile against column `q` of the weight, plus the
    bias at column `q`, clamped at zero. -/
theorem tile0_entry (x0 : Vec Ideal S2000x128 .f32) (x1 : Vec Ideal S128x300 .f32) (x2 : Vec Ideal S1x300 .f32)
    (p : Fin 2000) (q : Fin 300) :
    k0_pay1 x0 x1 x2 (ix2 p q)
      = max ((∑ κ : Fin 128, x0 (ix2 p κ) * x1 (ix2 κ q)) + x2 (ix2 (0 : Fin 1) q)) (Ideal.ofBits .f32 0x00000000#32) := by
  unfold k0_pay1
  refine congrArg₂ max (congrArg₂ (· + ·) ?_ ?_) rfl
  · exact matmul_plain_apply dot_S2000x128_S128x300_S2000x300_1_0_0_1_n_n none rfl rfl rfl rfl rfl rfl _ _ p q
  · exact bias_row_apply x2 _ _ p q

/-- The tile's entry at `j` is the entry at `i` of the whole-array layer, when row `j` of the tile holds row `i` of
    the input, the tile's weight and bias are the arrays', and `j` and `i` name the same column. -/
theorem tile0_eq_layer (x0 : Vec Ideal S2000x128 .f32) (x1 : Vec Ideal S128x300 .f32) (x2 : Vec Ideal S1x300 .f32)
    (X : Mat 100000 128) (W : Mat 128 300) (B : Mat 1 300) (j : S2000x300.Idx) (i : S100000x300.Idx)
    (h0 : ∀ κ : Fin 128, x0 (ix2 (row j) κ) = X (ix2 (row i) κ))
    (h1 : ∀ κ : Fin 128, x1 (ix2 κ (col j)) = W (ix2 κ (col i)))
    (h2 : x2 (ix2 (0 : Fin 1) (col j)) = B (ix2 (0 : Fin 1) (col i))) :
    k0_pay1 x0 x1 x2 j = clampZ (affine X W B) i := by
  obtain ⟨p, q, rfl⟩ : ∃ (p : Fin 2000) (q : Fin 300), j = ix2 p q := ⟨j 0, j 1, eq_ix2 j⟩
  rw [tile0_entry]
  show _ = max ((∑ κ : Fin 128, X (ix2 (row i) κ) * W (ix2 κ (col i))) + B (ix2 (0 : Fin 1) (col i))) (Ideal.ofBits .f32 0x00000000#32)
  exact congrArg₂ max (congrArg₂ (· + ·) (Finset.sum_congr rfl fun κ _ => congrArg₂ (· * ·) (h0 κ) (h1 κ)) h2) rfl

/-! ## From tiles to the array -/

/-- The store's and the loads' offsets are zero on both axes. -/
theorem origin0 : (![0, 0] : Fin 2 → Nat) = fun _ => 0 := funext fun a => by fin_cases a <;> rfl

/-- The printed index maps, decided over the 50 tiles: the input's and the result's tiles sit at the same row block
    `t`, in column block 0; the weight and the bias are always their one whole block. -/
theorem tiles0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- What tile `t` writes back is tile `t` of the whole-array layer of the arrays as the region finds them. -/
theorem written0_eq (t : Fin cfg0.N) :
    (dat0 (F := Ideal) V c).flushed 3 t
      = ((cfg0.win 3).blk t).view.read (Elt Ideal) (clampZ (affine (V c main_arg0) (V c main_arg5) (V c main_v0))) := by
  show (cfg0.win 3).cut (grid0.coords t) ((dat0 (F := Ideal) V c).after 3 t) = _
  rw [after0_3]
  unfold out0_3
  rw [View.canon_unit_zero origin0]
  simp only [View.ld_unit_zero (S := S2000x128) origin0, View.ld_unit_zero (S := S128x300) origin0,
    View.ld_unit_zero (S := S1x300) origin0]
  obtain ⟨e00, e01, e10, e11, e20, e21, e30, e31⟩ := tiles0 t
  funext j
  show k0_pay1 (iblk0 V c 0 t) (iblk0 V c 1 t) (iblk0 V c 2 t) j
    = clampZ (affine (V c main_arg0) (V c main_arg5) (V c main_v0)) (((cfg0.win 3).blk t).view.emb j)
  refine tile0_eq_layer (iblk0 V c 0 t) (iblk0 V c 1 t) (iblk0 V c 2 t) (V c main_arg0) (V c main_arg5) (V c main_v0)
    j (((cfg0.win 3).blk t).view.emb j) (fun κ => ?_) (fun κ => ?_) ?_
  · show V c main_arg0 (((cfg0.win 0).blk t).view.emb (ix2 (row j) κ)) = V c main_arg0 (ix2 (row (((cfg0.win 3).blk t).view.emb j)) κ)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * κ.val = κ.val; omega
  · show V c main_arg5 (((cfg0.win 1).blk t).view.emb (ix2 κ (col j))) = V c main_arg5 (ix2 κ (col (((cfg0.win 3).blk t).view.emb j)))
    refine congrArg (V c main_arg5) (funext fun a => Fin.ext ?_)
    match a with
    | ⟨0, _⟩ => show win0_1.index t (0 : Fin 2) * 128 + 1 * κ.val = κ.val; omega
    | ⟨1, _⟩ => show win0_1.index t (1 : Fin 2) * 300 + 1 * (j 1).val = win0_3.index t (1 : Fin 2) * 300 + 1 * (j 1).val; omega
  · show V c main_v0 (((cfg0.win 2).blk t).view.emb (ix2 (0 : Fin 1) (col j))) = V c main_v0 (ix2 (0 : Fin 1) (col (((cfg0.win 3).blk t).view.emb j)))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 300 + 1 * (j 1).val = win0_3.index t (1 : Fin 2) * 300 + 1 * (j 1).val; omega

/-- An entry of the result is in tile `t` iff each coordinate is in the tile's range on its axis. -/
theorem mem_tile0 (t : Fin cfg0.N) (i : S100000x300.Idx) :
    i ∈ ((cfg0.win 3).blk t).view.set ↔ ∀ a : Fin 2, win0_3.index t a * S2000x300.size a ≤ (i a).val ∧ (i a).val < win0_3.index t a * S2000x300.size a + S2000x300.size a := by
  show i ∈ ((View.whole main_v1).slice (win0_3.rect t)).set ↔ _
  rw [View.set_slice_whole, Rect.mem_set_unit]
  exact Iff.rfl

/-- Every entry of the result is in some tile that is written back: row `r` is in tile `r / 2000`. -/
theorem tiles_cover0 (i : S100000x300.Idx) :
    ∃ t : Fin cfg0.N, (cfg0.win 3).flush t = true ∧ i ∈ ((cfg0.win 3).blk t).view.set := by
  have hi0 : (i 0).val < 100000 := (i 0).isLt
  have hi1 : (i 1).val < 300 := (i 1).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31⟩ := tiles0 t
  refine ⟨t, flush0_3 t, ?_⟩
  rw [mem_tile0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 300 ≤ (i 1).val ∧ (i 1).val < win0_3.index t (1 : Fin 2) * 300 + 300; omega

/-- The result array after the region: the input times the weight plus the bias row, clamped at zero. -/
theorem final0 : (dat0 (F := Ideal) V c).arrAt 3 cfg0.N = clampZ (affine (V c main_arg0) (V c main_arg5) (V c main_v0)) :=
  (dat0 (F := Ideal) V c).arrAt_eq_of_cover 3 (clampZ (affine (V c main_arg0) (V c main_arg5) (V c main_v0)))
    (fun t _ => written0_eq V c t) tiles_cover0

end Cert.KernelIdeal.RegionValue

end
-- ==== Proof.Region1.lean ====
/-
  The edge-feature dense layer as the whole array it leaves.

  The layer walks the 300000 rows of its input in 100 tiles of 3000 rows; the weight `[16, 300]` and the one-row bias
  `[1, 300]` are read whole at every tile. On a tile the body stores, at row `p` and column `q`,
  `(∑ κ, x (p, κ) * w (κ, q)) + b (0, q)`, where `x` is the tile of the input. Row `p` of tile `t` is row
  `3000 t + p` of the input, and the tile is written back to rows `3000 t … 3000 t + 2999` of the result; the tiles
  cover every row (row `r` lies in tile `r / 3000`). So the result array is, entry by entry, the input times the weight
  plus the bias row: `affine X W B` of the three arrays as the layer finds them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: row `p` of the input tile against column `q` of the weight, plus the
    bias at column `q`. -/
theorem tile1_entry (x0 : Vec Ideal S3000x16 .f32) (x1 : Vec Ideal S16x300 .f32) (x2 : Vec Ideal S1x300 .f32)
    (p : Fin 3000) (q : Fin 300) :
    k1_pay1 x0 x1 x2 (ix2 p q) = (∑ κ : Fin 16, x0 (ix2 p κ) * x1 (ix2 κ q)) + x2 (ix2 (0 : Fin 1) q) := by
  unfold k1_pay1
  refine congrArg₂ (· + ·) ?_ ?_
  · exact matmul_plain_apply dot_S3000x16_S16x300_S3000x300_1_0_0_1_n_n none rfl rfl rfl rfl rfl rfl _ _ p q
  · exact bias_row_apply x2 _ _ p q

/-- The tile's entry at `j` is the entry at `i` of the whole-array layer, when row `j` of the tile holds row `i` of
    the input, the tile's weight and bias are the arrays', and `j` and `i` name the same column. -/
theorem tile1_eq_layer (x0 : Vec Ideal S3000x16 .f32) (x1 : Vec Ideal S16x300 .f32) (x2 : Vec Ideal S1x300 .f32)
    (X : Mat 300000 16) (W : Mat 16 300) (B : Mat 1 300) (j : S3000x300.Idx) (i : S300000x300.Idx)
    (h0 : ∀ κ : Fin 16, x0 (ix2 (row j) κ) = X (ix2 (row i) κ))
    (h1 : ∀ κ : Fin 16, x1 (ix2 κ (col j)) = W (ix2 κ (col i)))
    (h2 : x2 (ix2 (0 : Fin 1) (col j)) = B (ix2 (0 : Fin 1) (col i))) :
    k1_pay1 x0 x1 x2 j = affine X W B i := by
  obtain ⟨p, q, rfl⟩ : ∃ (p : Fin 3000) (q : Fin 300), j = ix2 p q := ⟨j 0, j 1, eq_ix2 j⟩
  rw [tile1_entry]
  show _ = (∑ κ : Fin 16, X (ix2 (row i) κ) * W (ix2 κ (col i))) + B (ix2 (0 : Fin 1) (col i))
  exact congrArg₂ (· + ·) (Finset.sum_congr rfl fun κ _ => congrArg₂ (· * ·) (h0 κ) (h1 κ)) h2

/-! ## From tiles to the array -/

/-- The store's and the loads' offsets are zero on both axes. -/
theorem origin1 : (![0, 0] : Fin 2 → Nat) = fun _ => 0 := funext fun a => by fin_cases a <;> rfl

/-- The printed index maps, decided over the 100 tiles: the input's and the result's tiles sit at the same row block
    `t`, in column block 0; the weight and the bias are always their one whole block. -/
theorem tiles1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b)) (c : Dev nD)

/-- What tile `t` writes back is tile `t` of the whole-array layer of the arrays as the region finds them. -/
theorem written1_eq (t : Fin cfg1.N) :
    (dat1 (F := Ideal) V c).flushed 3 t
      = ((cfg1.win 3).blk t).view.read (Elt Ideal) (affine (V c main_arg1) (V c main_arg7) (V c main_v2)) := by
  show (cfg1.win 3).cut (grid1.coords t) ((dat1 (F := Ideal) V c).after 3 t) = _
  rw [after1_3]
  unfold out1_3
  rw [View.canon_unit_zero origin1]
  simp only [View.ld_unit_zero (S := S3000x16) origin1, View.ld_unit_zero (S := S16x300) origin1,
    View.ld_unit_zero (S := S1x300) origin1]
  obtain ⟨e00, e01, e10, e11, e20, e21, e30, e31⟩ := tiles1 t
  funext j
  show k1_pay1 (iblk1 V c 0 t) (iblk1 V c 1 t) (iblk1 V c 2 t) j
    = affine (V c main_arg1) (V c main_arg7) (V c main_v2) (((cfg1.win 3).blk t).view.emb j)
  refine tile1_eq_layer (iblk1 V c 0 t) (iblk1 V c 1 t) (iblk1 V c 2 t) (V c main_arg1) (V c main_arg7) (V c main_v2)
    j (((cfg1.win 3).blk t).view.emb j) (fun κ => ?_) (fun κ => ?_) ?_
  · show V c main_arg1 (((cfg1.win 0).blk t).view.emb (ix2 (row j) κ)) = V c main_arg1 (ix2 (row (((cfg1.win 3).blk t).view.emb j)) κ)
    refine congrArg (V c main_arg1) (funext fun a => Fin.ext ?_)
    match a with
    | ⟨0, _⟩ => show win1_0.index t (0 : Fin 2) * 3000 + 1 * (j 0).val = win1_3.index t (0 : Fin 2) * 3000 + 1 * (j 0).val; omega
    | ⟨1, _⟩ => show win1_0.index t (1 : Fin 2) * 16 + 1 * κ.val = κ.val; omega
  · show V c main_arg7 (((cfg1.win 1).blk t).view.emb (ix2 κ (col j))) = V c main_arg7 (ix2 κ (col (((cfg1.win 3).blk t).view.emb j)))
    refine congrArg (V c main_arg7) (funext fun a => Fin.ext ?_)
    match a with
    | ⟨0, _⟩ => show win1_1.index t (0 : Fin 2) * 16 + 1 * κ.val = κ.val; omega
    | ⟨1, _⟩ => show win1_1.index t (1 : Fin 2) * 300 + 1 * (j 1).val = win1_3.index t (1 : Fin 2) * 300 + 1 * (j 1).val; omega
  · show V c main_v2 (((cfg1.win 2).blk t).view.emb (ix2 (0 : Fin 1) (col j))) = V c main_v2 (ix2 (0 : Fin 1) (col (((cfg1.win 3).blk t).view.emb j)))
    refine congrArg (V c main_v2) (funext fun a => Fin.ext ?_)
    match a with
    | ⟨0, _⟩ => show win1_2.index t (0 : Fin 2) * 1 + 1 * 0 = 0; omega
    | ⟨1, _⟩ => show win1_2.index t (1 : Fin 2) * 300 + 1 * (j 1).val = win1_3.index t (1 : Fin 2) * 300 + 1 * (j 1).val; omega

/-- An entry of the result is in tile `t` iff each coordinate is in the tile's range on its axis. -/
theorem mem_tile1 (t : Fin cfg1.N) (i : S300000x300.Idx) :
    i ∈ ((cfg1.win 3).blk t).view.set ↔ ∀ a : Fin 2, win1_3.index t a * S3000x300.size a ≤ (i a).val ∧ (i a).val < win1_3.index t a * S3000x300.size a + S3000x300.size a := by
  show i ∈ ((View.whole main_v3).slice (win1_3.rect t)).set ↔ _
  rw [View.set_slice_whole, Rect.mem_set_unit]
  exact Iff.rfl

/-- Every entry of the result is in some tile that is written back: row `r` is in tile `r / 3000`. -/
theorem tiles_cover1 (i : S300000x300.Idx) :
    ∃ t : Fin cfg1.N, (cfg1.win 3).flush t = true ∧ i ∈ ((cfg1.win 3).blk t).view.set := by
  have hi0 : (i 0).val < 300000 := (i 0).isLt
  have hi1 : (i 1).val < 300 := (i 1).isLt
  have hN : cfg1.N = 100 := N_1
  obtain ⟨t, ht⟩ : ∃ t : Fin cfg1.N, t.val = (i 0).val / 3000 := ⟨⟨(i 0).val / 3000, by rw [hN]; omega⟩, rfl⟩
  obtain ⟨-, -, -, -, -, -, e30, e31⟩ := tiles1 t
  refine ⟨t, flush1_3 t, ?_⟩
  rw [mem_tile1]
  intro a
  match a with
  | ⟨0, _⟩ => show win1_3.index t (0 : Fin 2) * 3000 ≤ (i 0).val ∧ (i 0).val < win1_3.index t (0 : Fin 2) * 3000 + 3000; omega
  | ⟨1, _⟩ => show win1_3.index t (1 : Fin 2) * 300 ≤ (i 1).val ∧ (i 1).val < win1_3.index t (1 : Fin 2) * 300 + 300; omega

/-- The result array after the region: the input times the weight plus the bias row. -/
theorem final1 : (dat1 (F := Ideal) V c).arrAt 3 cfg1.N = affine (V c main_arg1) (V c main_arg7) (V c main_v2) :=
  (dat1 (F := Ideal) V c).arrAt_eq_of_cover 3 (affine (V c main_arg1) (V c main_arg7) (V c main_v2))
    (fun t _ => written1_eq V c t) tiles_cover1

end Cert.KernelIdeal.RegionValue

end
-- ==== Proof.Region2.lean ====
/-
  The first fused two-layer block as the whole array it leaves.

  The block walks the 100000 rows of the node features `h` and of the aggregated messages `agg` in 100 tiles of 1000
  rows; the two weights `[300, 300]` and the two one-row biases `[1, 300]` are read whole at every tile. On a tile the
  body stores, at row `p` and column `q`,
  `max ((∑ κ, max ((∑ l, (h (p, l) + agg (p, l)) * w1 (l, κ)) + b1 (0, κ)) 0 * w2 (κ, q)) + b2 (0, q)) 0`.
  Row `p` of tile `t` is row `1000 t + p` of both row-tiled inputs, the tile is written back to rows
  `1000 t … 1000 t + 999` of the result, and the tiles cover every row (row `r` lies in tile `r / 1000`). So the result
  is, entry by entry, `clampZ (affine (clampZ (affine (plus H A) W1 B1)) W2 B2)` of the six arrays as the block finds
  them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: the hidden row — row `p` of `h + agg` against the first weight, plus
    the first bias, clamped at zero — against column `q` of the second weight, plus the second bias, clamped at zero. -/
theorem tile2_entry (x0 x1 : Vec Ideal S1000x300 .f32) (x2 : Vec Ideal S300x300 .f32) (x3 : Vec Ideal S1x300 .f32)
    (x4 : Vec Ideal S300x300 .f32) (x5 : Vec Ideal S1x300 .f32) (p : Fin 1000) (q : Fin 300) :
    k2_pay1 x0 x1 x2 x3 x4 x5 (ix2 p q)
      = max ((∑ κ : Fin 300, max ((∑ l : Fin 300, (x0 (ix2 p l) + x1 (ix2 p l)) * x2 (ix2 l κ)) + x3 (ix2 (0 : Fin 1) κ))
            (Ideal.ofBits .f32 0x00000000#32) * x4 (ix2 κ q)) + x5 (ix2 (0 : Fin 1) q)) (Ideal.ofBits .f32 0x00000000#32) := by
  unfold k2_pay1
  simp only [shapeCast_self]
  refine congrArg₂ max (congrArg₂ (· + ·) ?_ ?_) rfl
  · refine (matmul_plain_apply dot_S1000x300_S300x300_S1000x300_1_0_0_1_n_n none rfl rfl rfl rfl rfl rfl _ _ p q).trans
      (Finset.sum_congr rfl fun κ _ => congrArg₂ (· * ·) ?_ rfl)
    refine congrArg₂ max (congrArg₂ (· + ·) ?_ ?_) rfl
    · exact matmul_plain_apply dot_S1000x300_S300x300_S1000x300_1_0_0_1_n_n none rfl rfl rfl rfl rfl rfl _ _ p κ
    · exact broadcastTo_1b_ab_apply x3 _ p κ
  · exact broadcastTo_1b_ab_apply x5 _ p q

/-- The tile's entry at `j` is the entry at `i` of the whole-array block, when row `j` of the two row tiles holds row
    `i` of the two row-tiled arrays, the tile's weights and biases are the arrays', and `j` and `i` name the same column. -/
theorem tile2_eq_block (x0 x1 : Vec Ideal S1000x300 .f32) (x2 : Vec Ideal S300x300 .f32) (x3 : Vec Ideal S1x300 .f32)
    (x4 : Vec Ideal S300x300 .f32) (x5 : Vec Ideal S1x300 .f32)
    (H A : Mat 100000 300) (W1 : Mat 300 300) (B1 : Mat 1 300) (W2 : Mat 300 300) (B2 : Mat 1 300)
    (j : S1000x300.Idx) (i : S100000x300.Idx)
    (h0 : ∀ l : Fin 300, x0 (ix2 (row j) l) = H (ix2 (row i) l))
    (h1 : ∀ l : Fin 300, x1 (ix2 (row j) l) = A (ix2 (row i) l))
    (h2 : ∀ l κ : Fin 300, x2 (ix2 l κ) = W1 (ix2 l κ))
    (h3 : ∀ κ : Fin 300, x3 (ix2 (0 : Fin 1) κ) = B1 (ix2 (0 : Fin 1) κ))
    (h4 : ∀ κ : Fin 300, x4 (ix2 κ (col j)) = W2 (ix2 κ (col i)))
    (h5 : x5 (ix2 (0 : Fin 1) (col j)) = B2 (ix2 (0 : Fin 1) (col i))) :
    k2_pay1 x0 x1 x2 x3 x4 x5 j = clampZ (affine (clampZ (affine (plus H A) W1 B1)) W2 B2) i := by
  obtain ⟨p, q, rfl⟩ : ∃ (p : Fin 1000) (q : Fin 300), j = ix2 p q := ⟨j 0, j 1, eq_ix2 j⟩
  rw [tile2_entry]
  show _ = max ((∑ κ : Fin 300, max ((∑ l : Fin 300, (H (ix2 (row i) l) + A (ix2 (row i) l)) * W1 (ix2 l κ)) + B1 (ix2 (0 : Fin 1) κ))
            (Ideal.ofBits .f32 0x00000000#32) * W2 (ix2 κ (col i))) + B2 (ix2 (0 : Fin 1) (col i))) (Ideal.ofBits .f32 0x00000000#32)
  exact congrArg₂ max (congrArg₂ (· + ·) (Finset.sum_congr rfl fun κ _ =>
    congrArg₂ (· * ·) (congrArg₂ max (congrArg₂ (· + ·) (Finset.sum_congr rfl fun l _ =>
      congrArg₂ (· * ·) (congrArg₂ (· + ·) (h0 l) (h1 l)) (h2 l κ)) (h3 κ)) rfl) (h4 κ)) h5) rfl

/-! ## From tiles to the array -/

/-- The store's and the loads' offsets are zero on both axes. -/
theorem origin2 : (![0, 0] : Fin 2 → Nat) = fun _ => 0 := funext fun a => by fin_cases a <;> rfl

/-- The printed index maps, decided over the 100 tiles: the two row-tiled inputs' and the result's tiles sit at the
    same row block `t`, in column block 0; the weights and the biases are always their one whole block. -/
theorem tiles2 : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- What tile `t` writes back is tile `t` of the whole-array block of the arrays as the region finds them. -/
theorem written2_eq (t : Fin cfg2.N) :
    (dat2 (F := Ideal) V c).flushed 6 t
      = ((cfg2.win 6).blk t).view.read (Elt Ideal)
          (clampZ (affine (clampZ (affine (plus (V c main_v1) (V c main_v20)) (V c main_v22) (V c main_v29))) (V c main_v26) (V c main_v30))) := by
  show (cfg2.win 6).cut (grid2.coords t) ((dat2 (F := Ideal) V c).after 6 t) = _
  rw [after2_6]
  unfold out2_6
  rw [View.canon_unit_zero origin2]
  simp only [View.ld_unit_zero (S := S1000x300) origin2, View.ld_unit_zero (S := S300x300) origin2,
    View.ld_unit_zero (S := S1x300) origin2]
  obtain ⟨e00, e01, e10, e11, e20, e21, e30, e31, e40, e41, e50, e51, e60, e61⟩ := tiles2 t
  funext j
  show k2_pay1 (iblk2 V c 0 t) (iblk2 V c 1 t) (iblk2 V c 2 t) (iblk2 V c 3 t) (iblk2 V c 4 t) (iblk2 V c 5 t) j
    = clampZ (affine (clampZ (affine (plus (V c main_v1) (V c main_v20)) (V c main_v22) (V c main_v29))) (V c main_v26) (V c main_v30))
        (((cfg2.win 6).blk t).view.emb j)
  refine tile2_eq_block (iblk2 V c 0 t) (iblk2 V c 1 t) (iblk2 V c 2 t) (iblk2 V c 3 t) (iblk2 V c 4 t) (iblk2 V c 5 t)
    (V c main_v1) (V c main_v20) (V c main_v22) (V c main_v29) (V c main_v26) (V c main_v30)
    j (((cfg2.win 6).blk t).view.emb j) (fun l => ?_) (fun l => ?_) (fun l κ => ?_) (fun κ => ?_) (fun κ => ?_) ?_
  · show V c main_v1 (((cfg2.win 0).blk t).view.emb (ix2 (row j) l)) = V c main_v1 (ix2 (row (((cfg2.win 6).blk t).view.emb j)) l)
    refine congrArg (V c main_v1) (funext fun a => Fin.ext ?_)
    match a with
    | ⟨0, _⟩ => show win2_0.index t (0 : Fin 2) * 1000 + 1 * (j 0).val = win2_6.index t (0 : Fin 2) * 1000 + 1 * (j 0).val; omega
    | ⟨1, _⟩ => show win2_0.index t (1 : Fin 2) * 300 + 1 * l.val = l.val; omega
  · show V c main_v20 (((cfg2.win 1).blk t).view.emb (ix2 (row j) l)) = V c main_v20 (ix2 (row (((cfg2.win 6).blk t).view.emb j)) l)
    refine congrArg (V c main_v20) (funext fun a => Fin.ext ?_)
    match a with
    | ⟨0, _⟩ => show win2_1.index t (0 : Fin 2) * 1000 + 1 * (j 0).val = win2_6.index t (0 : Fin 2) * 1000 + 1 * (j 0).val; omega
    | ⟨1, _⟩ => show win2_1.index t (1 : Fin 2) * 300 + 1 * l.val = l.val; omega
  · show V c main_v22 (((cfg2.win 2).blk t).view.emb (ix2 l κ)) = V c main_v22 (ix2 l κ)
    refine congrArg (V c main_v22) (funext fun a => Fin.ext ?_)
    match a with
    | ⟨0, _⟩ => show win2_2.index t (0 : Fin 2) * 300 + 1 * l.val = l.val; omega
    | ⟨1, _⟩ => show win2_2.index t (1 : Fin 2) * 300 + 1 * κ.val = κ.val; omega
  · show V c main_v29 (((cfg2.win 3).blk t).view.emb (ix2 (0 : Fin 1) κ)) = V c main_v29 (ix2 (0 : Fin 1) κ)
    refine congrArg (V c main_v29) (funext fun a => Fin.ext ?_)
    match a with
    | ⟨0, _⟩ => show win2_3.index t (0 : Fin 2) * 1 + 1 * 0 = 0; omega
    | ⟨1, _⟩ => show win2_3.index t (1 : Fin 2) * 300 + 1 * κ.val = κ.val; omega
  · show V c main_v26 (((cfg2.win 4).blk t).view.emb (ix2 κ (col j))) = V c main_v26 (ix2 κ (col (((cfg2.win 6).blk t).view.emb j)))
    refine congrArg (V c main_v26) (funext fun a => Fin.ext ?_)
    match a with
    | ⟨0, _⟩ => show win2_4.index t (0 : Fin 2) * 300 + 1 * κ.val = κ.val; omega
    | ⟨1, _⟩ => show win2_4.index t (1 : Fin 2) * 300 + 1 * (j 1).val = win2_6.index t (1 : Fin 2) * 300 + 1 * (j 1).val; omega
  · show V c main_v30 (((cfg2.win 5).blk t).view.emb (ix2 (0 : Fin 1) (col j))) = V c main_v30 (ix2 (0 : Fin 1) (col (((cfg2.win 6).blk t).view.emb j)))
    refine congrArg (V c main_v30) (funext fun a => Fin.ext ?_)
    match a with
    | ⟨0, _⟩ => show win2_5.index t (0 : Fin 2) * 1 + 1 * 0 = 0; omega
    | ⟨1, _⟩ => show win2_5.index t (1 : Fin 2) * 300 + 1 * (j 1).val = win2_6.index t (1 : Fin 2) * 300 + 1 * (j 1).val; omega

/-- An entry of the result is in tile `t` iff each coordinate is in the tile's range on its axis. -/
theorem mem_tile2 (t : Fin cfg2.N) (i : S100000x300.Idx) :
    i ∈ ((cfg2.win 6).blk t).view.set ↔ ∀ a : Fin 2, win2_6.index t a * S1000x300.size a ≤ (i a).val ∧ (i a).val < win2_6.index t a * S1000x300.size a + S1000x300.size a := by
  show i ∈ ((View.whole main_v31).slice (win2_6.rect t)).set ↔ _
  rw [View.set_slice_whole, Rect.mem_set_unit]
  exact Iff.rfl

/-- Every entry of the result is in some tile that is written back: row `r` is in tile `r / 1000`. -/
theorem tiles_cover2 (i : S100000x300.Idx) :
    ∃ t : Fin cfg2.N, (cfg2.win 6).flush t = true ∧ i ∈ ((cfg2.win 6).blk t).view.set := by
  have hi0 : (i 0).val < 100000 := (i 0).isLt
  have hi1 : (i 1).val < 300 := (i 1).isLt
  have hN : cfg2.N = 100 := N_2
  obtain ⟨t, ht⟩ : ∃ t : Fin cfg2.N, t.val = (i 0).val / 1000 := ⟨⟨(i 0).val / 1000, by rw [hN]; omega⟩, rfl⟩
  obtain ⟨-, -, -, -, -, -, -, -, -, -, -, -, e60, e61⟩ := tiles2 t
  refine ⟨t, flush2_6 t, ?_⟩
  rw [mem_tile2]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 300 ≤ (i 1).val ∧ (i 1).val < win2_6.index t (1 : Fin 2) * 300 + 300; omega

/-- The result array after the region: the two dense layers over `h + agg`, each clamped at zero. -/
theorem final2 : (dat2 (F := Ideal) V c).arrAt 6 cfg2.N
    = clampZ (affine (clampZ (affine (plus (V c main_v1) (V c main_v20)) (V c main_v22) (V c main_v29))) (V c main_v26) (V c main_v30)) :=
  (dat2 (F := Ideal) V c).arrAt_eq_of_cover 6
    (clampZ (affine (clampZ (affine (plus (V c main_v1) (V c main_v20)) (V c main_v22) (V c main_v29))) (V c main_v26) (V c main_v30)))
    (fun t _ => written2_eq V c t) tiles_cover2

end Cert.KernelIdeal.RegionValue

end
-- ==== Proof.Region3.lean ====
/-
  The second fused two-layer block as the whole array it leaves.

  The block walks the 100000 rows of the node features `h` and of the aggregated messages `agg` in 100 tiles of 1000
  rows; the two weights `[300, 300]` and the two one-row biases `[1, 300]` are read whole at every tile. On a tile the
  body stores, at row `p` and column `q`,
  `max ((∑ κ, max ((∑ l, (h (p, l) + agg (p, l)) * w1 (l, κ)) + b1 (0, κ)) 0 * w2 (κ, q)) + b2 (0, q)) 0`.
  Row `p` of tile `t` is row `1000 t + p` of both row-tiled inputs, the tile is written back to rows
  `1000 t … 1000 t + 999` of the result, and the tiles cover every row (row `r` lies in tile `r / 1000`). So the result
  is, entry by entry, `clampZ (affine (clampZ (affine (plus H A) W1 B1)) W2 B2)` of the six arrays as the block finds
  them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: the hidden row — row `p` of `h + agg` against the first weight, plus
    the first bias, clamped at zero — against column `q` of the second weight, plus the second bias, clamped at zero. -/
theorem tile3_entry (x0 x1 : Vec Ideal S1000x300 .f32) (x2 : Vec Ideal S300x300 .f32) (x3 : Vec Ideal S1x300 .f32)
    (x4 : Vec Ideal S300x300 .f32) (x5 : Vec Ideal S1x300 .f32) (p : Fin 1000) (q : Fin 300) :
    k3_pay1 x0 x1 x2 x3 x4 x5 (ix2 p q)
      = max ((∑ κ : Fin 300, max ((∑ l : Fin 300, (x0 (ix2 p l) + x1 (ix2 p l)) * x2 (ix2 l κ)) + x3 (ix2 (0 : Fin 1) κ))
            (Ideal.ofBits .f32 0x00000000#32) * x4 (ix2 κ q)) + x5 (ix2 (0 : Fin 1) q)) (Ideal.ofBits .f32 0x00000000#32) := by
  unfold k3_pay1
  simp only [shapeCast_self]
  refine congrArg₂ max (congrArg₂ (· + ·) ?_ ?_) rfl
  · refine (matmul_plain_apply dot_S1000x300_S300x300_S1000x300_1_0_0_1_n_n none rfl rfl rfl rfl rfl rfl _ _ p q).trans
      (Finset.sum_congr rfl fun κ _ => congrArg₂ (· * ·) ?_ rfl)
    refine congrArg₂ max (congrArg₂ (· + ·) ?_ ?_) rfl
    · exact matmul_plain_apply dot_S1000x300_S300x300_S1000x300_1_0_0_1_n_n none rfl rfl rfl rfl rfl rfl _ _ p κ
    · exact broadcastTo_1b_ab_apply x3 _ p κ
  · exact broadcastTo_1b_ab_apply x5 _ p q

/-- The tile's entry at `j` is the entry at `i` of the whole-array block, when row `j` of the two row tiles holds row
    `i` of the two row-tiled arrays, the tile's weights and biases are the arrays', and `j` and `i` name the same column. -/
theorem tile3_eq_block (x0 x1 : Vec Ideal S1000x300 .f32) (x2 : Vec Ideal S300x300 .f32) (x3 : Vec Ideal S1x300 .f32)
    (x4 : Vec Ideal S300x300 .f32) (x5 : Vec Ideal S1x300 .f32)
    (H A : Mat 100000 300) (W1 : Mat 300 300) (B1 : Mat 1 300) (W2 : Mat 300 300) (B2 : Mat 1 300)
    (j : S1000x300.Idx) (i : S100000x300.Idx)
    (h0 : ∀ l : Fin 300, x0 (ix2 (row j) l) = H (ix2 (row i) l))
    (h1 : ∀ l : Fin 300, x1 (ix2 (row j) l) = A (ix2 (row i) l))
    (h2 : ∀ l κ : Fin 300, x2 (ix2 l κ) = W1 (ix2 l κ))
    (h3 : ∀ κ : Fin 300, x3 (ix2 (0 : Fin 1) κ) = B1 (ix2 (0 : Fin 1) κ))
    (h4 : ∀ κ : Fin 300, x4 (ix2 κ (col j)) = W2 (ix2 κ (col i)))
    (h5 : x5 (ix2 (0 : Fin 1) (col j)) = B2 (ix2 (0 : Fin 1) (col i))) :
    k3_pay1 x0 x1 x2 x3 x4 x5 j = clampZ (affine (clampZ (affine (plus H A) W1 B1)) W2 B2) i := by
  obtain ⟨p, q, rfl⟩ : ∃ (p : Fin 1000) (q : Fin 300), j = ix2 p q := ⟨j 0, j 1, eq_ix2 j⟩
  rw [tile3_entry]
  show _ = max ((∑ κ : Fin 300, max ((∑ l : Fin 300, (H (ix2 (row i) l) + A (ix2 (row i) l)) * W1 (ix2 l κ)) + B1 (ix2 (0 : Fin 1) κ))
            (Ideal.ofBits .f32 0x00000000#32) * W2 (ix2 κ (col i))) + B2 (ix2 (0 : Fin 1) (col i))) (Ideal.ofBits .f32 0x00000000#32)
  exact congrArg₂ max (congrArg₂ (· + ·) (Finset.sum_congr rfl fun κ _ =>
    congrArg₂ (· * ·) (congrArg₂ max (congrArg₂ (· + ·) (Finset.sum_congr rfl fun l _ =>
      congrArg₂ (· * ·) (congrArg₂ (· + ·) (h0 l) (h1 l)) (h2 l κ)) (h3 κ)) rfl) (h4 κ)) h5) rfl

/-! ## From tiles to the array -/

/-- The store's and the loads' offsets are zero on both axes. -/
theorem origin3 : (![0, 0] : Fin 2 → Nat) = fun _ => 0 := funext fun a => by fin_cases a <;> rfl

/-- The printed index maps, decided over the 100 tiles: the two row-tiled inputs' and the result's tiles sit at the
    same row block `t`, in column block 0; the weights and the biases are always their one whole block. -/
theorem tiles3 : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b)) (c : Dev nD)

/-- What tile `t` writes back is tile `t` of the whole-array block of the arrays as the region finds them. -/
theorem written3_eq (t : Fin cfg3.N) :
    (dat3 (F := Ideal) V c).flushed 6 t
      = ((cfg3.win 6).blk t).view.read (Elt Ideal)
          (clampZ (affine (clampZ (affine (plus (V c main_v31) (V c main_v48)) (V c main_v50) (V c main_v57))) (V c main_v54) (V c main_v58))) := by
  show (cfg3.win 6).cut (grid3.coords t) ((dat3 (F := Ideal) V c).after 6 t) = _
  rw [after3_6]
  unfold out3_6
  rw [View.canon_unit_zero origin3]
  simp only [View.ld_unit_zero (S := S1000x300) origin3, View.ld_unit_zero (S := S300x300) origin3,
    View.ld_unit_zero (S := S1x300) origin3]
  obtain ⟨e00, e01, e10, e11, e20, e21, e30, e31, e40, e41, e50, e51, e60, e61⟩ := tiles3 t
  funext j
  show k3_pay1 (iblk3 V c 0 t) (iblk3 V c 1 t) (iblk3 V c 2 t) (iblk3 V c 3 t) (iblk3 V c 4 t) (iblk3 V c 5 t) j
    = clampZ (affine (clampZ (affine (plus (V c main_v31) (V c main_v48)) (V c main_v50) (V c main_v57))) (V c main_v54) (V c main_v58))
        (((cfg3.win 6).blk t).view.emb j)
  refine tile3_eq_block (iblk3 V c 0 t) (iblk3 V c 1 t) (iblk3 V c 2 t) (iblk3 V c 3 t) (iblk3 V c 4 t) (iblk3 V c 5 t)
    (V c main_v31) (V c main_v48) (V c main_v50) (V c main_v57) (V c main_v54) (V c main_v58)
    j (((cfg3.win 6).blk t).view.emb j) (fun l => ?_) (fun l => ?_) (fun l κ => ?_) (fun κ => ?_) (fun κ => ?_) ?_
  · show V c main_v31 (((cfg3.win 0).blk t).view.emb (ix2 (row j) l)) = V c main_v31 (ix2 (row (((cfg3.win 6).blk t).view.emb j)) l)
    refine congrArg (V c main_v31) (funext fun a => Fin.ext ?_)
    match a with
    | ⟨0, _⟩ => show win3_0.index t (0 : Fin 2) * 1000 + 1 * (j 0).val = win3_6.index t (0 : Fin 2) * 1000 + 1 * (j 0).val; omega
    | ⟨1, _⟩ => show win3_0.index t (1 : Fin 2) * 300 + 1 * l.val = l.val; omega
  · show V c main_v48 (((cfg3.win 1).blk t).view.emb (ix2 (row j) l)) = V c main_v48 (ix2 (row (((cfg3.win 6).blk t).view.emb j)) l)
    refine congrArg (V c main_v48) (funext fun a => Fin.ext ?_)
    match a with
    | ⟨0, _⟩ => show win3_1.index t (0 : Fin 2) * 1000 + 1 * (j 0).val = win3_6.index t (0 : Fin 2) * 1000 + 1 * (j 0).val; omega
    | ⟨1, _⟩ => show win3_1.index t (1 : Fin 2) * 300 + 1 * l.val = l.val; omega
  · show V c main_v50 (((cfg3.win 2).blk t).view.emb (ix2 l κ)) = V c main_v50 (ix2 l κ)
    refine congrArg (V c main_v50) (funext fun a => Fin.ext ?_)
    match a with
    | ⟨0, _⟩ => show win3_2.index t (0 : Fin 2) * 300 + 1 * l.val = l.val; omega
    | ⟨1, _⟩ => show win3_2.index t (1 : Fin 2) * 300 + 1 * κ.val = κ.val; omega
  · show V c main_v57 (((cfg3.win 3).blk t).view.emb (ix2 (0 : Fin 1) κ)) = V c main_v57 (ix2 (0 : Fin 1) κ)
    refine congrArg (V c main_v57) (funext fun a => Fin.ext ?_)
    match a with
    | ⟨0, _⟩ => show win3_3.index t (0 : Fin 2) * 1 + 1 * 0 = 0; omega
    | ⟨1, _⟩ => show win3_3.index t (1 : Fin 2) * 300 + 1 * κ.val = κ.val; omega
  · show V c main_v54 (((cfg3.win 4).blk t).view.emb (ix2 κ (col j))) = V c main_v54 (ix2 κ (col (((cfg3.win 6).blk t).view.emb j)))
    refine congrArg (V c main_v54) (funext fun a => Fin.ext ?_)
    match a with
    | ⟨0, _⟩ => show win3_4.index t (0 : Fin 2) * 300 + 1 * κ.val = κ.val; omega
    | ⟨1, _⟩ => show win3_4.index t (1 : Fin 2) * 300 + 1 * (j 1).val = win3_6.index t (1 : Fin 2) * 300 + 1 * (j 1).val; omega
  · show V c main_v58 (((cfg3.win 5).blk t).view.emb (ix2 (0 : Fin 1) (col j))) = V c main_v58 (ix2 (0 : Fin 1) (col (((cfg3.win 6).blk t).view.emb j)))
    refine congrArg (V c main_v58) (funext fun a => Fin.ext ?_)
    match a with
    | ⟨0, _⟩ => show win3_5.index t (0 : Fin 2) * 1 + 1 * 0 = 0; omega
    | ⟨1, _⟩ => show win3_5.index t (1 : Fin 2) * 300 + 1 * (j 1).val = win3_6.index t (1 : Fin 2) * 300 + 1 * (j 1).val; omega

/-- An entry of the result is in tile `t` iff each coordinate is in the tile's range on its axis. -/
theorem mem_tile3 (t : Fin cfg3.N) (i : S100000x300.Idx) :
    i ∈ ((cfg3.win 6).blk t).view.set ↔ ∀ a : Fin 2, win3_6.index t a * S1000x300.size a ≤ (i a).val ∧ (i a).val < win3_6.index t a * S1000x300.size a + S1000x300.size a := by
  show i ∈ ((View.whole main_v59).slice (win3_6.rect t)).set ↔ _
  rw [View.set_slice_whole, Rect.mem_set_unit]
  exact Iff.rfl

/-- Every entry of the result is in some tile that is written back: row `r` is in tile `r / 1000`. -/
theorem tiles_cover3 (i : S100000x300.Idx) :
    ∃ t : Fin cfg3.N, (cfg3.win 6).flush t = true ∧ i ∈ ((cfg3.win 6).blk t).view.set := by
  have hi0 : (i 0).val < 100000 := (i 0).isLt
  have hi1 : (i 1).val < 300 := (i 1).isLt
  have hN : cfg3.N = 100 := N_3
  obtain ⟨t, ht⟩ : ∃ t : Fin cfg3.N, t.val = (i 0).val / 1000 := ⟨⟨(i 0).val / 1000, by rw [hN]; omega⟩, rfl⟩
  obtain ⟨-, -, -, -, -, -, -, -, -, -, -, -, e60, e61⟩ := tiles3 t
  refine ⟨t, flush3_6 t, ?_⟩
  rw [mem_tile3]
  intro a
  match a with
  | ⟨0, _⟩ => show win3_6.index t (0 : Fin 2) * 1000 ≤ (i 0).val ∧ (i 0).val < win3_6.index t (0 : Fin 2) * 1000 + 1000; omega
  | ⟨1, _⟩ => show win3_6.index t (1 : Fin 2) * 300 ≤ (i 1).val ∧ (i 1).val < win3_6.index t (1 : Fin 2) * 300 + 300; omega

/-- The result array after the region: the two dense layers over `h + agg`, each clamped at zero. -/
theorem final3 : (dat3 (F := Ideal) V c).arrAt 6 cfg3.N
    = clampZ (affine (clampZ (affine (plus (V c main_v31) (V c main_v48)) (V c main_v50) (V c main_v57))) (V c main_v54) (V c main_v58)) :=
  (dat3 (F := Ideal) V c).arrAt_eq_of_cover 6
    (clampZ (affine (clampZ (affine (plus (V c main_v31) (V c main_v48)) (V c main_v50) (V c main_v57))) (V c main_v54) (V c main_v58)))
    (fun t _ => written3_eq V c t) tiles_cover3

end Cert.KernelIdeal.RegionValue

end
-- ==== Proof.Region4.lean ====
/-
  The third fused two-layer block as the whole array it leaves.

  The block walks the 100000 rows of the node features `h` and of the aggregated messages `agg` in 100 tiles of 1000
  rows; the two weights `[300, 300]` and the two one-row biases `[1, 300]` are read whole at every tile. On a tile the
  body stores, at row `p` and column `q`,
  `(∑ κ, max ((∑ l, (h (p, l) + agg (p, l)) * w1 (l, κ)) + b1 (0, κ)) 0 * w2 (κ, q)) + b2 (0, q)`:
  the hidden layer is clamped at zero, the last one is not.
  Row `p` of tile `t` is row `1000 t + p` of both row-tiled inputs, the tile is written back to rows
  `1000 t … 1000 t + 999` of the result, and the tiles cover every row (row `r` lies in tile `r / 1000`). So the result
  is, entry by entry, `affine (clampZ (affine (plus H A) W1 B1)) W2 B2` of the six arrays as the block finds them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: the hidden row — row `p` of `h + agg` against the first weight, plus
    the first bias, clamped at zero — against column `q` of the second weight, plus the second bias. -/
theorem tile4_entry (x0 x1 : Vec Ideal S1000x300 .f32) (x2 : Vec Ideal S300x300 .f32) (x3 : Vec Ideal S1x300 .f32)
    (x4 : Vec Ideal S300x300 .f32) (x5 : Vec Ideal S1x300 .f32) (p : Fin 1000) (q : Fin 300) :
    k4_pay1 x0 x1 x2 x3 x4 x5 (ix2 p q)
      = (∑ κ : Fin 300, max ((∑ l : Fin 300, (x0 (ix2 p l) + x1 (ix2 p l)) * x2 (ix2 l κ)) + x3 (ix2 (0 : Fin 1) κ))
            (Ideal.ofBits .f32 0x00000000#32) * x4 (ix2 κ q)) + x5 (ix2 (0 : Fin 1) q) := by
  unfold k4_pay1
  simp only [shapeCast_self]
  refine congrArg₂ (· + ·) ?_ ?_
  · refine (matmul_plain_apply dot_S1000x300_S300x300_S1000x300_1_0_0_1_n_n none rfl rfl rfl rfl rfl rfl _ _ p q).trans
      (Finset.sum_congr rfl fun κ _ => congrArg₂ (· * ·) ?_ rfl)
    refine congrArg₂ max (congrArg₂ (· + ·) ?_ ?_) rfl
    · exact matmul_plain_apply dot_S1000x300_S300x300_S1000x300_1_0_0_1_n_n none rfl rfl rfl rfl rfl rfl _ _ p κ
    · exact broadcastTo_1b_ab_apply x3 _ p κ
  · exact broadcastTo_1b_ab_apply x5 _ p q

/-- The tile's entry at `j` is the entry at `i` of the whole-array block, when row `j` of the two row tiles holds row
    `i` of the two row-tiled arrays, the tile's weights and biases are the arrays', and `j` and `i` name the same column. -/
theorem tile4_eq_block (x0 x1 : Vec Ideal S1000x300 .f32) (x2 : Vec Ideal S300x300 .f32) (x3 : Vec Ideal S1x300 .f32)
    (x4 : Vec Ideal S300x300 .f32) (x5 : Vec Ideal S1x300 .f32)
    (H A : Mat 100000 300) (W1 : Mat 300 300) (B1 : Mat 1 300) (W2 : Mat 300 300) (B2 : Mat 1 300)
    (j : S1000x300.Idx) (i : S100000x300.Idx)
    (h0 : ∀ l : Fin 300, x0 (ix2 (row j) l) = H (ix2 (row i) l))
    (h1 : ∀ l : Fin 300, x1 (ix2 (row j) l) = A (ix2 (row i) l))
    (h2 : ∀ l κ : Fin 300, x2 (ix2 l κ) = W1 (ix2 l κ))
    (h3 : ∀ κ : Fin 300, x3 (ix2 (0 : Fin 1) κ) = B1 (ix2 (0 : Fin 1) κ))
    (h4 : ∀ κ : Fin 300, x4 (ix2 κ (col j)) = W2 (ix2 κ (col i)))
    (h5 : x5 (ix2 (0 : Fin 1) (col j)) = B2 (ix2 (0 : Fin 1) (col i))) :
    k4_pay1 x0 x1 x2 x3 x4 x5 j = affine (clampZ (affine (plus H A) W1 B1)) W2 B2 i := by
  obtain ⟨p, q, rfl⟩ : ∃ (p : Fin 1000) (q : Fin 300), j = ix2 p q := ⟨j 0, j 1, eq_ix2 j⟩
  rw [tile4_entry]
  show _ = (∑ κ : Fin 300, max ((∑ l : Fin 300, (H (ix2 (row i) l) + A (ix2 (row i) l)) * W1 (ix2 l κ)) + B1 (ix2 (0 : Fin 1) κ))
            (Ideal.ofBits .f32 0x00000000#32) * W2 (ix2 κ (col i))) + B2 (ix2 (0 : Fin 1) (col i))
  exact congrArg₂ (· + ·) (Finset.sum_congr rfl fun κ _ =>
    congrArg₂ (· * ·) (congrArg₂ max (congrArg₂ (· + ·) (Finset.sum_congr rfl fun l _ =>
      congrArg₂ (· * ·) (congrArg₂ (· + ·) (h0 l) (h1 l)) (h2 l κ)) (h3 κ)) rfl) (h4 κ)) h5

/-! ## From tiles to the array -/

/-- The store's and the loads' offsets are zero on both axes. -/
theorem origin4 : (![0, 0] : Fin 2 → Nat) = fun _ => 0 := funext fun a => by fin_cases a <;> rfl

/-- The printed index maps, decided over the 100 tiles: the two row-tiled inputs' and the result's tiles sit at the
    same row block `t`, in column block 0; the weights and the biases are always their one whole block. -/
theorem tiles4 : ∀ t : Fin cfg4.N, win4_0.index t (0 : Fin 2) = win4_6.index t (0 : Fin 2)
    ∧ win4_0.index t (1 : Fin 2) = 0
    ∧ win4_1.index t (0 : Fin 2) = win4_6.index t (0 : Fin 2)
    ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

variable (V : (c : Dev nD) → (b : Ref sig .tc) → Buf (Elt Ideal) ((c : Thread nD τ).loc b)) (c : Dev nD)

/-- What tile `t` writes back is tile `t` of the whole-array block of the arrays as the region finds them. -/
theorem written4_eq (t : Fin cfg4.N) :
    (dat4 (F := Ideal) V c).flushed 6 t
      = ((cfg4.win 6).blk t).view.read (Elt Ideal)
          (affine (clampZ (affine (plus (V c main_v59) (V c main_v76)) (V c main_v78) (V c main_v85))) (V c main_v82) (V c main_v86)) := by
  show (cfg4.win 6).cut (grid4.coords t) ((dat4 (F := Ideal) V c).after 6 t) = _
  rw [after4_6]
  unfold out4_6
  rw [View.canon_unit_zero origin4]
  simp only [View.ld_unit_zero (S := S1000x300) origin4, View.ld_unit_zero (S := S300x300) origin4,
    View.ld_unit_zero (S := S1x300) origin4]
  obtain ⟨e00, e01, e10, e11, e20, e21, e30, e31, e40, e41, e50, e51, e60, e61⟩ := tiles4 t
  funext j
  show k4_pay1 (iblk4 V c 0 t) (iblk4 V c 1 t) (iblk4 V c 2 t) (iblk4 V c 3 t) (iblk4 V c 4 t) (iblk4 V c 5 t) j
    = affine (clampZ (affine (plus (V c main_v59) (V c main_v76)) (V c main_v78) (V c main_v85))) (V c main_v82) (V c main_v86)
        (((cfg4.win 6).blk t).view.emb j)
  refine tile4_eq_block (iblk4 V c 0 t) (iblk4 V c 1 t) (iblk4 V c 2 t) (iblk4 V c 3 t) (iblk4 V c 4 t) (iblk4 V c 5 t)
    (V c main_v59) (V c main_v76) (V c main_v78) (V c main_v85) (V c main_v82) (V c main_v86)
    j (((cfg4.win 6).blk t).view.emb j) (fun l => ?_) (fun l => ?_) (fun l κ => ?_) (fun κ => ?_) (fun κ => ?_) ?_
  · show V c main_v59 (((cfg4.win 0).blk t).view.emb (ix2 (row j) l)) = V c main_v59 (ix2 (row (((cfg4.win 6).blk t).view.emb j)) l)
    refine congrArg (V c main_v59) (funext fun a => Fin.ext ?_)
    match a with
    | ⟨0, _⟩ => show win4_0.index t (0 : Fin 2) * 1000 + 1 * (j 0).val = win4_6.index t (0 : Fin 2) * 1000 + 1 * (j 0).val; omega
    | ⟨1, _⟩ => show win4_0.index t (1 : Fin 2) * 300 + 1 * l.val = l.val; omega
  · show V c main_v76 (((cfg4.win 1).blk t).view.emb (ix2 (row j) l)) = V c main_v76 (ix2 (row (((cfg4.win 6).blk t).view.emb j)) l)
    refine congrArg (V c main_v76) (funext fun a => Fin.ext ?_)
    match a with
    | ⟨0, _⟩ => show win4_1.index t (0 : Fin 2) * 1000 + 1 * (j 0).val = win4_6.index t (0 : Fin 2) * 1000 + 1 * (j 0).val; omega
    | ⟨1, _⟩ => show win4_1.index t (1 : Fin 2) * 300 + 1 * l.val = l.val; omega
  · show V c main_v78 (((cfg4.win 2).blk t).view.emb (ix2 l κ)) = V c main_v78 (ix2 l κ)
    refine congrArg (V c main_v78) (funext fun a => Fin.ext ?_)
    match a with
    | ⟨0, _⟩ => show win4_2.index t (0 : Fin 2) * 300 + 1 * l.val = l.val; omega
    | ⟨1, _⟩ => show win4_2.index t (1 : Fin 2) * 300 + 1 * κ.val = κ.val; omega
  · show V c main_v85 (((cfg4.win 3).blk t).view.emb (ix2 (0 : Fin 1) κ)) = V c main_v85 (ix2 (0 : Fin 1) κ)
    refine congrArg (V c main_v85) (funext fun a => Fin.ext ?_)
    match a with
    | ⟨0, _⟩ => show win4_3.index t (0 : Fin 2) * 1 + 1 * 0 = 0; omega
    | ⟨1, _⟩ => show win4_3.index t (1 : Fin 2) * 300 + 1 * κ.val = κ.val; omega
  · show V c main_v82 (((cfg4.win 4).blk t).view.emb (ix2 κ (col j))) = V c main_v82 (ix2 κ (col (((cfg4.win 6).blk t).view.emb j)))
    refine congrArg (V c main_v82) (funext fun a => Fin.ext ?_)
    match a with
    | ⟨0, _⟩ => show win4_4.index t (0 : Fin 2) * 300 + 1 * κ.val = κ.val; omega
    | ⟨1, _⟩ => show win4_4.index t (1 : Fin 2) * 300 + 1 * (j 1).val = win4_6.index t (1 : Fin 2) * 300 + 1 * (j 1).val; omega
  · show V c main_v86 (((cfg4.win 5).blk t).view.emb (ix2 (0 : Fin 1) (col j))) = V c main_v86 (ix2 (0 : Fin 1) (col (((cfg4.win 6).blk t).view.emb j)))
    refine congrArg (V c main_v86) (funext fun a => Fin.ext ?_)
    match a with
    | ⟨0, _⟩ => show win4_5.index t (0 : Fin 2) * 1 + 1 * 0 = 0; omega
    | ⟨1, _⟩ => show win4_5.index t (1 : Fin 2) * 300 + 1 * (j 1).val = win4_6.index t (1 : Fin 2) * 300 + 1 * (j 1).val; omega

/-- An entry of the result is in tile `t` iff each coordinate is in the tile's range on its axis. -/
theorem mem_tile4 (t : Fin cfg4.N) (i : S100000x300.Idx) :
    i ∈ ((cfg4.win 6).blk t).view.set ↔ ∀ a : Fin 2, win4_6.index t a * S1000x300.size a ≤ (i a).val ∧ (i a).val < win4_6.index t a * S1000x300.size a + S1000x300.size a := by
  show i ∈ ((View.whole main_v87).slice (win4_6.rect t)).set ↔ _
  rw [View.set_slice_whole, Rect.mem_set_unit]
  exact Iff.rfl

/-- Every entry of the result is in some tile that is written back: row `r` is in tile `r / 1000`. -/
theorem tiles_cover4 (i : S100000x300.Idx) :
    ∃ t : Fin cfg4.N, (cfg4.win 6).flush t = true ∧ i ∈ ((cfg4.win 6).blk t).view.set := by
  have hi0 : (i 0).val < 100000 := (i 0).isLt
  have hi1 : (i 1).val < 300 := (i 1).isLt
  have hN : cfg4.N = 100 := N_4
  obtain ⟨t, ht⟩ : ∃ t : Fin cfg4.N, t.val = (i 0).val / 1000 := ⟨⟨(i 0).val / 1000, by rw [hN]; omega⟩, rfl⟩
  obtain ⟨-, -, -, -, -, -, -, -, -, -, -, -, e60, e61⟩ := tiles4 t
  refine ⟨t, flush4_6 t, ?_⟩
  rw [mem_tile4]
  intro a
  match a with
  | ⟨0, _⟩ => show win4_6.index t (0 : Fin 2) * 1000 ≤ (i 0).val ∧ (i 0).val < win4_6.index t (0 : Fin 2) * 1000 + 1000; omega
  | ⟨1, _⟩ => show win4_6.index t (1 : Fin 2) * 300 ≤ (i 1).val ∧ (i 1).val < win4_6.index t (1 : Fin 2) * 300 + 300; omega

/-- The result array after the region: the hidden layer over `h + agg` clamped at zero, then the last layer. -/
theorem final4 : (dat4 (F := Ideal) V c).arrAt 6 cfg4.N
    = affine (clampZ (affine (plus (V c main_v59) (V c main_v76)) (V c main_v78) (V c main_v85))) (V c main_v82) (V c main_v86) :=
  (dat4 (F := Ideal) V c).arrAt_eq_of_cover 6
    (affine (clampZ (affine (plus (V c main_v59) (V c main_v76)) (V c main_v78) (V c main_v85))) (V c main_v82) (V c main_v86))
    (fun t _ => written4_eq V c t) tiles_cover4

end Cert.KernelIdeal.RegionValue

end
-- ==== Proof.Region5.lean ====
/-
  The read-out dense layer as the whole array it leaves.

  The layer walks the 2000 rows of its input in 5 tiles of 400 rows; the weight `[300, 1024]` and the one-row bias
  `[1, 1024]` are read whole at every tile. On a tile the body stores, at row `p` and column `q`,
  `(∑ κ, x (p, κ) * w (κ, q)) + b (0, q)`, where `x` is the tile of the input. Row `p` of tile `t` is row
  `400 t + p` of the input, and the tile is written back to rows `400 t … 400 t + 399` of the result; the tiles
  cover every row (row `r` lies in tile `r / 400`). So the result array is, entry by entry, the input times the weight
  plus the bias row: `affine X W B` of the three arrays as the layer finds them.
-/
import proofs.«124138_j6536940225142_1_alg».proof.Proof.Gen.KernelIdeal.Frame
import proofs.«124138_j6536940225142_1_alg».proof.Proof.LibDense
import proofs.«124138_j6536940225142_1_alg».proof.Proof.LibMatmulRows
import Idealize.ShloMosaic.Lib.Pipeline.Value

noncomputable section

namespace Cert.KernelIdeal.RegionValue

open Cert.KernelIdeal Cert.KernelIdeal.Gen Cert.Dense Cert.MatmulRows
open Idealize.ShloMosaic Idealize.ShloMosaic.TcCoe Idealize.ShloMosaic.ValueIdx Idealize.SL.Sem
open Idealize.ShloMosaic.Pipeline (Dat)

/-! ## What the body stores on a tile, entry by entry -/

/-- Entry `(p, q)` of the tile the body stores: row `p` of the input tile against column `q` of the weight, plus the
    bias at column `q`. -/
theorem tile5_entry (x0 : Vec Ideal S400x300 .f32) (x1 : Vec Ideal S300x1024 .f32) (x2 : Vec Ideal S1x1024 .f32)
    (p : Fin 400) (q : Fin 1024) :
    k5_pay1 x0 x1 x2 (ix2 p q) = (∑ κ : Fin 300, x0 (ix2 p κ) * x1 (ix2 κ q)) + x2 (ix2 (0 : Fin 1) q) := by
  unfold k5_pay1
  simp only [shapeCast_self]
  refine congrArg₂ (· + ·) ?_ ?_
  · exact matmul_plain_apply dot_S400x300_S300x1024_S400x1024_1_0_0_1_n_n none rfl rfl rfl rfl rfl rfl _ _ p q
  · exact broadcastTo_1b_ab_apply x2 _ p q

/-- The tile's entry at `j` is the entry at `i` of the whole-array layer, when row `j` of the tile holds row `i` of
    the input, the tile's weight and bias are the arrays', and `j` and `i` name the same column. -/
theorem tile5_eq_layer (x0 : Vec Ideal S400x300 .f32) (x1 : Vec Ideal S300x1024 .f32) (x2 : Vec Ideal S1x1024 .f32)
    (X : Mat 2000 300) (W : Mat 300 1024) (B : Mat 1 1024) (j : S400x1024.Idx) (i : S2000x1024.Idx)
    (h0 : ∀ κ : Fin 300, x0 (ix2 (row j) κ) = X (ix2 (row i) κ))
    (h1 : ∀ κ : Fin 300, x1 (ix2 κ (col j)) = W (ix2 κ (col i)))
    (h2 : x2 (ix2 (0 : Fin 1) (col j)) = B (ix2 (0 : Fin 1) (col i))) :
    k5_pay1 x0 x1 x2 j = affine X W B i := by
  obtain ⟨p, q, rfl⟩ : ∃ (p : Fin 400) (q : Fin 1024), j = ix2 p q := ⟨j 0, j 1, eq_ix2 j⟩
  rw [tile5_entry]
  show _ = (∑ κ : Fin 300, X (ix2 (row i) κ) * W (ix2 κ (col i))) + B (ix2 (0 : Fin 1) (col i))
  exact congrArg₂ (· + ·) (Finset.sum_congr rfl fun κ _ => congrArg₂ (· * ·) (h0 κ) (h1 κ)) h2

/-! ## From tiles to the array -/

/-- The store's and the loads' offsets are zero on both axes. -/
theorem origin5 : (![0, 0] : Fin 2 → Nat) = fun _ => 0 := funext fun a => by fin_cases a <;> rfl

/-- The printed index maps, decided over the 5 tiles: the input's and the result's tiles sit at the same row block
    `t`, in column block 0; the weight and the bias are always their one whole block. -/
theorem tiles5 : ∀ t : Fin cfg5.N, win5_0.index t (0 : Fin 2) = win5_3.index t (0 : Fin 2)
    ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

variable (V : (c : Dev nD) → (b : Ref sig .tc) → Buf (Elt Ideal) ((c : Thread nD τ).loc b)) (c : Dev nD)

/-- What tile `t` writes back is tile `t` of the whole-array layer of the arrays as the region finds them. -/
theorem written5_eq (t : Fin cfg5.N) :
    (dat5 (F := Ideal) V c).flushed 3 t
      = ((cfg5.win 3).blk t).view.read (Elt Ideal) (affine (V c main_v98) (V c main_arg13) (V c main_v99)) := by
  show (cfg5.win 3).cut (grid5.coords t) ((dat5 (F := Ideal) V c).after 3 t) = _
  rw [after5_3]
  unfold out5_3
  rw [View.canon_unit_zero origin5]
  simp only [View.ld_unit_zero (S := S400x300) origin5, View.ld_unit_zero (S := S300x1024) origin5,
    View.ld_unit_zero (S := S1x1024) origin5]
  obtain ⟨e00, e01, e10, e11, e20, e21, e30, e31⟩ := tiles5 t
  funext j
  show k5_pay1 (iblk5 V c 0 t) (iblk5 V c 1 t) (iblk5 V c 2 t) j
    = affine (V c main_v98) (V c main_arg13) (V c main_v99) (((cfg5.win 3).blk t).view.emb j)
  refine tile5_eq_layer (iblk5 V c 0 t) (iblk5 V c 1 t) (iblk5 V c 2 t) (V c main_v98) (V c main_arg13) (V c main_v99)
    j (((cfg5.win 3).blk t).view.emb j) (fun κ => ?_) (fun κ => ?_) ?_
  · show V c main_v98 (((cfg5.win 0).blk t).view.emb (ix2 (row j) κ)) = V c main_v98 (ix2 (row (((cfg5.win 3).blk t).view.emb j)) κ)
    refine congrArg (V c main_v98) (funext fun a => Fin.ext ?_)
    match a with
    | ⟨0, _⟩ => show win5_0.index t (0 : Fin 2) * 400 + 1 * (j 0).val = win5_3.index t (0 : Fin 2) * 400 + 1 * (j 0).val; omega
    | ⟨1, _⟩ => show win5_0.index t (1 : Fin 2) * 300 + 1 * κ.val = κ.val; omega
  · show V c main_arg13 (((cfg5.win 1).blk t).view.emb (ix2 κ (col j))) = V c main_arg13 (ix2 κ (col (((cfg5.win 3).blk t).view.emb j)))
    refine congrArg (V c main_arg13) (funext fun a => Fin.ext ?_)
    match a with
    | ⟨0, _⟩ => show win5_1.index t (0 : Fin 2) * 300 + 1 * κ.val = κ.val; omega
    | ⟨1, _⟩ => show win5_1.index t (1 : Fin 2) * 1024 + 1 * (j 1).val = win5_3.index t (1 : Fin 2) * 1024 + 1 * (j 1).val; omega
  · show V c main_v99 (((cfg5.win 2).blk t).view.emb (ix2 (0 : Fin 1) (col j))) = V c main_v99 (ix2 (0 : Fin 1) (col (((cfg5.win 3).blk t).view.emb j)))
    refine congrArg (V c main_v99) (funext fun a => Fin.ext ?_)
    match a with
    | ⟨0, _⟩ => show win5_2.index t (0 : Fin 2) * 1 + 1 * 0 = 0; omega
    | ⟨1, _⟩ => show win5_2.index t (1 : Fin 2) * 1024 + 1 * (j 1).val = win5_3.index t (1 : Fin 2) * 1024 + 1 * (j 1).val; omega

/-- An entry of the result is in tile `t` iff each coordinate is in the tile's range on its axis. -/
theorem mem_tile5 (t : Fin cfg5.N) (i : S2000x1024.Idx) :
    i ∈ ((cfg5.win 3).blk t).view.set ↔ ∀ a : Fin 2, win5_3.index t a * S400x1024.size a ≤ (i a).val ∧ (i a).val < win5_3.index t a * S400x1024.size a + S400x1024.size a := by
  show i ∈ ((View.whole main_v100).slice (win5_3.rect t)).set ↔ _
  rw [View.set_slice_whole, Rect.mem_set_unit]
  exact Iff.rfl

/-- Every entry of the result is in some tile that is written back: row `r` is in tile `r / 400`. -/
theorem tiles_cover5 (i : S2000x1024.Idx) :
    ∃ t : Fin cfg5.N, (cfg5.win 3).flush t = true ∧ i ∈ ((cfg5.win 3).blk t).view.set := by
  have hi0 : (i 0).val < 2000 := (i 0).isLt
  have hi1 : (i 1).val < 1024 := (i 1).isLt
  have hN : cfg5.N = 5 := N_5
  obtain ⟨t, ht⟩ : ∃ t : Fin cfg5.N, t.val = (i 0).val / 400 := ⟨⟨(i 0).val / 400, by rw [hN]; omega⟩, rfl⟩
  obtain ⟨-, -, -, -, -, -, e30, e31⟩ := tiles5 t
  refine ⟨t, flush5_3 t, ?_⟩
  rw [mem_tile5]
  intro a
  match a with
  | ⟨0, _⟩ => show win5_3.index t (0 : Fin 2) * 400 ≤ (i 0).val ∧ (i 0).val < win5_3.index t (0 : Fin 2) * 400 + 400; omega
  | ⟨1, _⟩ => show win5_3.index t (1 : Fin 2) * 1024 ≤ (i 1).val ∧ (i 1).val < win5_3.index t (1 : Fin 2) * 1024 + 1024; omega

/-- The result array after the region: the input times the weight plus the bias row. -/
theorem final5 : (dat5 (F := Ideal) V c).arrAt 3 cfg5.N = affine (V c main_v98) (V c main_arg13) (V c main_v99) :=
  (dat5 (F := Ideal) V c).arrAt_eq_of_cover 3 (affine (V c main_v98) (V c main_arg13) (V c main_v99))
    (fun t _ => written5_eq V c t) tiles_cover5

end Cert.KernelIdeal.RegionValue

end
-- ==== Proof.lean ====
/-
  The certificate: the printed kernel program and its idealization run to the end, nothing faulting, with their
  arguments unchanged; the idealization rewrote nothing; and at the ideal instance (floats the extended reals, every
  operation exact, a change of format the identity) the kernel program and the jnp reference, started from memories
  that agree on the sixteen arguments, both return the same array.

  The network is a node projection `relu(X · Wn + bn)`, an edge projection `E · We + be`, three message-passing layers
  `h ← act((relu((h + agg) · W₁ + b₁)) · W₂ + b₂)` with `agg` the scatter-add over destinations of `relu(h[src] + e)`,
  a per-graph mean, a last projection and a leaky clamp. The kernel computes the dense maps in row tiles inside six
  kernel regions and everything else by the same host operations the reference uses. A row tile of `X · W + b` is the
  same rows of the whole product, because an entry of a matrix product depends on one row of the left factor only; the
  tiles cover the rows; so each region leaves the whole-array map (Proof/Region0 … Region5). The regions then act on the
  buffer contents like single operations, the final contents satisfy every operation's equation (Proof/Line), and
  stage by stage they are the reference's values (Proof/Bridge, Proof/BridgePool), the reference's stages being read off its generated run.
  The two sides form the same sums of the same products in the same order; nothing is rearranged, so the finiteness
  of the inputs is never used.
-/
import proofs.«124138_j6536940225142_1_alg».proof.Defs
import proofs.«124138_j6536940225142_1_alg».proof.Proof.Gen.Kernel
import proofs.«124138_j6536940225142_1_alg».proof.Proof.Gen.Kernel.Frame
import proofs.«124138_j6536940225142_1_alg».proof.Proof.Gen.KernelIdeal
import proofs.«124138_j6536940225142_1_alg».proof.Proof.Gen.KernelIdeal.Frame
import proofs.«124138_j6536940225142_1_alg».proof.Proof.Gen.ReferenceIdeal
import proofs.«124138_j6536940225142_1_alg».proof.Proof.Gen.ReferenceIdeal.Run
import proofs.«124138_j6536940225142_1_alg».proof.Proof.Gen.ReferenceIdeal.Read
import proofs.«124138_j6536940225142_1_alg».proof.Proof.Gen.Pre_finite_inputs
import proofs.«124138_j6536940225142_1_alg».proof.Proof.RunAll
import proofs.«124138_j6536940225142_1_alg».proof.Proof.Bridge
import proofs.«124138_j6536940225142_1_alg».proof.Proof.BridgePool
import proofs.«124138_j6536940225142_1_alg».proof.Proof.Region0
import proofs.«124138_j6536940225142_1_alg».proof.Proof.Region1
import proofs.«124138_j6536940225142_1_alg».proof.Proof.Region2
import proofs.«124138_j6536940225142_1_alg».proof.Proof.Region3
import proofs.«124138_j6536940225142_1_alg».proof.Proof.Region4
import proofs.«124138_j6536940225142_1_alg».proof.Proof.Region5

noncomputable section

namespace Cert.Proof

open Idealize.ShloMosaic Idealize.ShloMosaic.TcCoe Idealize.SL.Sem

/-! ## The idealized kernel program's run, with its result named -/

section KernelRun

open Cert.KernelIdeal Cert.KernelIdeal.Gen

variable (m : (ℓ : Loc nD τ sig) → Buf (Elt Ideal) ℓ) (ρ : Dev nD → PrngReg)

/-- Each region leaves its whole-array map of its input arrays as it finds them. -/
theorem finals : Cert.KernelIdeal.Line.Finals m ρ where
  f0 c := Cert.KernelIdeal.RegionValue.final0 (V1 m ρ) c
  f1 c := Cert.KernelIdeal.RegionValue.final1 (V3 m ρ) c
  f2 c := Cert.KernelIdeal.RegionValue.final2 (V7 m ρ) c
  f3 c := Cert.KernelIdeal.RegionValue.final3 (V11 m ρ) c
  f4 c := Cert.KernelIdeal.RegionValue.final4 (V15 m ρ) c
  f5 c := Cert.KernelIdeal.RegionValue.final5 (V17 m ρ) c

/-- The reference's last stage at the kernel program's argument arrays: what both programs return. -/
def result (c : Dev nD) : Buf (Elt Ideal) ((c.tc : Thread nD τ).loc main_v105) :=
  Cert.ReferenceIdeal.Read.val_main_v135 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- Every weakly fair execution of the idealized kernel program ends with the result buffer at `result` and the
    arguments as launched. -/
theorem kernel_run : θ_run (defs (F := Ideal)) (onTc (τ := τ) (main (F := Ideal))) ⟨m, fun _ => 0, ρ⟩ (fun r => ∀ c : Dev nD,
      r.2.mem ((c.tc : Thread nD τ).loc main_v105) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run (defs (F := Ideal)) _ _).mono (fun r h c =>
      ⟨(h c _ (mem_uc main_v105 (by decide))).trans (Cert.KernelIdeal.BridgePool.w_v105 m ρ (finals m ρ) c (Cert.KernelIdeal.Bridge.w_v87 m ρ (finals m ρ) c)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c)⟩)
    (Cert.KernelIdeal.RunAll.run (F := Ideal) m ρ)

end KernelRun

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs return `result`: the kernel program by its run read at the
    final contents, the reference by its generated run, whose term is its last stage. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v135_eq]
  obtain ⟨g0, g1, g2, g3, g4, g5, g6, g7, g8, g9, g10, g11, g12, g13, g14, g15⟩ := hagree c
  rw [g0, g1, g2, g3, g4, g5, g6, g7, g8, g9, g10, g11, g12, g13, g14, g15]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
